-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S100000 : Shape := ⟨1, ![100000]⟩
abbrev S100000x64 : Shape := ⟨2, ![100000, 64]⟩
abbrev S16x1 : Shape := ⟨2, ![16, 1]⟩
abbrev S16 : Shape := ⟨1, ![16]⟩
abbrev S384x336 : Shape := ⟨2, ![384, 336]⟩
abbrev S384x128 : Shape := ⟨2, ![384, 128]⟩
abbrev S384 : Shape := ⟨1, ![384]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S100000x64 : S_.BroadcastsInDim S100000x64 (![] : Fin 0 → Fin S100000x64.rank)
  reducesTo_S100000x64_S_d0_1 : S100000x64.ReducesTo [0, 1] S_
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S384x336 : S_.BroadcastsInDim S384x336 (![] : Fin 0 → Fin S384x336.rank)
  reducesTo_S384x336_S_d0_1 : S384x336.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x128 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg13
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S384 .f32) (main_arg10 : FVec F S384 .f32) (main_arg11 : FVec F S128x256 .f32) (main_arg12 : FVec F S128 .f32) (main_arg13 : FVec F S1x128 .f32) (main_arg14 : FVec F S1 .f32) (main_v33 : IVec S_ 1) : IVec S_ 1 :=
  let main_v34 : FVec F S384 .f32 := Host.absf main_arg9
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S16 .f32) (main_arg7 : FVec F S384x336 .f32) (main_arg8 : FVec F S384x128 .f32) (main_arg9 : FVec F S384 .f32) (main_arg10 : FVec F S384 .f32) (main_arg11 : FVec F S128x256 .f32) (main_arg12 : FVec F S128 .f32) (main_arg13 : FVec F S1x128 .f32) (main_arg14 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S384x336 .f32 := Host.absf main_arg7
  let main_cst_8 : FVec F S_ .f32 := constant S_ .f32 0x7F800000#32
  let main_v25 : FVec F S384x336 .f32 := broadcastInDim S384x336 ![] bcast_S_S384x336 main_cst_8
  let main_v26 : IVec S384x336 1 := cmpf .olt main_v24 main_v25
  let main_c_9 : IVec S_ 1 := constantI S_ 1 1#1
  let main_v27 : IVec S_ 1 := (fun x v => Host.reduce IntOp.andi x v reducesTo_S384x336_S_d0_1 h_S_) main_v26 main_c_9
  let main_v28 : IVec S_ 1 := andi main_v23 main_v27
  let main_v29 : FVec F S384x128 .f32 := Host.absf main_arg8
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S1000000x128 .f32) (main_arg1 : IVec S100000 32) (main_arg2 : IVec S100000 32) (main_arg3 : FVec F S100000 .f32) (main_arg4 : FVec F S100000x64 .f32) (main_arg5 : FVec F S16x1 .f32) (main_arg6 : FVec F S16 .f32) (main_arg7 : FVec F S384x336 .f32) (main_arg8 : FVec F S384x128 .f32) (main_arg9 : FVec F S384 .f32) (main_arg10 : FVec F S384 .f32) (main_arg11 : FVec F S128x256 .f32) (main_arg12 : FVec F S128 .f32) (main_arg13 : FVec F S1x128 .f32) (main_arg14 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S100000 .f32 := Host.absf main_arg3
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S16x1 .f32 := Host.absf main_arg5
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg6 main_arg7 main_arg8 main_arg9 main_arg10 main_arg11 main_arg12 main_arg13 main_arg14 main_v13 main_v16
-- ==== Kernel.lean ====
abbrev S1000000x128 : Shape := ⟨2, ![1000000, 128]⟩
abbrev S100000 : Shape := ⟨1, ![100000]⟩
abbrev S100000x64 : Shape := ⟨2, ![100000, 64]⟩
abbrev S16x1 : Shape := ⟨2, ![16, 1]⟩
abbrev S16 : Shape := ⟨1, ![16]⟩
abbrev S384x336 : Shape := ⟨2, ![384, 336]⟩
abbrev S384x128 : Shape := ⟨2, ![384, 128]⟩
abbrev S384 : Shape := ⟨1, ![384]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S100000x1 : Shape := ⟨2, ![100000, 1]⟩
abbrev S100000x128 : Shape := ⟨2, ![100000, 128]⟩
abbrev S1x16 : Shape := ⟨2, ![1, 16]⟩
abbrev S100000x16 : Shape := ⟨2, ![100000, 16]⟩
abbrev S128x384 : Shape := ⟨2, ![128, 384]⟩
abbrev S384x64 : Shape := ⟨2, ![384, 64]⟩
abbrev S64x384 : Shape := ⟨2, ![64, 384]⟩
abbrev S384x16 : Shape := ⟨2, ![384, 16]⟩
abbrev S16x384 : Shape := ⟨2, ![16, 384]⟩
abbrev S1x384 : Shape := ⟨2, ![1, 384]⟩
abbrev S256x128 : Shape := ⟨2, ![256, 128]⟩
abbrev S1x1 : Shape := ⟨2, ![1, 1]⟩
abbrev S2000x128 : Shape := ⟨2, ![2000, 128]⟩
abbrev S2000x64 : Shape := ⟨2, ![2000, 64]⟩
abbrev S2000x16 : Shape := ⟨2, ![2000, 16]⟩
abbrev S2000x384 : Shape := ⟨2, ![2000, 384]⟩
abbrev S2000x1 : Shape := ⟨2, ![2000, 1]⟩
abbrev S2000x256 : Shape := ⟨2, ![2000, 256]⟩
abbrev S2000 : Shape := ⟨1, ![2000]⟩

abbrev nBuf : Space → Nat
  | .hbm => 103
  | .vmem => 29
  | .smem => 0
  | _ => 0

abbrev bufTy : (tb : Table) → Fin (tcTables nBuf tb) → BufTy
  | .hbm, ⟨0, _⟩ => ⟨S1000000x128, .f32⟩
  | .hbm, ⟨1, _⟩ => ⟨S100000, .i32⟩
  | .hbm, ⟨2, _⟩ => ⟨S100000, .i32⟩
  | .hbm, ⟨3, _⟩ => ⟨S100000, .f32⟩
  | .hbm, ⟨4, _⟩ => ⟨S100000x64, .f32⟩
  | .hbm, ⟨5, _⟩ => ⟨S16x1, .f32⟩
  | .hbm, ⟨6, _⟩ => ⟨S16, .f32⟩
  | .hbm, ⟨7, _⟩ => ⟨S384x336, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S128x256, .f32⟩
  | .hbm, ⟨12, _⟩ => ⟨S128, .f32⟩
  | .hbm, ⟨13, _⟩ => ⟨S1x128, .f32⟩
  | .hbm, ⟨14, _⟩ => ⟨S1, .f32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x128, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x128, .f32⟩
  | .hbm, ⟨33, _⟩ => ⟨S100000x1, .f32⟩
  | .hbm, ⟨34, _⟩ => ⟨S16, .f32⟩
  | .hbm, ⟨35, _⟩ => ⟨S1x16, .f32⟩
  | .hbm, ⟨36, _⟩ => ⟨S100000x16, .f32⟩
  | .hbm, ⟨37, _⟩ => ⟨S100000x16, .f32⟩
  | .hbm, ⟨38, _⟩ => ⟨S100000x16, .f32⟩
  | .hbm, ⟨39, _⟩ => ⟨S1x16, .f32⟩
  | .hbm, ⟨40, _⟩ => ⟨S100000x16, .f32⟩
  | .hbm, ⟨41, _⟩ => ⟨S100000x16, .f32⟩
  | .hbm, ⟨42, _⟩ => ⟨S100000x16, .f32⟩
  | .hbm, ⟨43, _⟩ => ⟨S384x128, .f32⟩
  | .hbm, ⟨44, _⟩ => ⟨S128x384, .f32⟩
  | .hbm, ⟨45, _⟩ => ⟨S128x384, .bf16⟩
  | .hbm, ⟨46, _⟩ => ⟨S384x128, .f32⟩
  | .hbm, ⟨47, _⟩ => ⟨S128x384, .f32⟩
  | .hbm, ⟨48, _⟩ => ⟨S128x384, .bf16⟩
  | .hbm, ⟨49, _⟩ => ⟨S384x64, .f32⟩
  | .hbm, ⟨50, _⟩ => ⟨S64x384, .f32⟩
  | .hbm, ⟨51, _⟩ => ⟨S64x384, .bf16⟩
  | .hbm, ⟨52, _⟩ => ⟨S384x16, .f32⟩
  | .hbm, ⟨53, _⟩ => ⟨S16x384, .f32⟩
  | .hbm, ⟨54, _⟩ => ⟨S16x384, .bf16⟩
  | .hbm, ⟨55, _⟩ => ⟨S128x384, .f32⟩
  | .hbm, ⟨56, _⟩ => ⟨S128x384, .bf16⟩
  | .hbm, ⟨57, _⟩ => ⟨S1x384, .f32⟩
  | .hbm, ⟨58, _⟩ => ⟨S1x384, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S1000000x128, .f32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S1000000x128, .f32⟩
  | .hbm, ⟨79, _⟩ => ⟨S_, .i32⟩
  | .hbm, ⟨80, _⟩ => ⟨S100000, .i32⟩
  | .hbm, ⟨81, _⟩ => ⟨S100000, .i1⟩
  | .hbm, ⟨82, _⟩ => ⟨S_, .i32⟩
  | .hbm, ⟨83, _⟩ => ⟨S100000, .i32⟩
  | .hbm, ⟨84, _⟩ => ⟨S100000, .i32⟩
  | .hbm, ⟨85, _⟩ => ⟨S100000, .i32⟩
  | .hbm, ⟨86, _⟩ => ⟨S100000x1, .i32⟩
  | .hbm, ⟨87, _⟩ => ⟨S100000x128, .f32⟩
  | .hbm, ⟨88, _⟩ => ⟨S_, .i32⟩
  | .hbm, ⟨89, _⟩ => ⟨S100000, .i32⟩
  | .hbm, ⟨90, _⟩ => ⟨S100000, .i1⟩
  | .hbm, ⟨91, _⟩ => ⟨S_, .i32⟩
  | .hbm, ⟨92, _⟩ => ⟨S100000, .i32⟩
  | .hbm, ⟨93, _⟩ => ⟨S100000, .i32⟩
  | .hbm, ⟨94, _⟩ => ⟨S100000, .i32⟩
  | .hbm, ⟨95, _⟩ => ⟨S100000x1, .i32⟩
  | .hbm, ⟨96, _⟩ => ⟨S100000x128, .f32⟩
  | .hbm, ⟨97, _⟩ => ⟨S256x128, .f32⟩
  | .hbm, ⟨98, _⟩ => ⟨S256x128, .bf16⟩
  | .hbm, ⟨99, _⟩ => ⟨S1x128, .f32⟩
  | .hbm, ⟨100, _⟩ => ⟨S1x1, .f32⟩
  | .hbm, ⟨101, _⟩ => ⟨S100000x1, .f32⟩
  | .hbm, ⟨102, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x64, .f32⟩
  | .local _ .vmem, ⟨5, _⟩ => ⟨S2000x64, .f32⟩
  | .local _ .vmem, ⟨6, _⟩ => ⟨S2000x16, .f32⟩
  | .local _ .vmem, ⟨7, _⟩ => ⟨S2000x16, .f32⟩
  | .local _ .vmem, ⟨8, _⟩ => ⟨S128x384, .bf16⟩
  | .local _ .vmem, ⟨9, _⟩ => ⟨S128x384, .bf16⟩
  | .local _ .vmem, ⟨10, _⟩ => ⟨S64x384, .bf16⟩
  | .local _ .vmem, ⟨11, _⟩ => ⟨S16x384, .bf16⟩
  | .local _ .vmem, ⟨12, _⟩ => ⟨S128x384, .bf16⟩
  | .local _ .vmem, ⟨13, _⟩ => ⟨S1x384, .f32⟩
  | .local _ .vmem, ⟨14, _⟩ => ⟨S1x384, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S256x128, .bf16⟩
  | .local _ .vmem, ⟨24, _⟩ => ⟨S1x128, .f32⟩
  | .local _ .vmem, ⟨25, _⟩ => ⟨S1x128, .f32⟩
  | .local _ .vmem, ⟨26, _⟩ => ⟨S1x1, .f32⟩
  | .local _ .vmem, ⟨27, _⟩ => ⟨S2000x1, .f32⟩
  | .local _ .vmem, ⟨28, _⟩ => ⟨S2000x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_c_1 : Ref sig .tc := ⟨.hbm, 24, rfl⟩
abbrev main_call0_v7 : Ref sig .tc := ⟨.hbm, 25, rfl⟩
abbrev main_call0_v8 : Ref sig .tc := ⟨.hbm, 26, rfl⟩
abbrev main_call0_c_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_v39 : Ref sig .tc := ⟨.hbm, 58, rfl⟩
abbrev main_call0_v40_0 : Ref sig .tc := ⟨.hbm, 59, rfl⟩
abbrev main_call0_v40_1 : Ref sig .tc := ⟨.hbm, 60, rfl⟩
abbrev main_call0_c_3 : Ref sig .tc := ⟨.hbm, 61, rfl⟩
abbrev main_call0_v41 : Ref sig .tc := ⟨.hbm, 62, rfl⟩
abbrev main_call0_v42 : Ref sig .tc := ⟨.hbm, 63, rfl⟩
abbrev main_call0_c_4 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_c_5 : Ref sig .tc := ⟨.hbm, 70, rfl⟩
abbrev main_call0_v48 : Ref sig .tc := ⟨.hbm, 71, rfl⟩
abbrev main_call0_v49 : Ref sig .tc := ⟨.hbm, 72, rfl⟩
abbrev main_call0_c_6 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_v0_1 : Ref sig .tc := ⟨.hbm, 78, rfl⟩
abbrev main_call0_c_7 : Ref sig .tc := ⟨.hbm, 79, rfl⟩
abbrev main_call0_v55 : Ref sig .tc := ⟨.hbm, 80, rfl⟩
abbrev main_call0_v56 : Ref sig .tc := ⟨.hbm, 81, rfl⟩
abbrev main_call0_c_8 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_c_9 : Ref sig .tc := ⟨.hbm, 88, rfl⟩
abbrev main_call0_v62 : Ref sig .tc := ⟨.hbm, 89, rfl⟩
abbrev main_call0_v63 : Ref sig .tc := ⟨.hbm, 90, rfl⟩
abbrev main_call0_c_10 : Ref sig .tc := ⟨.hbm, 91, rfl⟩
abbrev main_call0_v64 : Ref sig .tc := ⟨.hbm, 92, rfl⟩
abbrev main_call0_v65 : Ref sig .tc := ⟨.hbm, 93, rfl⟩
abbrev main_call0_v66 : Ref sig .tc := ⟨.hbm, 94, rfl⟩
abbrev main_call0_v67 : Ref sig .tc := ⟨.hbm, 95, rfl⟩
abbrev main_call0_v68 : Ref sig .tc := ⟨.hbm, 96, rfl⟩
abbrev main_call0_v69 : Ref sig .tc := ⟨.hbm, 97, rfl⟩
abbrev main_call0_v70 : Ref sig .tc := ⟨.hbm, 98, rfl⟩
abbrev main_call0_v71 : Ref sig .tc := ⟨.hbm, 99, rfl⟩
abbrev main_call0_v72 : Ref sig .tc := ⟨.hbm, 100, rfl⟩
abbrev main_call0_v73 : Ref sig .tc := ⟨.hbm, 101, rfl⟩
abbrev main_v0_0 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S16x1_S16 : S16x1.ShapeCasts S16
  bcast_S16_S1x16_1 : S16.BroadcastsInDim S1x16 (![1] : Fin 1 → Fin S1x16.rank)
  bcast_S100000x1_S100000x16_0_1 : S100000x1.BroadcastsInDim S100000x16 (![0, 1] : Fin 2 → Fin S100000x16.rank)
  bcast_S1x16_S100000x16_0_1 : S1x16.BroadcastsInDim S100000x16 (![0, 1] : Fin 2 → Fin S100000x16.rank)
  slices_S384x336_S384x128_0_0 : S384x336.Slices ![0, 0] S384x128
  transposes_S384x128_S128x384_1_0 : S384x128.Transposes [1, 0] S128x384
  bitsLt_bf16_f32 : FTy.bits .bf16 < FTy.bits .f32
  slices_S384x336_S384x128_0_128 : S384x336.Slices ![0, 128] S384x128
  slices_S384x336_S384x64_0_256 : S384x336.Slices ![0, 256] S384x64
  transposes_S384x64_S64x384_1_0 : S384x64.Transposes [1, 0] S64x384
  slices_S384x336_S384x16_0_320 : S384x336.Slices ![0, 320] S384x16
  transposes_S384x16_S16x384_1_0 : S384x16.Transposes [1, 0] S16x384
  bcast_S384_S1x384_1 : S384.BroadcastsInDim S1x384 (![1] : Fin 1 → Fin S1x384.rank)
  transposes_S128x256_S256x128_1_0 : S128x256.Transposes [1, 0] S256x128
  bcast_S128_S1x128_1 : S128.BroadcastsInDim S1x128 (![1] : Fin 1 → Fin S1x128.rank)
  bcast_S1_S1x1_1 : S1.BroadcastsInDim S1x1 (![1] : Fin 1 → Fin S1x1.rank)
  shapeCasts_S100000x1_S100000 : S100000x1.ShapeCasts S100000
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x64_S2000x64_0_0 : ∀ a, (![0, 0] : Fin 2 → Nat) a + S2000x64.size a ≤ S2000x64.size a
  h_S2000x64 : 0 < S2000x64.numel
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S16x384_S16x384_0_0 : ∀ a, (![0, 0] : Fin 2 → Nat) a + S16x384.size a ≤ S16x384.size a
  h_S16x384 : 0 < S16x384.numel
  shapeCasts_S16x384_S16x384 : S16x384.ShapeCasts S16x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S1000000x128_S100000x1_S100000x128_1_0_n_n_0_1_1128_wf : GatherDims.WF S1000000x128 S100000x1 S100000x128 [1] [0] [] [0] [] 1 ![1, 128]
  scatter_S1000000x128_S100000x1_S100000x128_1_0_0_1_wf : ScatterDims.WF S1000000x128 S100000x1 S100000x128 [1] [0] [0] 1
  dot_S2000x128_S128x384_S2000x384_1_0_0_1_n_n_wf : DotDims.WF S2000x128 S128x384 S2000x384 [1] [0] [0] [1] [] []
  dot_S2000x64_S64x384_S2000x384_1_0_0_1_n_n_wf : DotDims.WF S2000x64 S64x384 S2000x384 [1] [0] [0] [1] [] []
  dot_S2000x16_S16x384_S2000x384_1_0_0_1_n_n_wf : DotDims.WF S2000x16 S16x384 S2000x384 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .bf16 = 32 ∨ (Rect.block (s := S128x384) S128x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .bf16 = 32 ∨ (Rect.block (s := S128x384) S128x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x384.size a ≤ S64x384.size a
  hwx0_6 : ∀ i : grid0.Coords, EltTy.bits .bf16 = 32 ∨ (Rect.block (s := S64x384) S64x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x384.size a ≤ S16x384.size a
  hwx0_7 : ∀ i : grid0.Coords, EltTy.bits .bf16 = 32 ∨ (Rect.block (s := S16x384) S16x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x384.size a ≤ S128x384.size a
  hwx0_8 : ∀ i : grid0.Coords, EltTy.bits .bf16 = 32 ∨ (Rect.block (s := S128x384) S128x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S100000x128.size a
  hwx0_12 : ∀ i : grid0.Coords, EltTy.bits .f32 = 32 ∨ (Rect.block (s := S100000x128) S2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S100000x1.size a
  hwx1_6 : ∀ i : grid1.Coords, EltTy.bits .f32 = 32 ∨ (Rect.block (s := S100000x1) S2000x1.size (cc1_transform_6 i) (hinb1_6 i)).WholeWords (EltTy.packing .f32)

variable [Facts₀]

def gather_S1000000x128_S100000x1_S100000x128_1_0_n_n_0_1_1128 : GatherDims S1000000x128 S100000x1 S100000x128 where
  offsetDims := [1]
  collapsedSliceDims := [0]
  operandBatchingDims := []
  startIndicesBatchingDims := []
  startIndexMap := [0]
  indexVectorDim := 1
  sliceSizes := ![1, 128]
  wf := gather_S1000000x128_S100000x1_S100000x128_1_0_n_n_0_1_1128_wf
def scatter_S1000000x128_S100000x1_S100000x128_1_0_0_1 : ScatterDims S1000000x128 S100000x1 S100000x128 where
  updateWindowDims := [1]
  insertedWindowDims := [0]
  scatterDimsToOperandDims := [0]
  indexVectorDim := 1
  wf := scatter_S1000000x128_S100000x1_S100000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x64_S64x384_S2000x384_1_0_0_1_n_n : DotDims S2000x64 S64x384 S2000x384 where
  lhsContracting := [1]
  rhsContracting := [0]
  lhsNonContracting := [0]
  rhsNonContracting := [1]
  lhsBatch := []
  rhsBatch := []
  wf := dot_S2000x64_S64x384_S2000x384_1_0_0_1_n_n_wf
def dot_S2000x16_S16x384_S2000x384_1_0_0_1_n_n : DotDims S2000x16 S16x384 S2000x384 where
  lhsContracting := [1]
  rhsContracting := [0]
  lhsNonContracting := [0]
  rhsNonContracting := [1]
  lhsBatch := []
  rhsBatch := []
  wf := dot_S2000x16_S16x384_S2000x384_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_call0_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S2000x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v26) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v29) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v32) S64x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v35) S16x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v37) S128x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v38) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v39) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v40_0) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_call0_v40_1) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_call0_v61) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v68) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v70) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v71) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v72) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v73) S2000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S100000 : Shape := ⟨1, ![100000]⟩
abbrev S100000x64 : Shape := ⟨2, ![100000, 64]⟩
abbrev S16x1 : Shape := ⟨2, ![16, 1]⟩
abbrev S16 : Shape := ⟨1, ![16]⟩
abbrev S384x336 : Shape := ⟨2, ![384, 336]⟩
abbrev S384x128 : Shape := ⟨2, ![384, 128]⟩
abbrev S384 : Shape := ⟨1, ![384]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S100000x1 : Shape := ⟨2, ![100000, 1]⟩
abbrev S100000x128 : Shape := ⟨2, ![100000, 128]⟩
abbrev S1x16 : Shape := ⟨2, ![1, 16]⟩
abbrev S100000x16 : Shape := ⟨2, ![100000, 16]⟩
abbrev S100000x336 : Shape := ⟨2, ![100000, 336]⟩
abbrev S336x384 : Shape := ⟨2, ![336, 384]⟩
abbrev S100000x384 : Shape := ⟨2, ![100000, 384]⟩
abbrev S1x384 : Shape := ⟨2, ![1, 384]⟩
abbrev S128x384 : Shape := ⟨2, ![128, 384]⟩
abbrev S100000x256 : Shape := ⟨2, ![100000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S1000000x128, .f32⟩
  | 1 => ⟨S100000, .i32⟩
  | 2 => ⟨S100000, .i32⟩
  | 3 => ⟨S100000, .f32⟩
  | 4 => ⟨S100000x64, .f32⟩
  | 5 => ⟨S16x1, .f32⟩
  | 6 => ⟨S16, .f32⟩
  | 7 => ⟨S384x336, .f32⟩
  | 8 => ⟨S384x128, .f32⟩
  | 9 => ⟨S384, .f32⟩
  | 10 => ⟨S384, .f32⟩
  | 11 => ⟨S128x256, .f32⟩
  | 12 => ⟨S128, .f32⟩
  | 13 => ⟨S1x128, .f32⟩
  | 14 => ⟨S1, .f32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x128, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x128, .f32⟩
  | 33 => ⟨S100000x1, .f32⟩
  | 34 => ⟨S1x16, .f32⟩
  | 35 => ⟨S100000x16, .f32⟩
  | 36 => ⟨S1x16, .f32⟩
  | 37 => ⟨S100000x16, .f32⟩
  | 38 => ⟨S100000x16, .f32⟩
  | 39 => ⟨S100000x16, .f32⟩
  | 40 => ⟨S100000x336, .f32⟩
  | 41 => ⟨S336x384, .f32⟩
  | 42 => ⟨S100000x384, .f32⟩
  | 43 => ⟨S1x384, .f32⟩
  | 44 => ⟨S100000x384, .f32⟩
  | 45 => ⟨S100000x384, .f32⟩
  | 46 => ⟨S128x384, .f32⟩
  | 47 => ⟨S100000x384, .f32⟩
  | 48 => ⟨S1x384, .f32⟩
  | 49 => ⟨S100000x384, .f32⟩
  | 50 => ⟨S100000x384, .f32⟩
  | 51 => ⟨S100000x128, .f32⟩
  | 52 => ⟨S100000x128, .f32⟩
  | 53 => ⟨S100000x128, .f32⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S100000x128, .f32⟩
  | 83 => ⟨S100000x128, .f32⟩
  | 84 => ⟨S336x384, .f32⟩
  | 85 => ⟨S100000x384, .f32⟩
  | 86 => ⟨S1x384, .f32⟩
  | 87 => ⟨S100000x384, .f32⟩
  | 88 => ⟨S100000x384, .f32⟩
  | 89 => ⟨S128x384, .f32⟩
  | 90 => ⟨S100000x384, .f32⟩
  | 91 => ⟨S1x384, .f32⟩
  | 92 => ⟨S100000x384, .f32⟩
  | 93 => ⟨S100000x384, .f32⟩
  | 94 => ⟨S100000x128, .f32⟩
  | 95 => ⟨S100000x128, .f32⟩
  | 96 => ⟨S100000x128, .f32⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S_, .i32⟩
  | _ => ⟨S1000000x128, .f32⟩

abbrev hbmTy0_1 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S1000000x128, .f32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S1000000x128, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x128, .f32⟩
  | 35 => ⟨S100000x256, .f32⟩
  | 36 => ⟨S256x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S128x1, .f32⟩
  | 45 => ⟨S100000x1, .f32⟩
  | 46 => ⟨S1x1, .f32⟩
  | 47 => ⟨S100000x1, .f32⟩
  | 48 => ⟨S100000x1, .f32⟩
  | 49 => ⟨S100000, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_7 : Ref sig .tc := ⟨.hbm, 103, rfl⟩
abbrev main_v79 : Ref sig .tc := ⟨.hbm, 104, rfl⟩
abbrev main_v80 : Ref sig .tc := ⟨.hbm, 105, rfl⟩
abbrev main_cst_8 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_9 : Ref sig .tc := ⟨.hbm, 112, rfl⟩
abbrev main_v86 : Ref sig .tc := ⟨.hbm, 113, rfl⟩
abbrev main_v87 : Ref sig .tc := ⟨.hbm, 114, rfl⟩
abbrev main_cst_10 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_11 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_12 : Ref sig .tc := ⟨.hbm, 127, rfl⟩
abbrev main_v98 : Ref sig .tc := ⟨.hbm, 128, rfl⟩
abbrev main_v99 : Ref sig .tc := ⟨.hbm, 129, rfl⟩
abbrev main_c_13 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_14 : Ref sig .tc := ⟨.hbm, 136, rfl⟩
abbrev main_v105 : Ref sig .tc := ⟨.hbm, 137, rfl⟩
abbrev main_v106 : Ref sig .tc := ⟨.hbm, 138, rfl⟩
abbrev main_c_15 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_16 : Ref sig .tc := ⟨.hbm, 145, rfl⟩
abbrev main_v112 : Ref sig .tc := ⟨.hbm, 146, rfl⟩
abbrev main_v113 : Ref sig .tc := ⟨.hbm, 147, rfl⟩
abbrev main_c_17 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_c_18 : Ref sig .tc := ⟨.hbm, 154, rfl⟩
abbrev main_v119 : Ref sig .tc := ⟨.hbm, 155, rfl⟩
abbrev main_v120 : Ref sig .tc := ⟨.hbm, 156, rfl⟩
abbrev main_c_19 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_call0_cst : Ref sig .tc := ⟨.hbm, 169, rfl⟩
abbrev main_call0_v0 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S16x1_S1x16_1_0 : S16x1.Transposes [1, 0] S1x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x128_S100000x128_S100000x64_S100000x16_S100000x336_d1 : Shape.Concatenates [S100000x128, S100000x128, S100000x64, S100000x16] S100000x336 1
  transposes_S384x336_S336x384_1_0 : S384x336.Transposes [1, 0] S336x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  transposes_S384x128_S128x384_1_0 : S384x128.Transposes [1, 0] S128x384
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S1000000x128_S100000x1_S100000x128_1_0_n_n_0_1_1128_wf : GatherDims.WF S1000000x128 S100000x1 S100000x128 [1] [0] [] [0] [] 1 ![1, 128]
  dot_S100000x1_S1x16_S100000x16_1_0_0_1_n_n_wf : DotDims.WF S100000x1 S1x16 S100000x16 [1] [0] [0] [1] [] []
  dot_S100000x336_S336x384_S100000x384_1_0_0_1_n_n_wf : DotDims.WF S100000x336 S336x384 S100000x384 [1] [0] [0] [1] [] []
  dot_S100000x128_S128x384_S100000x384_1_0_0_1_n_n_wf : DotDims.WF S100000x128 S128x384 S100000x384 [1] [0] [0] [1] [] []
  scatter_S1000000x128_S100000x1_S100000x128_1_0_0_1_wf : ScatterDims.WF S1000000x128 S100000x1 S100000x128 [1] [0] [0] 1
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def gather_S1000000x128_S100000x1_S100000x128_1_0_n_n_0_1_1128 : GatherDims S1000000x128 S100000x1 S100000x128 where
  offsetDims := [1]
  collapsedSliceDims := [0]
  operandBatchingDims := []
  startIndicesBatchingDims := []
  startIndexMap := [0]
  indexVectorDim := 1
  sliceSizes := ![1, 128]
  wf := gather_S1000000x128_S100000x1_S100000x128_1_0_n_n_0_1_1128_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def dot_S100000x336_S336x384_S100000x384_1_0_0_1_n_n : DotDims S100000x336 S336x384 S100000x384 where
  lhsContracting := [1]
  rhsContracting := [0]
  lhsNonContracting := [0]
  rhsNonContracting := [1]
  lhsBatch := []
  rhsBatch := []
  wf := dot_S100000x336_S336x384_S100000x384_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S1000000x128_S100000x1_S100000x128_1_0_0_1 : ScatterDims S1000000x128 S100000x1 S100000x128 where
  updateWindowDims := [1]
  insertedWindowDims := [0]
  scatterDimsToOperandDims := [0]
  indexVectorDim := 1
  wf := scatter_S1000000x128_S100000x1_S100000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel program's run, with every buffer named at the end.

  The program is five segments: host operations, the recurrent-update kernel over fifty blocks of 2000 events,
  host operations (the two scatters into the memory table and the two gathers from the updated table), the
  predictor kernel over the same fifty blocks, and one last host operation (a column read as a vector). The
  contents of every buffer at each boundary are a fold from the launch memory: a stretch of host operations
  applies them in order, a kernel region replaces each of its arrays by what its write-backs leave and keeps
  every other buffer. Every weakly fair execution terminates, and at the end EVERY unscoped buffer holds the
  last boundary's contents — in particular the two result buffers, which the later modules read back through
  the fold.
-/
import proofs.«138008_j16372415332401_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and any property of the final memory
    that follows from "every unscoped buffer holds the last boundary's contents" holds at the end. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

end Cert.KernelIdeal.RunAll

end
-- ==== Proof.KernelHost.lean ====
/-
  The host operations of the kernel program, stage by stage: each buffer a stretch of host operations writes, as a
  function of the arrays the stretch starts from. The first stretch gathers the source and destination rows of the
  memory table, computes the time embedding sin (t · w + b), cuts the input weight matrix into its four column
  blocks and transposes them, transposes the hidden weights and turns the two bias vectors into rows. The second
  stretch scatters the two updated states into the table (source rows first, then destination rows), gathers both
  rows again from the updated table, transposes the predictor's weight matrix and turns its biases into rows.
  The contents of the buffers when each kernel region is entered are these functions of the launch memory.
-/
import proofs.«138008_j16372415332401_2_alg».proof.Proof.Gen.KernelIdeal.Frame
import Idealize.ShloMosaic.PureOps.Ideal
import Idealize.ShloMosaic.Lib.StableHlo.Run
import Idealize.ShloMosaic.Lib.ValueIdx

set_option maxRecDepth 16384

noncomputable section

namespace Cert.KernelIdeal.Host

open Cert.KernelIdeal Cert.KernelIdeal.Gen Idealize.ShloMosaic.StableHlo
open Idealize.ShloMosaic Idealize.ShloMosaic.ValueIdx Idealize.ShloMosaic.TcCoe Idealize.SL.Sem
open Idealize.ShloMosaic.Pipeline (Dat Cfg Window)

/-! ## The first stretch -/

def hk_main_call0_c  : (⟨S_, .i32⟩ : BufTy).Contents (Elt Ideal) :=
  (constantI S_ 32 0#32)
def hk_main_call0_v0  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c)
def hk_main_call0_v1 (x_main_arg1 : (⟨S100000, .i32⟩ : BufTy).Contents (Elt Ideal)) : (⟨S100000, .i1⟩ : BufTy).Contents (Elt Ideal) :=
  ((cmpi .slt) : (⟨S100000, .i32⟩ : BufTy).Contents (Elt Ideal) → (⟨S100000, .i32⟩ : BufTy).Contents (Elt Ideal) → (⟨S100000, .i1⟩ : BufTy).Contents (Elt Ideal)) x_main_arg1 (hk_main_call0_v0)
def hk_main_call0_c_0  : (⟨S_, .i32⟩ : BufTy).Contents (Elt Ideal) :=
  (constantI S_ 32 1000000#32)
def hk_main_call0_v2  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_0)
def hk_main_call0_v3 (x_main_arg1 : (⟨S100000, .i32⟩ : BufTy).Contents (Elt Ideal)) : (⟨S100000, .i32⟩ : BufTy).Contents (Elt Ideal) :=
  (addi : (⟨S100000, .i32⟩ : BufTy).Contents (Elt Ideal) → (⟨S100000, .i32⟩ : BufTy).Contents (Elt Ideal) → (⟨S100000, .i32⟩ : BufTy).Contents (Elt Ideal)) x_main_arg1 (hk_main_call0_v2)
def hk_main_call0_v4 (x_main_arg1 : (⟨S100000, .i32⟩ : BufTy).Contents (Elt Ideal)) : (⟨S100000, .i32⟩ : BufTy).Contents (Elt Ideal) :=
  (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) (hk_main_call0_v1 x_main_arg1) (hk_main_call0_v3 x_main_arg1) x_main_arg1
def hk_main_call0_v5 (x_main_arg1 : (⟨S100000, .i32⟩ : BufTy).Contents (Elt Ideal)) : (⟨S100000x1, .i32⟩ : BufTy).Contents (Elt Ideal) :=
  ((broadcastInDim S100000x1 ![0] bcast_S100000_S100000x1_0) : (⟨S100000, .i32⟩ : BufTy).Contents (Elt Ideal) → (⟨S100000x1, .i32⟩ : BufTy).Contents (Elt Ideal)) (hk_main_call0_v4 x_main_arg1)
def hk_main_call0_v6 (x_main_arg0 : (⟨S1000000x128, .f32⟩ : BufTy).Contents (Elt Ideal)) (x_main_arg1 : (⟨S100000, .i32⟩ : BufTy).Contents (Elt Ideal)) : (⟨S100000x128, .f32⟩ : BufTy).Contents (Elt Ideal) :=
  ((fun x i => Host.gather gather_S1000000x128_S100000x1_S100000x128_1_0_n_n_0_1_1128 x i) : (⟨S1000000x128, .f32⟩ : BufTy).Contents (Elt Ideal) → (⟨S100000x1, .i32⟩ : BufTy).Contents (Elt Ideal) → (⟨S100000x128, .f32⟩ : BufTy).Contents (Elt Ideal)) x_main_arg0 (hk_main_call0_v5 x_main_arg1)
def hk_main_call0_c_1  : (⟨S_, .i32⟩ : BufTy).Contents (Elt Ideal) :=
  (constantI S_ 32 0#32)
def hk_main_call0_v7  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_1)
def hk_main_call0_v8 (x_main_arg2 : (⟨S100000, .i32⟩ : BufTy).Contents (Elt Ideal)) : (⟨S100000, .i1⟩ : BufTy).Contents (Elt Ideal) :=
  ((cmpi .slt) : (⟨S100000, .i32⟩ : BufTy).Contents (Elt Ideal) → (⟨S100000, .i32⟩ : BufTy).Contents (Elt Ideal) → (⟨S100000, .i1⟩ : BufTy).Contents (Elt Ideal)) x_main_arg2 (hk_main_call0_v7)
def hk_main_call0_c_2  : (⟨S_, .i32⟩ : BufTy).Contents (Elt Ideal) :=
  (constantI S_ 32 1000000#32)
def hk_main_call0_v9  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_2)
def hk_main_call0_v10 (x_main_arg2 : (⟨S100000, .i32⟩ : BufTy).Contents (Elt Ideal)) : (⟨S100000, .i32⟩ : BufTy).Contents (Elt Ideal) :=
  (addi : (⟨S100000, .i32⟩ : BufTy).Contents (Elt Ideal) → (⟨S100000, .i32⟩ : BufTy).Contents (Elt Ideal) → (⟨S100000, .i32⟩ : BufTy).Contents (Elt Ideal)) x_main_arg2 (hk_main_call0_v9)
def hk_main_call0_v11 (x_main_arg2 : (⟨S100000, .i32⟩ : BufTy).Contents (Elt Ideal)) : (⟨S100000, .i32⟩ : BufTy).Contents (Elt Ideal) :=
  (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) (hk_main_call0_v8 x_main_arg2) (hk_main_call0_v10 x_main_arg2) x_main_arg2
def hk_main_call0_v12 (x_main_arg2 : (⟨S100000, .i32⟩ : BufTy).Contents (Elt Ideal)) : (⟨S100000x1, .i32⟩ : BufTy).Contents (Elt Ideal) :=
  ((broadcastInDim S100000x1 ![0] bcast_S100000_S100000x1_0) : (⟨S100000, .i32⟩ : BufTy).Contents (Elt Ideal) → (⟨S100000x1, .i32⟩ : BufTy).Contents (Elt Ideal)) (hk_main_call0_v11 x_main_arg2)
def hk_main_call0_v13 (x_main_arg0 : (⟨S1000000x128, .f32⟩ : BufTy).Contents (Elt Ideal)) (x_main_arg2 : (⟨S100000, .i32⟩ : BufTy).Contents (Elt Ideal)) : (⟨S100000x128, .f32⟩ : BufTy).Contents (Elt Ideal) :=
  ((fun x i => Host.gather gather_S1000000x128_S100000x1_S100000x128_1_0_n_n_0_1_1128 x i) : (⟨S1000000x128, .f32⟩ : BufTy).Contents (Elt Ideal) → (⟨S100000x1, .i32⟩ : BufTy).Contents (Elt Ideal) → (⟨S100000x128, .f32⟩ : BufTy).Contents (Elt Ideal)) x_main_arg0 (hk_main_call0_v12 x_main_arg2)
def hk_main_call0_v14 (x_main_arg3 : (⟨S100000, .f32⟩ : BufTy).Contents (Elt Ideal)) : (⟨S100000x1, .f32⟩ : BufTy).Contents (Elt Ideal) :=
  ((broadcastInDim S100000x1 ![0] bcast_S100000_S100000x1_0) : (⟨S100000, .f32⟩ : BufTy).Contents (Elt Ideal) → (⟨S100000x1, .f32⟩ : BufTy).Contents (Elt Ideal)) x_main_arg3
def hk_main_call0_v15 (x_main_arg5 : (⟨S16x1, .f32⟩ : BufTy).Contents (Elt Ideal)) : (⟨S16, .f32⟩ : BufTy).Contents (Elt Ideal) :=
  shapeCast S16 x_main_arg5 shapeCasts_S16x1_S16
def hk_main_call0_v16 (x_main_arg5 : (⟨S16x1, .f32⟩ : BufTy).Contents (Elt Ideal)) : (⟨S1x16, .f32⟩ : BufTy).Contents (Elt Ideal) :=
  ((broadcastInDim S1x16 ![1] bcast_S16_S1x16_1) : (⟨S16, .f32⟩ : BufTy).Contents (Elt Ideal) → (⟨S1x16, .f32⟩ : BufTy).Contents (Elt Ideal)) (hk_main_call0_v15 x_main_arg5)
def hk_main_call0_v17 (x_main_arg3 : (⟨S100000, .f32⟩ : BufTy).Contents (Elt Ideal)) : (⟨S100000x16, .f32⟩ : BufTy).Contents (Elt Ideal) :=
  ((broadcastInDim S100000x16 ![0, 1] bcast_S100000x1_S100000x16_0_1) : (⟨S100000x1, .f32⟩ : BufTy).Contents (Elt Ideal) → (⟨S100000x16, .f32⟩ : BufTy).Contents (Elt Ideal)) (hk_main_call0_v14 x_main_arg3)
def hk_main_call0_v18 (x_main_arg5 : (⟨S16x1, .f32⟩ : BufTy).Contents (Elt Ideal)) : (⟨S100000x16, .f32⟩ : BufTy).Contents (Elt Ideal) :=
  ((broadcastInDim S100000x16 ![0, 1] bcast_S1x16_S100000x16_0_1) : (⟨S1x16, .f32⟩ : BufTy).Contents (Elt Ideal) → (⟨S100000x16, .f32⟩ : BufTy).Contents (Elt Ideal)) (hk_main_call0_v16 x_main_arg5)
def hk_main_call0_v19 (x_main_arg3 : (⟨S100000, .f32⟩ : BufTy).Contents (Elt Ideal)) (x_main_arg5 : (⟨S16x1, .f32⟩ : BufTy).Contents (Elt Ideal)) : (⟨S100000x16, .f32⟩ : BufTy).Contents (Elt Ideal) :=
  mulf (F := Ideal) (s := S100000x16) (φ := .f32) (hk_main_call0_v17 x_main_arg3) (hk_main_call0_v18 x_main_arg5)
def hk_main_call0_v20 (x_main_arg6 : (⟨S16, .f32⟩ : BufTy).Contents (Elt Ideal)) : (⟨S1x16, .f32⟩ : BufTy).Contents (Elt Ideal) :=
  ((broadcastInDim S1x16 ![1] bcast_S16_S1x16_1) : (⟨S16, .f32⟩ : BufTy).Contents (Elt Ideal) → (⟨S1x16, .f32⟩ : BufTy).Contents (Elt Ideal)) x_main_arg6
def hk_main_call0_v21 (x_main_arg6 : (⟨S16, .f32⟩ : BufTy).Contents (Elt Ideal)) : (⟨S100000x16, .f32⟩ : BufTy).Contents (Elt Ideal) :=
  ((broadcastInDim S100000x16 ![0, 1] bcast_S1x16_S100000x16_0_1) : (⟨S1x16, .f32⟩ : BufTy).Contents (Elt Ideal) → (⟨S100000x16, .f32⟩ : BufTy).Contents (Elt Ideal)) (hk_main_call0_v20 x_main_arg6)
def hk_main_call0_v22 (x_main_arg3 : (⟨S100000, .f32⟩ : BufTy).Contents (Elt Ideal)) (x_main_arg5 : (⟨S16x1, .f32⟩ : BufTy).Contents (Elt Ideal)) (x_main_arg6 : (⟨S16, .f32⟩ : BufTy).Contents (Elt Ideal)) : (⟨S100000x16, .f32⟩ : BufTy).Contents (Elt Ideal) :=
  addf (F := Ideal) (s := S100000x16) (φ := .f32) (hk_main_call0_v19 x_main_arg3 x_main_arg5) (hk_main_call0_v21 x_main_arg6)
def hk_main_call0_v23 (x_main_arg3 : (⟨S100000, .f32⟩ : BufTy).Contents (Elt Ideal)) (x_main_arg5 : (⟨S16x1, .f32⟩ : BufTy).Contents (Elt Ideal)) (x_main_arg6 : (⟨S16, .f32⟩ : BufTy).Contents (Elt Ideal)) : (⟨S100000x16, .f32⟩ : BufTy).Contents (Elt Ideal) :=
  Host.sin (F := Ideal) (s := S100000x16) (φ := .f32) (hk_main_call0_v22 x_main_arg3 x_main_arg5 x_main_arg6)
def hk_main_call0_v24 (x_main_arg7 : (⟨S384x336, .f32⟩ : BufTy).Contents (Elt Ideal)) : (⟨S384x128, .f32⟩ : BufTy).Contents (Elt Ideal) :=
  ((extractStridedSlice S384x128 ![0, 0] · slices_S384x336_S384x128_0_0) : (⟨S384x336, .f32⟩ : BufTy).Contents (Elt Ideal) → (⟨S384x128, .f32⟩ : BufTy).Contents (Elt Ideal)) x_main_arg7
def hk_main_call0_v25 (x_main_arg7 : (⟨S384x336, .f32⟩ : BufTy).Contents (Elt Ideal)) : (⟨S128x384, .f32⟩ : BufTy).Contents (Elt Ideal) :=
  ((transpose S128x384 [1, 0] · transposes_S384x128_S128x384_1_0) : (⟨S384x128, .f32⟩ : BufTy).Contents (Elt Ideal) → (⟨S128x384, .f32⟩ : BufTy).Contents (Elt Ideal)) (hk_main_call0_v24 x_main_arg7)
def hk_main_call0_v26 (x_main_arg7 : (⟨S384x336, .f32⟩ : BufTy).Contents (Elt Ideal)) : (⟨S128x384, .bf16⟩ : BufTy).Contents (Elt Ideal) :=
  truncf (F := Ideal) (s := S128x384) (φ := .f32) .bf16 (hk_main_call0_v25 x_main_arg7) bitsLt_bf16_f32
def hk_main_call0_v27 (x_main_arg7 : (⟨S384x336, .f32⟩ : BufTy).Contents (Elt Ideal)) : (⟨S384x128, .f32⟩ : BufTy).Contents (Elt Ideal) :=
  ((extractStridedSlice S384x128 ![0, 128] · slices_S384x336_S384x128_0_128) : (⟨S384x336, .f32⟩ : BufTy).Contents (Elt Ideal) → (⟨S384x128, .f32⟩ : BufTy).Contents (Elt Ideal)) x_main_arg7
def hk_main_call0_v28 (x_main_arg7 : (⟨S384x336, .f32⟩ : BufTy).Contents (Elt Ideal)) : (⟨S128x384, .f32⟩ : BufTy).Contents (Elt Ideal) :=
  ((transpose S128x384 [1, 0] · transposes_S384x128_S128x384_1_0) : (⟨S384x128, .f32⟩ : BufTy).Contents (Elt Ideal) → (⟨S128x384, .f32⟩ : BufTy).Contents (Elt Ideal)) (hk_main_call0_v27 x_main_arg7)
def hk_main_call0_v29 (x_main_arg7 : (⟨S384x336, .f32⟩ : BufTy).Contents (Elt Ideal)) : (⟨S128x384, .bf16⟩ : BufTy).Contents (Elt Ideal) :=
  truncf (F := Ideal) (s := S128x384) (φ := .f32) .bf16 (hk_main_call0_v28 x_main_arg7) bitsLt_bf16_f32
def hk_main_call0_v30 (x_main_arg7 : (⟨S384x336, .f32⟩ : BufTy).Contents (Elt Ideal)) : (⟨S384x64, .f32⟩ : BufTy).Contents (Elt Ideal) :=
  ((extractStridedSlice S384x64 ![0, 256] · slices_S384x336_S384x64_0_256) : (⟨S384x336, .f32⟩ : BufTy).Contents (Elt Ideal) → (⟨S384x64, .f32⟩ : BufTy).Contents (Elt Ideal)) x_main_arg7
def hk_main_call0_v31 (x_main_arg7 : (⟨S384x336, .f32⟩ : BufTy).Contents (Elt Ideal)) : (⟨S64x384, .f32⟩ : BufTy).Contents (Elt Ideal) :=
  ((transpose S64x384 [1, 0] · transposes_S384x64_S64x384_1_0) : (⟨S384x64, .f32⟩ : BufTy).Contents (Elt Ideal) → (⟨S64x384, .f32⟩ : BufTy).Contents (Elt Ideal)) (hk_main_call0_v30 x_main_arg7)
def hk_main_call0_v32 (x_main_arg7 : (⟨S384x336, .f32⟩ : BufTy).Contents (Elt Ideal)) : (⟨S64x384, .bf16⟩ : BufTy).Contents (Elt Ideal) :=
  truncf (F := Ideal) (s := S64x384) (φ := .f32) .bf16 (hk_main_call0_v31 x_main_arg7) bitsLt_bf16_f32
def hk_main_call0_v33 (x_main_arg7 : (⟨S384x336, .f32⟩ : BufTy).Contents (Elt Ideal)) : (⟨S384x16, .f32⟩ : BufTy).Contents (Elt Ideal) :=
  ((extractStridedSlice S384x16 ![0, 320] · slices_S384x336_S384x16_0_320) : (⟨S384x336, .f32⟩ : BufTy).Contents (Elt Ideal) → (⟨S384x16, .f32⟩ : BufTy).Contents (Elt Ideal)) x_main_arg7
def hk_main_call0_v34 (x_main_arg7 : (⟨S384x336, .f32⟩ : BufTy).Contents (Elt Ideal)) : (⟨S16x384, .f32⟩ : BufTy).Contents (Elt Ideal) :=
  ((transpose S16x384 [1, 0] · transposes_S384x16_S16x384_1_0) : (⟨S384x16, .f32⟩ : BufTy).Contents (Elt Ideal) → (⟨S16x384, .f32⟩ : BufTy).Contents (Elt Ideal)) (hk_main_call0_v33 x_main_arg7)
def hk_main_call0_v35 (x_main_arg7 : (⟨S384x336, .f32⟩ : BufTy).Contents (Elt Ideal)) : (⟨S16x384, .bf16⟩ : BufTy).Contents (Elt Ideal) :=
  truncf (F := Ideal) (s := S16x384) (φ := .f32) .bf16 (hk_main_call0_v34 x_main_arg7) bitsLt_bf16_f32
def hk_main_call0_v36 (x_main_arg8 : (⟨S384x128, .f32⟩ : BufTy).Contents (Elt Ideal)) : (⟨S128x384, .f32⟩ : BufTy).Contents (Elt Ideal) :=
  ((transpose S128x384 [1, 0] · transposes_S384x128_S128x384_1_0) : (⟨S384x128, .f32⟩ : BufTy).Contents (Elt Ideal) → (⟨S128x384, .f32⟩ : BufTy).Contents (Elt Ideal)) x_main_arg8
def hk_main_call0_v37 (x_main_arg8 : (⟨S384x128, .f32⟩ : BufTy).Contents (Elt Ideal)) : (⟨S128x384, .bf16⟩ : BufTy).Contents (Elt Ideal) :=
  truncf (F := Ideal) (s := S128x384) (φ := .f32) .bf16 (hk_main_call0_v36 x_main_arg8) bitsLt_bf16_f32
def hk_main_call0_v38 (x_main_arg9 : (⟨S384, .f32⟩ : BufTy).Contents (Elt Ideal)) : (⟨S1x384, .f32⟩ : BufTy).Contents (Elt Ideal) :=
  ((broadcastInDim S1x384 ![1] bcast_S384_S1x384_1) : (⟨S384, .f32⟩ : BufTy).Contents (Elt Ideal) → (⟨S1x384, .f32⟩ : BufTy).Contents (Elt Ideal)) x_main_arg9
def hk_main_call0_v39 (x_main_arg10 : (⟨S384, .f32⟩ : BufTy).Contents (Elt Ideal)) : (⟨S1x384, .f32⟩ : BufTy).Contents (Elt Ideal) :=
  ((broadcastInDim S1x384 ![1] bcast_S384_S1x384_1) : (⟨S384, .f32⟩ : BufTy).Contents (Elt Ideal) → (⟨S1x384, .f32⟩ : BufTy).Contents (Elt Ideal)) x_main_arg10

/-! ## The second stretch -/

def hk_main_call0_c_3  : (⟨S_, .i32⟩ : BufTy).Contents (Elt Ideal) :=
  (constantI S_ 32 0#32)
def hk_main_call0_v41  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_3)
def hk_main_call0_v42 (x_main_arg1 : (⟨S100000, .i32⟩ : BufTy).Contents (Elt Ideal)) : (⟨S100000, .i1⟩ : BufTy).Contents (Elt Ideal) :=
  ((cmpi .slt) : (⟨S100000, .i32⟩ : BufTy).Contents (Elt Ideal) → (⟨S100000, .i32⟩ : BufTy).Contents (Elt Ideal) → (⟨S100000, .i1⟩ : BufTy).Contents (Elt Ideal)) x_main_arg1 (hk_main_call0_v41)
def hk_main_call0_c_4  : (⟨S_, .i32⟩ : BufTy).Contents (Elt Ideal) :=
  (constantI S_ 32 1000000#32)
def hk_main_call0_v43  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_4)
def hk_main_call0_v44 (x_main_arg1 : (⟨S100000, .i32⟩ : BufTy).Contents (Elt Ideal)) : (⟨S100000, .i32⟩ : BufTy).Contents (Elt Ideal) :=
  (addi : (⟨S100000, .i32⟩ : BufTy).Contents (Elt Ideal) → (⟨S100000, .i32⟩ : BufTy).Contents (Elt Ideal) → (⟨S100000, .i32⟩ : BufTy).Contents (Elt Ideal)) x_main_arg1 (hk_main_call0_v43)
def hk_main_call0_v45 (x_main_arg1 : (⟨S100000, .i32⟩ : BufTy).Contents (Elt Ideal)) : (⟨S100000, .i32⟩ : BufTy).Contents (Elt Ideal) :=
  (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) (hk_main_call0_v42 x_main_arg1) (hk_main_call0_v44 x_main_arg1) x_main_arg1
def hk_main_call0_v46 (x_main_arg1 : (⟨S100000, .i32⟩ : BufTy).Contents (Elt Ideal)) : (⟨S100000x1, .i32⟩ : BufTy).Contents (Elt Ideal) :=
  ((broadcastInDim S100000x1 ![0] bcast_S100000_S100000x1_0) : (⟨S100000, .i32⟩ : BufTy).Contents (Elt Ideal) → (⟨S100000x1, .i32⟩ : BufTy).Contents (Elt Ideal)) (hk_main_call0_v45 x_main_arg1)
def hk_main_call0_v47 (x_main_arg0 : (⟨S1000000x128, .f32⟩ : BufTy).Contents (Elt Ideal)) (x_main_arg1 : (⟨S100000, .i32⟩ : BufTy).Contents (Elt Ideal)) (x_main_call0_v40_0 : (⟨S100000x128, .f32⟩ : BufTy).Contents (Elt Ideal)) : (⟨S1000000x128, .f32⟩ : BufTy).Contents (Elt Ideal) :=
  ((fun x i u => Host.scatter scatter_S1000000x128_S100000x1_S100000x128_1_0_0_1 (fun _ b => b) x i u) : (⟨S1000000x128, .f32⟩ : BufTy).Contents (Elt Ideal) → (⟨S100000x1, .i32⟩ : BufTy).Contents (Elt Ideal) → (⟨S100000x128, .f32⟩ : BufTy).Contents (Elt Ideal) → (⟨S1000000x128, .f32⟩ : BufTy).Contents (Elt Ideal)) x_main_arg0 (hk_main_call0_v46 x_main_arg1) x_main_call0_v40_0
def hk_main_call0_c_5  : (⟨S_, .i32⟩ : BufTy).Contents (Elt Ideal) :=
  (constantI S_ 32 0#32)
def hk_main_call0_v48  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_5)
def hk_main_call0_v49 (x_main_arg2 : (⟨S100000, .i32⟩ : BufTy).Contents (Elt Ideal)) : (⟨S100000, .i1⟩ : BufTy).Contents (Elt Ideal) :=
  ((cmpi .slt) : (⟨S100000, .i32⟩ : BufTy).Contents (Elt Ideal) → (⟨S100000, .i32⟩ : BufTy).Contents (Elt Ideal) → (⟨S100000, .i1⟩ : BufTy).Contents (Elt Ideal)) x_main_arg2 (hk_main_call0_v48)
def hk_main_call0_c_6  : (⟨S_, .i32⟩ : BufTy).Contents (Elt Ideal) :=
  (constantI S_ 32 1000000#32)
def hk_main_call0_v50  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_6)
def hk_main_call0_v51 (x_main_arg2 : (⟨S100000, .i32⟩ : BufTy).Contents (Elt Ideal)) : (⟨S100000, .i32⟩ : BufTy).Contents (Elt Ideal) :=
  (addi : (⟨S100000, .i32⟩ : BufTy).Contents (Elt Ideal) → (⟨S100000, .i32⟩ : BufTy).Contents (Elt Ideal) → (⟨S100000, .i32⟩ : BufTy).Contents (Elt Ideal)) x_main_arg2 (hk_main_call0_v50)
def hk_main_call0_v52 (x_main_arg2 : (⟨S100000, .i32⟩ : BufTy).Contents (Elt Ideal)) : (⟨S100000, .i32⟩ : BufTy).Contents (Elt Ideal) :=
  (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) (hk_main_call0_v49 x_main_arg2) (hk_main_call0_v51 x_main_arg2) x_main_arg2
def hk_main_call0_v53 (x_main_arg2 : (⟨S100000, .i32⟩ : BufTy).Contents (Elt Ideal)) : (⟨S100000x1, .i32⟩ : BufTy).Contents (Elt Ideal) :=
  ((broadcastInDim S100000x1 ![0] bcast_S100000_S100000x1_0) : (⟨S100000, .i32⟩ : BufTy).Contents (Elt Ideal) → (⟨S100000x1, .i32⟩ : BufTy).Contents (Elt Ideal)) (hk_main_call0_v52 x_main_arg2)
def hk_main_v0_1 (x_main_arg0 : (⟨S1000000x128, .f32⟩ : BufTy).Contents (Elt Ideal)) (x_main_arg1 : (⟨S100000, .i32⟩ : BufTy).Contents (Elt Ideal)) (x_main_arg2 : (⟨S100000, .i32⟩ : BufTy).Contents (Elt Ideal)) (x_main_call0_v40_0 : (⟨S100000x128, .f32⟩ : BufTy).Contents (Elt Ideal)) (x_main_call0_v40_1 : (⟨S100000x128, .f32⟩ : BufTy).Contents (Elt Ideal)) : (⟨S1000000x128, .f32⟩ : BufTy).Contents (Elt Ideal) :=
  ((fun x i u => Host.scatter scatter_S1000000x128_S100000x1_S100000x128_1_0_0_1 (fun _ b => b) x i u) : (⟨S1000000x128, .f32⟩ : BufTy).Contents (Elt Ideal) → (⟨S100000x1, .i32⟩ : BufTy).Contents (Elt Ideal) → (⟨S100000x128, .f32⟩ : BufTy).Contents (Elt Ideal) → (⟨S1000000x128, .f32⟩ : BufTy).Contents (Elt Ideal)) (hk_main_call0_v47 x_main_arg0 x_main_arg1 x_main_call0_v40_0) (hk_main_call0_v53 x_main_arg2) x_main_call0_v40_1
def hk_main_call0_c_7  : (⟨S_, .i32⟩ : BufTy).Contents (Elt Ideal) :=
  (constantI S_ 32 0#32)
def hk_main_call0_v55  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_7)
def hk_main_call0_v56 (x_main_arg1 : (⟨S100000, .i32⟩ : BufTy).Contents (Elt Ideal)) : (⟨S100000, .i1⟩ : BufTy).Contents (Elt Ideal) :=
  ((cmpi .slt) : (⟨S100000, .i32⟩ : BufTy).Contents (Elt Ideal) → (⟨S100000, .i32⟩ : BufTy).Contents (Elt Ideal) → (⟨S100000, .i1⟩ : BufTy).Contents (Elt Ideal)) x_main_arg1 (hk_main_call0_v55)
def hk_main_call0_c_8  : (⟨S_, .i32⟩ : BufTy).Contents (Elt Ideal) :=
  (constantI S_ 32 1000000#32)
def hk_main_call0_v57  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_8)
def hk_main_call0_v58 (x_main_arg1 : (⟨S100000, .i32⟩ : BufTy).Contents (Elt Ideal)) : (⟨S100000, .i32⟩ : BufTy).Contents (Elt Ideal) :=
  (addi : (⟨S100000, .i32⟩ : BufTy).Contents (Elt Ideal) → (⟨S100000, .i32⟩ : BufTy).Contents (Elt Ideal) → (⟨S100000, .i32⟩ : BufTy).Contents (Elt Ideal)) x_main_arg1 (hk_main_call0_v57)
def hk_main_call0_v59 (x_main_arg1 : (⟨S100000, .i32⟩ : BufTy).Contents (Elt Ideal)) : (⟨S100000, .i32⟩ : BufTy).Contents (Elt Ideal) :=
  (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) (hk_main_call0_v56 x_main_arg1) (hk_main_call0_v58 x_main_arg1) x_main_arg1
def hk_main_call0_v60 (x_main_arg1 : (⟨S100000, .i32⟩ : BufTy).Contents (Elt Ideal)) : (⟨S100000x1, .i32⟩ : BufTy).Contents (Elt Ideal) :=
  ((broadcastInDim S100000x1 ![0] bcast_S100000_S100000x1_0) : (⟨S100000, .i32⟩ : BufTy).Contents (Elt Ideal) → (⟨S100000x1, .i32⟩ : BufTy).Contents (Elt Ideal)) (hk_main_call0_v59 x_main_arg1)
def hk_main_call0_v61 (x_main_arg0 : (⟨S1000000x128, .f32⟩ : BufTy).Contents (Elt Ideal)) (x_main_arg1 : (⟨S100000, .i32⟩ : BufTy).Contents (Elt Ideal)) (x_main_arg2 : (⟨S100000, .i32⟩ : BufTy).Contents (Elt Ideal)) (x_main_call0_v40_0 : (⟨S100000x128, .f32⟩ : BufTy).Contents (Elt Ideal)) (x_main_call0_v40_1 : (⟨S100000x128, .f32⟩ : BufTy).Contents (Elt Ideal)) : (⟨S100000x128, .f32⟩ : BufTy).Contents (Elt Ideal) :=
  ((fun x i => Host.gather gather_S1000000x128_S100000x1_S100000x128_1_0_n_n_0_1_1128 x i) : (⟨S1000000x128, .f32⟩ : BufTy).Contents (Elt Ideal) → (⟨S100000x1, .i32⟩ : BufTy).Contents (Elt Ideal) → (⟨S100000x128, .f32⟩ : BufTy).Contents (Elt Ideal)) (hk_main_v0_1 x_main_arg0 x_main_arg1 x_main_arg2 x_main_call0_v40_0 x_main_call0_v40_1) (hk_main_call0_v60 x_main_arg1)
def hk_main_call0_c_9  : (⟨S_, .i32⟩ : BufTy).Contents (Elt Ideal) :=
  (constantI S_ 32 0#32)
def hk_main_call0_v62  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_9)
def hk_main_call0_v63 (x_main_arg2 : (⟨S100000, .i32⟩ : BufTy).Contents (Elt Ideal)) : (⟨S100000, .i1⟩ : BufTy).Contents (Elt Ideal) :=
  ((cmpi .slt) : (⟨S100000, .i32⟩ : BufTy).Contents (Elt Ideal) → (⟨S100000, .i32⟩ : BufTy).Contents (Elt Ideal) → (⟨S100000, .i1⟩ : BufTy).Contents (Elt Ideal)) x_main_arg2 (hk_main_call0_v62)
def hk_main_call0_c_10  : (⟨S_, .i32⟩ : BufTy).Contents (Elt Ideal) :=
  (constantI S_ 32 1000000#32)
def hk_main_call0_v64  : (⟨S100000, .i32⟩ : BufTy).Contents (Elt Ideal) :=
  ((broadcastInDim S100000 ![] bcast_S_S100000) : (⟨S_, .i32⟩ : BufTy).Contents (Elt Ideal) → (⟨S100000, .i32⟩ : BufTy).Contents (Elt Ideal)) (hk_main_call0_c_10)
def hk_main_call0_v65 (x_main_arg2 : (⟨S100000, .i32⟩ : BufTy).Contents (Elt Ideal)) : (⟨S100000, .i32⟩ : BufTy).Contents (Elt Ideal) :=
  (addi : (⟨S100000, .i32⟩ : BufTy).Contents (Elt Ideal) → (⟨S100000, .i32⟩ : BufTy).Contents (Elt Ideal) → (⟨S100000, .i32⟩ : BufTy).Contents (Elt Ideal)) x_main_arg2 (hk_main_call0_v64)
def hk_main_call0_v66 (x_main_arg2 : (⟨S100000, .i32⟩ : BufTy).Contents (Elt Ideal)) : (⟨S100000, .i32⟩ : BufTy).Contents (Elt Ideal) :=
  (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) (hk_main_call0_v63 x_main_arg2) (hk_main_call0_v65 x_main_arg2) x_main_arg2
def hk_main_call0_v67 (x_main_arg2 : (⟨S100000, .i32⟩ : BufTy).Contents (Elt Ideal)) : (⟨S100000x1, .i32⟩ : BufTy).Contents (Elt Ideal) :=
  ((broadcastInDim S100000x1 ![0] bcast_S100000_S100000x1_0) : (⟨S100000, .i32⟩ : BufTy).Contents (Elt Ideal) → (⟨S100000x1, .i32⟩ : BufTy).Contents (Elt Ideal)) (hk_main_call0_v66 x_main_arg2)
def hk_main_call0_v68 (x_main_arg0 : (⟨S1000000x128, .f32⟩ : BufTy).Contents (Elt Ideal)) (x_main_arg1 : (⟨S100000, .i32⟩ : BufTy).Contents (Elt Ideal)) (x_main_arg2 : (⟨S100000, .i32⟩ : BufTy).Contents (Elt Ideal)) (x_main_call0_v40_0 : (⟨S100000x128, .f32⟩ : BufTy).Contents (Elt Ideal)) (x_main_call0_v40_1 : (⟨S100000x128, .f32⟩ : BufTy).Contents (Elt Ideal)) : (⟨S100000x128, .f32⟩ : BufTy).Contents (Elt Ideal) :=
  ((fun x i => Host.gather gather_S1000000x128_S100000x1_S100000x128_1_0_n_n_0_1_1128 x i) : (⟨S1000000x128, .f32⟩ : BufTy).Contents (Elt Ideal) → (⟨S100000x1, .i32⟩ : BufTy).Contents (Elt Ideal) → (⟨S100000x128, .f32⟩ : BufTy).Contents (Elt Ideal)) (hk_main_v0_1 x_main_arg0 x_main_arg1 x_main_arg2 x_main_call0_v40_0 x_main_call0_v40_1) (hk_main_call0_v67 x_main_arg2)
def hk_main_call0_v69 (x_main_arg11 : (⟨S128x256, .f32⟩ : BufTy).Contents (Elt Ideal)) : (⟨S256x128, .f32⟩ : BufTy).Contents (Elt Ideal) :=
  ((transpose S256x128 [1, 0] · transposes_S128x256_S256x128_1_0) : (⟨S128x256, .f32⟩ : BufTy).Contents (Elt Ideal) → (⟨S256x128, .f32⟩ : BufTy).Contents (Elt Ideal)) x_main_arg11
def hk_main_call0_v70 (x_main_arg11 : (⟨S128x256, .f32⟩ : BufTy).Contents (Elt Ideal)) : (⟨S256x128, .bf16⟩ : BufTy).Contents (Elt Ideal) :=
  truncf (F := Ideal) (s := S256x128) (φ := .f32) .bf16 (hk_main_call0_v69 x_main_arg11) bitsLt_bf16_f32
def hk_main_call0_v71 (x_main_arg12 : (⟨S128, .f32⟩ : BufTy).Contents (Elt Ideal)) : (⟨S1x128, .f32⟩ : BufTy).Contents (Elt Ideal) :=
  ((broadcastInDim S1x128 ![1] bcast_S128_S1x128_1) : (⟨S128, .f32⟩ : BufTy).Contents (Elt Ideal) → (⟨S1x128, .f32⟩ : BufTy).Contents (Elt Ideal)) x_main_arg12
def hk_main_call0_v72 (x_main_arg14 : (⟨S1, .f32⟩ : BufTy).Contents (Elt Ideal)) : (⟨S1x1, .f32⟩ : BufTy).Contents (Elt Ideal) :=
  ((broadcastInDim S1x1 ![1] bcast_S1_S1x1_1) : (⟨S1, .f32⟩ : BufTy).Contents (Elt Ideal) → (⟨S1x1, .f32⟩ : BufTy).Contents (Elt Ideal)) x_main_arg14

variable (m : (ℓ : Loc nD τ sig) → Buf (Elt Ideal) ℓ) (ρ : Dev nD → PrngReg)

/-! ## The contents when region 0 is entered -/

set_option maxHeartbeats 4000000 in
theorem V1_main_call0_v6 (c : Dev nD) : (V1 m ρ c main_call0_v6 : (⟨S100000x128, .f32⟩ : BufTy).Contents (Elt Ideal)) = hk_main_call0_v6 (m ((c : Thread nD τ).loc main_arg0)) (m ((c : Thread nD τ).loc main_arg1)) := by
  show StableHlo.after hostOps0 (W0 m ρ c) (Proc.devRef .tc main_call0_v6) = _
  after_results_simp
  rfl

set_option maxHeartbeats 4000000 in
theorem V1_main_call0_v13 (c : Dev nD) : (V1 m ρ c main_call0_v13 : (⟨S100000x128, .f32⟩ : BufTy).Contents (Elt Ideal)) = hk_main_call0_v13 (m ((c : Thread nD τ).loc main_arg0)) (m ((c : Thread nD τ).loc main_arg2)) := by
  show StableHlo.after hostOps0 (W0 m ρ c) (Proc.devRef .tc main_call0_v13) = _
  after_results_simp
  rfl

set_option maxHeartbeats 4000000 in
theorem V1_main_call0_v23 (c : Dev nD) : (V1 m ρ c main_call0_v23 : (⟨S100000x16, .f32⟩ : BufTy).Contents (Elt Ideal)) = hk_main_call0_v23 (m ((c : Thread nD τ).loc main_arg3)) (m ((c : Thread nD τ).loc main_arg5)) (m ((c : Thread nD τ).loc main_arg6)) := by
  show StableHlo.after hostOps0 (W0 m ρ c) (Proc.devRef .tc main_call0_v23) = _
  after_results_simp
  rfl

set_option maxHeartbeats 4000000 in
theorem V1_main_call0_v26 (c : Dev nD) : (V1 m ρ c main_call0_v26 : (⟨S128x384, .bf16⟩ : BufTy).Contents (Elt Ideal)) = hk_main_call0_v26 (m ((c : Thread nD τ).loc main_arg7)) := by
  show StableHlo.after hostOps0 (W0 m ρ c) (Proc.devRef .tc main_call0_v26) = _
  after_results_simp
  rfl

set_option maxHeartbeats 4000000 in
theorem V1_main_call0_v29 (c : Dev nD) : (V1 m ρ c main_call0_v29 : (⟨S128x384, .bf16⟩ : BufTy).Contents (Elt Ideal)) = hk_main_call0_v29 (m ((c : Thread nD τ).loc main_arg7)) := by
  show StableHlo.after hostOps0 (W0 m ρ c) (Proc.devRef .tc main_call0_v29) = _
  after_results_simp
  rfl

set_option maxHeartbeats 4000000 in
theorem V1_main_call0_v32 (c : Dev nD) : (V1 m ρ c main_call0_v32 : (⟨S64x384, .bf16⟩ : BufTy).Contents (Elt Ideal)) = hk_main_call0_v32 (m ((c : Thread nD τ).loc main_arg7)) := by
  show StableHlo.after hostOps0 (W0 m ρ c) (Proc.devRef .tc main_call0_v32) = _
  after_results_simp
  rfl

set_option maxHeartbeats 4000000 in
theorem V1_main_call0_v35 (c : Dev nD) : (V1 m ρ c main_call0_v35 : (⟨S16x384, .bf16⟩ : BufTy).Contents (Elt Ideal)) = hk_main_call0_v35 (m ((c : Thread nD τ).loc main_arg7)) := by
  show StableHlo.after hostOps0 (W0 m ρ c) (Proc.devRef .tc main_call0_v35) = _
  after_results_simp
  rfl

set_option maxHeartbeats 4000000 in
theorem V1_main_call0_v37 (c : Dev nD) : (V1 m ρ c main_call0_v37 : (⟨S128x384, .bf16⟩ : BufTy).Contents (Elt Ideal)) = hk_main_call0_v37 (m ((c : Thread nD τ).loc main_arg8)) := by
  show StableHlo.after hostOps0 (W0 m ρ c) (Proc.devRef .tc main_call0_v37) = _
  after_results_simp
  rfl

set_option maxHeartbeats 4000000 in
theorem V1_main_call0_v38 (c : Dev nD) : (V1 m ρ c main_call0_v38 : (⟨S1x384, .f32⟩ : BufTy).Contents (Elt Ideal)) = hk_main_call0_v38 (m ((c : Thread nD τ).loc main_arg9)) := by
  show StableHlo.after hostOps0 (W0 m ρ c) (Proc.devRef .tc main_call0_v38) = _
  after_results_simp
  rfl

set_option maxHeartbeats 4000000 in
theorem V1_main_call0_v39 (c : Dev nD) : (V1 m ρ c main_call0_v39 : (⟨S1x384, .f32⟩ : BufTy).Contents (Elt Ideal)) = hk_main_call0_v39 (m ((c : Thread nD τ).loc main_arg10)) := by
  show StableHlo.after hostOps0 (W0 m ρ c) (Proc.devRef .tc main_call0_v39) = _
  after_results_simp
  rfl

/-! ## The contents when region 1 is entered, from those at region 0's exit -/

/-- Contents carried to a buffer's own type and back are the contents. -/
theorem ofBuf_toBuf {T : BufTy} (x : TRef sig T) (v : T.Contents (Elt Ideal)) : x.ofBuf (x.toBuf v) = v := by
  obtain ⟨r, h, _, _⟩ := x
  subst h
  rfl

/-! The second stretch read from ANY starting contents `W`: each buffer it writes is its stage of `W`'s leaf arrays. -/

/-- Carrying contents of `main_call0_v61`'s type to the buffer's own type changes nothing. -/
theorem toBuf_main_call0_v61 (h1 h2 h3) (v : (⟨S100000x128, .f32⟩ : BufTy).Contents (Elt Ideal)) :
    ((TRef.of (T := ⟨S100000x128, .f32⟩) main_call0_v61 h1 h2 h3).toBuf v : (⟨S100000x128, .f32⟩ : BufTy).Contents (Elt Ideal)) = v := rfl

set_option maxHeartbeats 4000000 in
theorem after1_main_call0_v61 (W : Valuation τ sig (Elt Ideal)) : (StableHlo.after hostOps1 W (Proc.devRef .tc main_call0_v61) : (⟨S100000x128, .f32⟩ : BufTy).Contents (Elt Ideal)) = hk_main_call0_v61 (W (Proc.devRef .tc main_arg0)) (W (Proc.devRef .tc main_arg1)) (W (Proc.devRef .tc main_arg2)) (W (Proc.devRef .tc main_call0_v40_0)) (W (Proc.devRef .tc main_call0_v40_1)) := by
  after_results_simp
  try simp only [ofBuf_toBuf]
  rw [toBuf_main_call0_v61]
  rfl

theorem V3_main_call0_v61 (c : Dev nD) : (V3 m ρ c main_call0_v61 : (⟨S100000x128, .f32⟩ : BufTy).Contents (Elt Ideal)) = hk_main_call0_v61 (W2 m ρ c (Proc.devRef .tc main_arg0)) (W2 m ρ c (Proc.devRef .tc main_arg1)) (W2 m ρ c (Proc.devRef .tc main_arg2)) (W2 m ρ c (Proc.devRef .tc main_call0_v40_0)) (W2 m ρ c (Proc.devRef .tc main_call0_v40_1)) :=
  after1_main_call0_v61 (W2 m ρ c)

/-- Carrying contents of `main_call0_v68`'s type to the buffer's own type changes nothing. -/
theorem toBuf_main_call0_v68 (h1 h2 h3) (v : (⟨S100000x128, .f32⟩ : BufTy).Contents (Elt Ideal)) :
    ((TRef.of (T := ⟨S100000x128, .f32⟩) main_call0_v68 h1 h2 h3).toBuf v : (⟨S100000x128, .f32⟩ : BufTy).Contents (Elt Ideal)) = v := rfl

set_option maxHeartbeats 4000000 in
theorem after1_main_call0_v68 (W : Valuation τ sig (Elt Ideal)) : (StableHlo.after hostOps1 W (Proc.devRef .tc main_call0_v68) : (⟨S100000x128, .f32⟩ : BufTy).Contents (Elt Ideal)) = hk_main_call0_v68 (W (Proc.devRef .tc main_arg0)) (W (Proc.devRef .tc main_arg1)) (W (Proc.devRef .tc main_arg2)) (W (Proc.devRef .tc main_call0_v40_0)) (W (Proc.devRef .tc main_call0_v40_1)) := by
  after_results_simp
  try simp only [ofBuf_toBuf]
  rw [toBuf_main_call0_v68]
  rfl

theorem V3_main_call0_v68 (c : Dev nD) : (V3 m ρ c main_call0_v68 : (⟨S100000x128, .f32⟩ : BufTy).Contents (Elt Ideal)) = hk_main_call0_v68 (W2 m ρ c (Proc.devRef .tc main_arg0)) (W2 m ρ c (Proc.devRef .tc main_arg1)) (W2 m ρ c (Proc.devRef .tc main_arg2)) (W2 m ρ c (Proc.devRef .tc main_call0_v40_0)) (W2 m ρ c (Proc.devRef .tc main_call0_v40_1)) :=
  after1_main_call0_v68 (W2 m ρ c)

/-- Carrying contents of `main_call0_v70`'s type to the buffer's own type changes nothing. -/
theorem toBuf_main_call0_v70 (h1 h2 h3) (v : (⟨S256x128, .bf16⟩ : BufTy).Contents (Elt Ideal)) :
    ((TRef.of (T := ⟨S256x128, .bf16⟩) main_call0_v70 h1 h2 h3).toBuf v : (⟨S256x128, .bf16⟩ : BufTy).Contents (Elt Ideal)) = v := rfl

set_option maxHeartbeats 4000000 in
theorem after1_main_call0_v70 (W : Valuation τ sig (Elt Ideal)) : (StableHlo.after hostOps1 W (Proc.devRef .tc main_call0_v70) : (⟨S256x128, .bf16⟩ : BufTy).Contents (Elt Ideal)) = hk_main_call0_v70 (W (Proc.devRef .tc main_arg11)) := by
  after_results_simp
  try simp only [ofBuf_toBuf]
  rw [toBuf_main_call0_v70]
  rfl

theorem V3_main_call0_v70 (c : Dev nD) : (V3 m ρ c main_call0_v70 : (⟨S256x128, .bf16⟩ : BufTy).Contents (Elt Ideal)) = hk_main_call0_v70 (W2 m ρ c (Proc.devRef .tc main_arg11)) :=
  after1_main_call0_v70 (W2 m ρ c)

/-- Carrying contents of `main_call0_v71`'s type to the buffer's own type changes nothing. -/
theorem toBuf_main_call0_v71 (h1 h2 h3) (v : (⟨S1x128, .f32⟩ : BufTy).Contents (Elt Ideal)) :
    ((TRef.of (T := ⟨S1x128, .f32⟩) main_call0_v71 h1 h2 h3).toBuf v : (⟨S1x128, .f32⟩ : BufTy).Contents (Elt Ideal)) = v := rfl

set_option maxHeartbeats 4000000 in
theorem after1_main_call0_v71 (W : Valuation τ sig (Elt Ideal)) : (StableHlo.after hostOps1 W (Proc.devRef .tc main_call0_v71) : (⟨S1x128, .f32⟩ : BufTy).Contents (Elt Ideal)) = hk_main_call0_v71 (W (Proc.devRef .tc main_arg12)) := by
  after_results_simp
  try simp only [ofBuf_toBuf]
  rw [toBuf_main_call0_v71]
  rfl

theorem V3_main_call0_v71 (c : Dev nD) : (V3 m ρ c main_call0_v71 : (⟨S1x128, .f32⟩ : BufTy).Contents (Elt Ideal)) = hk_main_call0_v71 (W2 m ρ c (Proc.devRef .tc main_arg12)) :=
  after1_main_call0_v71 (W2 m ρ c)

/-- Carrying contents of `main_call0_v72`'s type to the buffer's own type changes nothing. -/
theorem toBuf_main_call0_v72 (h1 h2 h3) (v : (⟨S1x1, .f32⟩ : BufTy).Contents (Elt Ideal)) :
    ((TRef.of (T := ⟨S1x1, .f32⟩) main_call0_v72 h1 h2 h3).toBuf v : (⟨S1x1, .f32⟩ : BufTy).Contents (Elt Ideal)) = v := rfl

set_option maxHeartbeats 4000000 in
theorem after1_main_call0_v72 (W : Valuation τ sig (Elt Ideal)) : (StableHlo.after hostOps1 W (Proc.devRef .tc main_call0_v72) : (⟨S1x1, .f32⟩ : BufTy).Contents (Elt Ideal)) = hk_main_call0_v72 (W (Proc.devRef .tc main_arg14)) := by
  after_results_simp
  try simp only [ofBuf_toBuf]
  rw [toBuf_main_call0_v72]
  rfl

theorem V3_main_call0_v72 (c : Dev nD) : (V3 m ρ c main_call0_v72 : (⟨S1x1, .f32⟩ : BufTy).Contents (Elt Ideal)) = hk_main_call0_v72 (W2 m ρ c (Proc.devRef .tc main_arg14)) :=
  after1_main_call0_v72 (W2 m ρ c)

/-- Carrying contents of `main_v0_1`'s type to the buffer's own type changes nothing. -/
theorem toBuf_main_v0_1 (h1 h2 h3) (v : (⟨S1000000x128, .f32⟩ : BufTy).Contents (Elt Ideal)) :
    ((TRef.of (T := ⟨S1000000x128, .f32⟩) main_v0_1 h1 h2 h3).toBuf v : (⟨S1000000x128, .f32⟩ : BufTy).Contents (Elt Ideal)) = v := rfl

set_option maxHeartbeats 4000000 in
theorem after1_main_v0_1 (W : Valuation τ sig (Elt Ideal)) : (StableHlo.after hostOps1 W (Proc.devRef .tc main_v0_1) : (⟨S1000000x128, .f32⟩ : BufTy).Contents (Elt Ideal)) = hk_main_v0_1 (W (Proc.devRef .tc main_arg0)) (W (Proc.devRef .tc main_arg1)) (W (Proc.devRef .tc main_arg2)) (W (Proc.devRef .tc main_call0_v40_0)) (W (Proc.devRef .tc main_call0_v40_1)) := by
  after_results_simp
  try simp only [ofBuf_toBuf]
  rw [toBuf_main_v0_1]
  rfl

theorem V3_main_v0_1 (c : Dev nD) : (V3 m ρ c main_v0_1 : (⟨S1000000x128, .f32⟩ : BufTy).Contents (Elt Ideal)) = hk_main_v0_1 (W2 m ρ c (Proc.devRef .tc main_arg0)) (W2 m ρ c (Proc.devRef .tc main_arg1)) (W2 m ρ c (Proc.devRef .tc main_arg2)) (W2 m ρ c (Proc.devRef .tc main_call0_v40_0)) (W2 m ρ c (Proc.devRef .tc main_call0_v40_1)) :=
  after1_main_v0_1 (W2 m ρ c)

end Cert.KernelIdeal.Host

end
-- ==== Proof.KernelFold.lean ====
/-
  Reading buffers back through the fold of boundary contents. An argument array that no host operation of the first
  stretch writes and that is not one of the recurrent-update region's arrays still holds its launch contents when that
  region exits. The updated memory table — the second result — is written by the second stretch and touched by nothing
  after it. The prediction — the first result — is the last host operation's reading, as a vector, of the column the
  predictor region leaves.
-/
import proofs.«138008_j16372415332401_2_alg».proof.Proof.KernelHost

set_option maxRecDepth 16384

noncomputable section

namespace Cert.KernelIdeal.Host

open Cert.KernelIdeal Cert.KernelIdeal.Gen Idealize.ShloMosaic.StableHlo
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- `main_arg0` holds its launch contents at region 0's exit. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` holds its launch contents at region 0's exit. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` holds its launch contents at region 0's exit. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg11` holds its launch contents at region 0's exit. -/
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- `main_arg12` holds its launch contents at region 0's exit. -/
theorem W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- `main_arg13` holds its launch contents at region 0's exit. -/
theorem W2_main_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- `main_arg14` holds its launch contents at region 0's exit. -/
theorem W2_main_arg14 (c : Dev nD) : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- The edge features are an argument array the first stretch does not write: region 0 finds them as launched. -/
theorem V1_main_arg4 (c : Dev nD) : V1 m ρ c main_arg4 = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The predictor's weight row is an argument array: it holds its launch contents when region 1 is entered. -/
theorem V3_main_arg13 (c : Dev nD) : V3 m ρ c main_arg13 = m ((c : Thread nD τ).loc main_arg13) :=
  calc W3 m ρ c (Proc.devRef .tc main_arg13)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := W2_main_arg13 m ρ c

/-- The two updated states the second stretch scatters are what the recurrent-update region's write-backs leave. -/
theorem W2_news (c : Dev nD) : W2 m ρ c (Proc.devRef .tc main_call0_v40_0) = (dat0 (V1 m ρ) c).arrAt 11 cfg0.N := W2_arr m ρ c 11
theorem W2_newd (c : Dev nD) : W2 m ρ c (Proc.devRef .tc main_call0_v40_1) = (dat0 (V1 m ρ) c).arrAt 12 cfg0.N := W2_arr m ρ c 12

/-- The second result: the memory table after both scatters. -/
theorem W5_mem (c : Dev nD) : W5 m ρ c (Proc.devRef .tc main_v0_1)
    = hk_main_v0_1 (m ((c : Thread nD τ).loc main_arg0)) (m ((c : Thread nD τ).loc main_arg1)) (m ((c : Thread nD τ).loc main_arg2))
        ((dat0 (V1 m ρ) c).arrAt 11 cfg0.N) ((dat0 (V1 m ρ) c).arrAt 12 cfg0.N) :=
  calc W5 m ρ c (Proc.devRef .tc main_v0_1)
    _ = W4 m ρ c (Proc.devRef .tc main_v0_1) := StableHlo.after_of_forall_not_mem (b := Proc.devRef .tc main_v0_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0_1) := W4_of_ne m ρ c main_v0_1 (by decide)
    _ = _ := (V3_main_v0_1 m ρ c).trans (by rw [W2_main_arg0, W2_main_arg1, W2_main_arg2, W2_news, W2_newd])

/-- The first result: the predictor region's column, read as a vector. -/
theorem W5_pred (c : Dev nD) : (W5 m ρ c (Proc.devRef .tc main_v0_0) : (⟨S100000, .f32⟩ : BufTy).Contents (Elt Ideal))
    = shapeCast S100000 ((dat1 (V3 m ρ) c).arrAt 6 cfg1.N : (⟨S100000x1, .f32⟩ : BufTy).Contents (Elt Ideal)) shapeCasts_S100000x1_S100000 := by
  show StableHlo.after hostOps2 (W4 m ρ c) (Proc.devRef .tc main_v0_0) = _
  after_results
  rw [show W4 m ρ c (Proc.devRef .tc main_call0_v73) = (dat1 (V3 m ρ) c).arrAt 6 cfg1.N from W4_arr m ρ c 6]
  rfl

end Cert.KernelIdeal.Host

end
-- ==== Proof.Spec.lean ====
/-
  The mathematics both programs compute, one event (row) at a time, over the extended reals.

  * The time embedding of an event: sin (t · w_q + b_q) for each of its sixteen coordinates q.
  * One coordinate of a gated recurrent update: with input pre-activations (i_r, i_z, i_n), hidden
    pre-activations (h_r, h_z, h_n) and the old state's coordinate h,
      r = σ (i_r + h_r),  z = σ (i_z + h_z),  n = tanh (i_n + r · h_n),  new = (1 − z) · n + z · h,
    σ the logistic function 1 / (1 + e^(−x)).
  * The input pre-activation of gate column c is the inner product of the event's 336 input features
    — its source state (128), destination state (128), edge features (64) and time embedding (16), in
    this order — with row c of the input weight matrix, plus a bias. It can be summed at once over the
    336 features or block by block; addition of extended reals is commutative and associative, so the
    two agree without any finiteness (`giFull_cat4`).
  * The prediction of an event: a dense layer of 128 units over the 256 updated features (source then
    destination), floored at zero, then the inner product with one weight row, plus a bias.
-/
import Idealize.ShloMosaic.PureOps.Ideal
import Idealize.ShloMosaic.Lib.ValueIdx
import Mathlib.Algebra.BigOperators.Fin
import Mathlib.Algebra.BigOperators.Intervals

noncomputable section

namespace Cert.Spec

open Idealize.ShloMosaic Idealize.ShloMosaic.ValueIdx
open scoped BigOperators

/-- Row `p` of a matrix. -/
def row {R K : ℕ} (x : (⟨2, ![R, K]⟩ : Shape).Idx → EReal) (p : Fin R) : Fin K → EReal := fun k => x (ix2 p k)

/-- A `[K, C]` matrix read column by column: column `c` as a function of the row index. -/
def colsOf {K C : ℕ} (w : (⟨2, ![K, C]⟩ : Shape).Idx → EReal) : Fin C → Fin K → EReal := fun c k => w (ix2 k c)

/-- One coordinate of the time embedding: sin (t · w + b). -/
def timeEnc (t w b : EReal) : EReal := Ideal.sin (t * w + b)

/-- One coordinate of the gated recurrent update, from the six pre-activations and the old coordinate;
    `one` is the constant the update subtracts the gate from. -/
def gruCell (one ir iz inn hr hz hn h : EReal) : EReal :=
  (one - Ideal.logistic (iz + hz)) * Ideal.tanh (inn + Ideal.logistic (ir + hr) * hn) + Ideal.logistic (iz + hz) * h

/-- The 336 input features of an event: source state, destination state, edge features, time embedding. -/
def cat4 (s d : Fin 128 → EReal) (ef : Fin 64 → EReal) (te : Fin 16 → EReal) (k : Fin 336) : EReal :=
  if h1 : k.val < 128 then s ⟨k.val, h1⟩
  else if h2 : k.val < 256 then d ⟨k.val - 128, by omega⟩
  else if h3 : k.val < 320 then ef ⟨k.val - 256, by omega⟩
  else te ⟨k.val - 320, by omega⟩

/-- The input pre-activation of gate column `c`, summed at once over the 336 features. -/
def giFull (x : Fin 336 → EReal) (W : Fin 384 → Fin 336 → EReal) (b : Fin 384 → EReal) (c : Fin 384) : EReal :=
  (∑ k : Fin 336, x k * W c k) + b c

/-- The pre-activation of gate column `c` from four separate weight blocks, one per group of features. -/
def giBlocks (s d : Fin 128 → EReal) (ef : Fin 64 → EReal) (te : Fin 16 → EReal)
    (ws wd : Fin 384 → Fin 128 → EReal) (we : Fin 384 → Fin 64 → EReal) (wt : Fin 384 → Fin 16 → EReal)
    (b : Fin 384 → EReal) (c : Fin 384) : EReal :=
  ((((∑ k : Fin 128, s k * ws c k) + (∑ k : Fin 128, d k * wd c k)) + (∑ k : Fin 64, ef k * we c k))
    + (∑ k : Fin 16, te k * wt c k)) + b c

/-- The same with the four blocks cut out of one 336-wide weight row: columns 0–127, 128–255, 256–319, 320–335. -/
def giSplit (s d : Fin 128 → EReal) (ef : Fin 64 → EReal) (te : Fin 16 → EReal)
    (W : Fin 384 → Fin 336 → EReal) (b : Fin 384 → EReal) (c : Fin 384) : EReal :=
  giBlocks s d ef te (fun c k => W c ⟨k.val, by omega⟩) (fun c k => W c ⟨128 + k.val, by omega⟩)
    (fun c k => W c ⟨256 + k.val, by omega⟩) (fun c k => W c ⟨320 + k.val, by omega⟩) b c

/-- The hidden pre-activation of gate column `c`: the old state against row `c` of the hidden weights, plus a bias. -/
def gh (h : Fin 128 → EReal) (U : Fin 384 → Fin 128 → EReal) (b : Fin 384 → EReal) (c : Fin 384) : EReal :=
  (∑ k : Fin 128, h k * U c k) + b c

/-- Gate column of coordinate `j` in the reset, update and candidate thirds of the 384 columns. -/
abbrev colR (j : Fin 128) : Fin 384 := ⟨j.val, by omega⟩
abbrev colZ (j : Fin 128) : Fin 384 := ⟨128 + j.val, by omega⟩
abbrev colN (j : Fin 128) : Fin 384 := ⟨256 + j.val, by omega⟩

/-- Coordinate `j` of the updated state `h` of an event, the input pre-activation given as a function `gi` of the column. -/
def gruNew (one : EReal) (gi : Fin 384 → EReal) (h : Fin 128 → EReal) (U : Fin 384 → Fin 128 → EReal)
    (bh : Fin 384 → EReal) (j : Fin 128) : EReal :=
  gruCell one (gi (colR j)) (gi (colZ j)) (gi (colN j)) (gh h U bh (colR j)) (gh h U bh (colZ j)) (gh h U bh (colN j)) (h j)

/-- The 256 features the predictor reads: updated source state, then updated destination state. -/
def cat2 (a b : Fin 128 → EReal) (k : Fin 256) : EReal :=
  if h1 : k.val < 128 then a ⟨k.val, h1⟩ else b ⟨k.val - 128, by omega⟩

/-- The prediction of an event. -/
def predRow (zero : EReal) (x : Fin 256 → EReal) (W1 : Fin 128 → Fin 256 → EReal) (b1 : Fin 128 → EReal)
    (w2 : Fin 128 → EReal) (b2 : EReal) : EReal :=
  (∑ j : Fin 128, max ((∑ k : Fin 256, x k * W1 j k) + b1 j) zero * w2 j) + b2

/-! ## Summing the 336 features at once or block by block -/

/-- A sum over 336 consecutive naturals, cut at 128, 256 and 320. -/
theorem sum_range_336 (f : ℕ → EReal) :
    ∑ k ∈ Finset.range 336, f k
      = (((∑ k ∈ Finset.range 128, f k) + (∑ k ∈ Finset.range 128, f (128 + k)))
          + (∑ k ∈ Finset.range 64, f (256 + k))) + (∑ k ∈ Finset.range 16, f (320 + k)) := by
  rw [show (336 : ℕ) = 128 + 128 + 64 + 16 from rfl, Finset.sum_range_add, Finset.sum_range_add, Finset.sum_range_add]

/-- The pre-activation over the concatenated features is the block-by-block one. -/
theorem giFull_cat4 (s d : Fin 128 → EReal) (ef : Fin 64 → EReal) (te : Fin 16 → EReal)
    (W : Fin 384 → Fin 336 → EReal) (b : Fin 384 → EReal) (c : Fin 384) :
    giFull (cat4 s d ef te) W b c = giSplit s d ef te W b c := by
  unfold giFull giSplit giBlocks
  congr 1
  -- read the summand at a natural number, zero past the end
  let f : ℕ → EReal := fun n => if h : n < 336 then cat4 s d ef te ⟨n, h⟩ * W c ⟨n, h⟩ else 0
  have hf : (∑ k : Fin 336, cat4 s d ef te k * W c k) = ∑ n ∈ Finset.range 336, f n := by
    rw [Finset.sum_range]
    exact Finset.sum_congr rfl fun k _ => by simp only [f, dif_pos k.isLt]
  rw [hf, sum_range_336, Finset.sum_range, Finset.sum_range, Finset.sum_range, Finset.sum_range]
  refine congrArg₂ (· + ·) (congrArg₂ (· + ·) (congrArg₂ (· + ·) ?_ ?_) ?_) ?_
  · refine Finset.sum_congr rfl fun k _ => ?_
    have hk : k.val < 336 := by omega
    simp only [f, dif_pos hk, cat4, dif_pos k.isLt]
  · refine Finset.sum_congr rfl fun k _ => ?_
    have hk : 128 + k.val < 336 := by omega
    have h1 : ¬ (128 + k.val < 128) := by omega
    have h2 : 128 + k.val < 256 := by omega
    simp only [f, dif_pos hk, cat4, dif_neg h1, dif_pos h2, Nat.add_sub_cancel_left]
  · refine Finset.sum_congr rfl fun k _ => ?_
    have hk : 256 + k.val < 336 := by omega
    have h1 : ¬ (256 + k.val < 128) := by omega
    have h2 : ¬ (256 + k.val < 256) := by omega
    have h3 : 256 + k.val < 320 := by omega
    simp only [f, dif_pos hk, cat4, dif_neg h1, dif_neg h2, dif_pos h3, Nat.add_sub_cancel_left]
  · refine Finset.sum_congr rfl fun k _ => ?_
    have hk : 320 + k.val < 336 := by omega
    have h1 : ¬ (320 + k.val < 128) := by omega
    have h2 : ¬ (320 + k.val < 256) := by omega
    have h3 : ¬ (320 + k.val < 320) := by omega
    simp only [f, dif_pos hk, cat4, dif_neg h1, dif_neg h2, dif_neg h3, Nat.add_sub_cancel_left]

end Cert.Spec

end
-- ==== Proof.Region0Blocks.lean ====
/-
  Region 0 (the recurrent update), block reads. The grid has fifty points; point t works on events
  2000·t … 2000·t + 1999. The four event-indexed inputs (source state, destination state, edge features,
  time embedding) and the two outputs move with t along their rows; the five weight matrices and the two
  bias rows are the same whole array at every point. So a block read at row p of point t is the array
  read at row 2000·t + p, and a weight block read anywhere is the weight array read there.
-/
import proofs.«138008_j16372415332401_2_alg».proof.Proof.Gen.KernelIdeal.Frame
import proofs.«138008_j16372415332401_2_alg».proof.Proof.Spec

set_option maxRecDepth 16384

noncomputable section

namespace Cert.KernelIdeal.Blocks

open Cert.KernelIdeal Cert.KernelIdeal.Gen Cert.Spec
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_3 : ∀ t : Fin cfg0.N, win0_3.index t (0 : Fin 2) = t.val ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

theorem idx0_6 : ∀ t : Fin cfg0.N, win0_6.index t (0 : Fin 2) = 0 ∧ win0_6.index t (1 : Fin 2) = 0 :=
  (by decide +kernel : ∀ t : Fin grid0.N, _)

theorem idx0_7 : ∀ t : Fin cfg0.N, win0_7.index t (0 : Fin 2) = 0 ∧ win0_7.index t (1 : Fin 2) = 0 :=
  (by decide +kernel : ∀ t : Fin grid0.N, _)

theorem idx0_8 : ∀ t : Fin cfg0.N, win0_8.index t (0 : Fin 2) = 0 ∧ win0_8.index t (1 : Fin 2) = 0 :=
  (by decide +kernel : ∀ t : Fin grid0.N, _)

theorem idx0_9 : ∀ t : Fin cfg0.N, win0_9.index t (0 : Fin 2) = 0 ∧ win0_9.index t (1 : Fin 2) = 0 :=
  (by decide +kernel : ∀ t : Fin grid0.N, _)

theorem idx0_10 : ∀ t : Fin cfg0.N, win0_10.index t (0 : Fin 2) = 0 ∧ win0_10.index t (1 : Fin 2) = 0 :=
  (by decide +kernel : ∀ t : Fin grid0.N, _)

theorem idx0_11 : ∀ t : Fin cfg0.N, win0_11.index t (0 : Fin 2) = t.val ∧ win0_11.index t (1 : Fin 2) = 0 :=
  (by decide +kernel : ∀ t : Fin grid0.N, _)

theorem idx0_12 : ∀ t : Fin cfg0.N, win0_12.index t (0 : Fin 2) = t.val ∧ win0_12.index t (1 : Fin 2) = 0 :=
  (by decide +kernel : ∀ t : Fin grid0.N, _)

/-- Window 0's block at point t, read at (p, k): its array at row 2000·t + p. -/
theorem blk0_0 (c : Dev nD) (t : Fin cfg0.N) (p : Fin 2000) (k : Fin 128) (e : Fin 100000) (he : e.val = t.val * 2000 + p.val) :
    (iblk0 V c 0 t : S2000x128.Idx → EReal) (ix2 p k) = (V c main_call0_v6 : S100000x128.Idx → EReal) (ix2 e k) := by
  show (V c main_call0_v6 : S100000x128.Idx → EReal) (((cfg0.win 0).blk t).view.emb (ix2 p k)) = _
  refine congrArg (V c main_call0_v6 : S100000x128.Idx → EReal) (funext fun a => Fin.ext ?_)
  match a with
  | ⟨0, _⟩ => show win0_0.index t (0 : Fin 2) * 2000 + 1 * p.val = e.val; rw [(idx0_0 t).1]; omega
  | ⟨1, _⟩ => show win0_0.index t (1 : Fin 2) * 128 + 1 * k.val = k.val; rw [(idx0_0 t).2]; omega

/-- Window 1's block at point t, read at (p, k): its array at row 2000·t + p. -/
theorem blk0_1 (c : Dev nD) (t : Fin cfg0.N) (p : Fin 2000) (k : Fin 128) (e : Fin 100000) (he : e.val = t.val * 2000 + p.val) :
    (iblk0 V c 1 t : S2000x128.Idx → EReal) (ix2 p k) = (V c main_call0_v13 : S100000x128.Idx → EReal) (ix2 e k) := by
  show (V c main_call0_v13 : S100000x128.Idx → EReal) (((cfg0.win 1).blk t).view.emb (ix2 p k)) = _
  refine congrArg (V c main_call0_v13 : S100000x128.Idx → EReal) (funext fun a => Fin.ext ?_)
  match a with
  | ⟨0, _⟩ => show win0_1.index t (0 : Fin 2) * 2000 + 1 * p.val = e.val; rw [(idx0_1 t).1]; omega
  | ⟨1, _⟩ => show win0_1.index t (1 : Fin 2) * 128 + 1 * k.val = k.val; rw [(idx0_1 t).2]; omega

/-- Window 2's block at point t, read at (p, k): its array at row 2000·t + p. -/
theorem blk0_2 (c : Dev nD) (t : Fin cfg0.N) (p : Fin 2000) (k : Fin 64) (e : Fin 100000) (he : e.val = t.val * 2000 + p.val) :
    (iblk0 V c 2 t : S2000x64.Idx → EReal) (ix2 p k) = (V c main_arg4 : S100000x64.Idx → EReal) (ix2 e k) := by
  show (V c main_arg4 : S100000x64.Idx → EReal) (((cfg0.win 2).blk t).view.emb (ix2 p k)) = _
  refine congrArg (V c main_arg4 : S100000x64.Idx → EReal) (funext fun a => Fin.ext ?_)
  match a with
  | ⟨0, _⟩ => show win0_2.index t (0 : Fin 2) * 2000 + 1 * p.val = e.val; rw [(idx0_2 t).1]; omega
  | ⟨1, _⟩ => show win0_2.index t (1 : Fin 2) * 64 + 1 * k.val = k.val; rw [(idx0_2 t).2]; omega

/-- Window 3's block at point t, read at (p, k): its array at row 2000·t + p. -/
theorem blk0_3 (c : Dev nD) (t : Fin cfg0.N) (p : Fin 2000) (k : Fin 16) (e : Fin 100000) (he : e.val = t.val * 2000 + p.val) :
    (iblk0 V c 3 t : S2000x16.Idx → EReal) (ix2 p k) = (V c main_call0_v23 : S100000x16.Idx → EReal) (ix2 e k) := by
  show (V c main_call0_v23 : S100000x16.Idx → EReal) (((cfg0.win 3).blk t).view.emb (ix2 p k)) = _
  refine congrArg (V c main_call0_v23 : S100000x16.Idx → EReal) (funext fun a => Fin.ext ?_)
  match a with
  | ⟨0, _⟩ => show win0_3.index t (0 : Fin 2) * 2000 + 1 * p.val = e.val; rw [(idx0_3 t).1]; omega
  | ⟨1, _⟩ => show win0_3.index t (1 : Fin 2) * 16 + 1 * k.val = k.val; rw [(idx0_3 t).2]; omega

/-- Window 4's block is its whole array at every point. -/
theorem blk0_4 (c : Dev nD) (t : Fin cfg0.N) (p : Fin 128) (k : Fin 384) :
    (iblk0 V c 4 t : S128x384.Idx → EReal) (ix2 p k) = (V c main_call0_v26 : S128x384.Idx → EReal) (ix2 p k) := by
  show (V c main_call0_v26 : S128x384.Idx → EReal) (((cfg0.win 4).blk t).view.emb (ix2 p k)) = _
  refine congrArg (V c main_call0_v26 : S128x384.Idx → EReal) (funext fun a => Fin.ext ?_)
  match a with
  | ⟨0, _⟩ => show win0_4.index t (0 : Fin 2) * 128 + 1 * p.val = p.val; rw [(idx0_4 t).1]; omega
  | ⟨1, _⟩ => show win0_4.index t (1 : Fin 2) * 384 + 1 * k.val = k.val; rw [(idx0_4 t).2]; omega

/-- Window 5's block is its whole array at every point. -/
theorem blk0_5 (c : Dev nD) (t : Fin cfg0.N) (p : Fin 128) (k : Fin 384) :
    (iblk0 V c 5 t : S128x384.Idx → EReal) (ix2 p k) = (V c main_call0_v29 : S128x384.Idx → EReal) (ix2 p k) := by
  show (V c main_call0_v29 : S128x384.Idx → EReal) (((cfg0.win 5).blk t).view.emb (ix2 p k)) = _
  refine congrArg (V c main_call0_v29 : S128x384.Idx → EReal) (funext fun a => Fin.ext ?_)
  match a with
  | ⟨0, _⟩ => show win0_5.index t (0 : Fin 2) * 128 + 1 * p.val = p.val; rw [(idx0_5 t).1]; omega
  | ⟨1, _⟩ => show win0_5.index t (1 : Fin 2) * 384 + 1 * k.val = k.val; rw [(idx0_5 t).2]; omega

/-- Window 6's block is its whole array at every point. -/
theorem blk0_6 (c : Dev nD) (t : Fin cfg0.N) (p : Fin 64) (k : Fin 384) :
    (iblk0 V c 6 t : S64x384.Idx → EReal) (ix2 p k) = (V c main_call0_v32 : S64x384.Idx → EReal) (ix2 p k) := by
  show (V c main_call0_v32 : S64x384.Idx → EReal) (((cfg0.win 6).blk t).view.emb (ix2 p k)) = _
  refine congrArg (V c main_call0_v32 : S64x384.Idx → EReal) (funext fun a => Fin.ext ?_)
  match a with
  | ⟨0, _⟩ => show win0_6.index t (0 : Fin 2) * 64 + 1 * p.val = p.val; rw [(idx0_6 t).1]; omega
  | ⟨1, _⟩ => show win0_6.index t (1 : Fin 2) * 384 + 1 * k.val = k.val; rw [(idx0_6 t).2]; omega

/-- Window 7's block is its whole array at every point. -/
theorem blk0_7 (c : Dev nD) (t : Fin cfg0.N) (p : Fin 16) (k : Fin 384) :
    (iblk0 V c 7 t : S16x384.Idx → EReal) (ix2 p k) = (V c main_call0_v35 : S16x384.Idx → EReal) (ix2 p k) := by
  show (V c main_call0_v35 : S16x384.Idx → EReal) (((cfg0.win 7).blk t).view.emb (ix2 p k)) = _
  refine congrArg (V c main_call0_v35 : S16x384.Idx → EReal) (funext fun a => Fin.ext ?_)
  match a with
  | ⟨0, _⟩ => show win0_7.index t (0 : Fin 2) * 16 + 1 * p.val = p.val; rw [(idx0_7 t).1]; omega
  | ⟨1, _⟩ => show win0_7.index t (1 : Fin 2) * 384 + 1 * k.val = k.val; rw [(idx0_7 t).2]; omega

/-- Window 8's block is its whole array at every point. -/
theorem blk0_8 (c : Dev nD) (t : Fin cfg0.N) (p : Fin 128) (k : Fin 384) :
    (iblk0 V c 8 t : S128x384.Idx → EReal) (ix2 p k) = (V c main_call0_v37 : S128x384.Idx → EReal) (ix2 p k) := by
  show (V c main_call0_v37 : S128x384.Idx → EReal) (((cfg0.win 8).blk t).view.emb (ix2 p k)) = _
  refine congrArg (V c main_call0_v37 : S128x384.Idx → EReal) (funext fun a => Fin.ext ?_)
  match a with
  | ⟨0, _⟩ => show win0_8.index t (0 : Fin 2) * 128 + 1 * p.val = p.val; rw [(idx0_8 t).1]; omega
  | ⟨1, _⟩ => show win0_8.index t (1 : Fin 2) * 384 + 1 * k.val = k.val; rw [(idx0_8 t).2]; omega

/-- Window 9's block is its whole array at every point. -/
theorem blk0_9 (c : Dev nD) (t : Fin cfg0.N) (p : Fin 1) (k : Fin 384) :
    (iblk0 V c 9 t : S1x384.Idx → EReal) (ix2 p k) = (V c main_call0_v38 : S1x384.Idx → EReal) (ix2 p k) := by
  show (V c main_call0_v38 : S1x384.Idx → EReal) (((cfg0.win 9).blk t).view.emb (ix2 p k)) = _
  refine congrArg (V c main_call0_v38 : S1x384.Idx → EReal) (funext fun a => Fin.ext ?_)
  match a with
  | ⟨0, _⟩ => show win0_9.index t (0 : Fin 2) * 1 + 1 * p.val = p.val; rw [(idx0_9 t).1]; omega
  | ⟨1, _⟩ => show win0_9.index t (1 : Fin 2) * 384 + 1 * k.val = k.val; rw [(idx0_9 t).2]; omega

/-- Window 10's block is its whole array at every point. -/
theorem blk0_10 (c : Dev nD) (t : Fin cfg0.N) (p : Fin 1) (k : Fin 384) :
    (iblk0 V c 10 t : S1x384.Idx → EReal) (ix2 p k) = (V c main_call0_v39 : S1x384.Idx → EReal) (ix2 p k) := by
  show (V c main_call0_v39 : S1x384.Idx → EReal) (((cfg0.win 10).blk t).view.emb (ix2 p k)) = _
  refine congrArg (V c main_call0_v39 : S1x384.Idx → EReal) (funext fun a => Fin.ext ?_)
  match a with
  | ⟨0, _⟩ => show win0_10.index t (0 : Fin 2) * 1 + 1 * p.val = p.val; rw [(idx0_10 t).1]; omega
  | ⟨1, _⟩ => show win0_10.index t (1 : Fin 2) * 384 + 1 * k.val = k.val; rw [(idx0_10 t).2]; omega

end Cert.KernelIdeal.Blocks

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.PayGru.lean ====
/-
  The state-update body's arithmetic, read at one entry, over the extended reals.

  For each event (row) p the body forms the input pre-activations of the 384 gate columns as four matrix
  products into zero — the source state, the destination state, the edge features and the time embedding, each
  against its own block of weights — added up in this order, plus a bias row; and the hidden pre-activations
  as a fifth product, the old state against the hidden weights, plus another bias row. It cuts each of the two
  [2000, 384] arrays into its reset, update and candidate thirds (columns j, 128 + j, 256 + j) and combines
  them coordinate by coordinate into the new state.

  On extended reals a change of format is the identity and a cast to the same shape is the identity, so entry
  (p, c) of a product is the inner product of row p with column c, and entry (p, j) of the stored state is the
  gated update of one coordinate, applied to row p. Nothing here needs an entry to be finite: only the
  definitions of the operations are used, no law of arithmetic.
-/
import proofs.«138008_j16372415332401_2_alg».proof.Proof.Gen.KernelIdeal.Skeleton
import proofs.«138008_j16372415332401_2_alg».proof.Proof.Spec
import proofs.«138008_j16372415332401_2_alg».proof.Proof.LibDenseEntry
import Idealize.ShloMosaic.Lib.ValueLayout

noncomputable section

namespace Cert.KernelIdeal.Pay

open Cert.KernelIdeal Cert.KernelIdeal.Gen Cert.Spec Idealize.ShloMosaic Idealize.ShloMosaic.ValueIdx
open scoped BigOperators

/-! ## Entry by entry -/

/-- The logistic function acts entry by entry. -/
theorem logistic_apply {s : Shape} {φ : FTy} (v : FVec Ideal s φ) (i : s.Idx) :
    logistic v i = Ideal.logistic (v i) := rfl

/-- The hyperbolic tangent acts entry by entry. -/
theorem tanh_apply {s : Shape} {φ : FTy} (v : FVec Ideal s φ) (i : s.Idx) : tanh v i = Ideal.tanh (v i) := rfl

/-- A scalar constant is the extended real its word denotes. -/
theorem scalar_ofBits (w : BitVec 32) : Scalar.ofBits (F := Ideal) .f32 w = Ideal.ofBits .f32 w := rfl

/-- The old source state as the body carries it: the loaded array itself. -/
theorem pay1_eq (x : Vec Ideal S2000x128 .f32) : k0_pay1 x = x := shapeCast_self x _

/-- The old destination state as the body carries it: the loaded array itself. -/
theorem pay2_eq (x : Vec Ideal S2000x128 .f32) : k0_pay2 x = x := shapeCast_self x _

/-- The source state in the products' format has the same entries. -/
theorem pay3_apply (x : Vec Ideal S2000x128 .f32) (i : S2000x128.Idx) : k0_pay3 x i = x i :=
  congrFun (pay1_eq x) i

/-- The destination state in the products' format has the same entries. -/
theorem pay4_apply (x : Vec Ideal S2000x128 .f32) (i : S2000x128.Idx) : k0_pay4 x i = x i :=
  congrFun (pay2_eq x) i

/-! ## The products and the bias rows at an entry -/

/-- A [2000, 128] operand against a [128, 384] block of weights: entry (p, c) is the inner product of the
    operand's row p with the block's column c. -/
theorem prod128 (l : FVec Ideal S2000x128 .bf16) (w : Vec Ideal S128x384 .bf16) (p : Fin 2000) (c : Fin 384) :
    matmul dot_S2000x128_S128x384_S2000x384_1_0_0_1_n_n none l
        (shapeCast S128x384 w shapeCasts_S128x384_S128x384 : FVec Ideal S128x384 .bf16) (constant (F := Ideal) S2000x384 .f32 0x00000000#32) (ix2 p c)
      = ∑ k : Fin 128, l (ix2 p k) * colsOf w c k := by
  rw [shapeCast_self]
  exact Cert.LibDenseEntry.matmul_plain_zero_apply dot_S2000x128_S128x384_S2000x384_1_0_0_1_n_n rfl rfl rfl rfl rfl rfl
    none l w p c

/-- The source state against a block of weights. -/
theorem prodSrc (x : Vec Ideal S2000x128 .f32) (w : Vec Ideal S128x384 .bf16) (p : Fin 2000) (c : Fin 384) :
    matmul dot_S2000x128_S128x384_S2000x384_1_0_0_1_n_n none (k0_pay3 x)
        (shapeCast S128x384 w shapeCasts_S128x384_S128x384 : FVec Ideal S128x384 .bf16) (constant (F := Ideal) S2000x384 .f32 0x00000000#32) (ix2 p c)
      = ∑ k : Fin 128, row x p k * colsOf w c k :=
  (prod128 (k0_pay3 x) w p c).trans
    (Finset.sum_congr rfl fun k _ => congrArg (· * colsOf w c k) (pay3_apply x (ix2 p k)))

/-- The destination state against a block of weights. -/
theorem prodDst (x : Vec Ideal S2000x128 .f32) (w : Vec Ideal S128x384 .bf16) (p : Fin 2000) (c : Fin 384) :
    matmul dot_S2000x128_S128x384_S2000x384_1_0_0_1_n_n none (k0_pay4 x)
        (shapeCast S128x384 w shapeCasts_S128x384_S128x384 : FVec Ideal S128x384 .bf16) (constant (F := Ideal) S2000x384 .f32 0x00000000#32) (ix2 p c)
      = ∑ k : Fin 128, row x p k * colsOf w c k :=
  (prod128 (k0_pay4 x) w p c).trans
    (Finset.sum_congr rfl fun k _ => congrArg (· * colsOf w c k) (pay4_apply x (ix2 p k)))

/-- The edge features against their block of weights. -/
theorem prodEdge (x : Vec Ideal S2000x64 .f32) (w : Vec Ideal S64x384 .bf16) (p : Fin 2000) (c : Fin 384) :
    matmul dot_S2000x64_S64x384_S2000x384_1_0_0_1_n_n none (truncf .bf16 (x : FVec Ideal S2000x64 .f32) bitsLt_bf16_f32)
        (shapeCast S64x384 w shapeCasts_S64x384_S64x384 : FVec Ideal S64x384 .bf16) (constant (F := Ideal) S2000x384 .f32 0x00000000#32) (ix2 p c)
      = ∑ k : Fin 64, row x p k * colsOf w c k := by
  rw [shapeCast_self]
  exact Cert.LibDenseEntry.matmul_plain_zero_apply dot_S2000x64_S64x384_S2000x384_1_0_0_1_n_n rfl rfl rfl rfl rfl rfl
    none (truncf .bf16 (x : FVec Ideal S2000x64 .f32) bitsLt_bf16_f32) w p c

/-- The time embedding against its block of weights. -/
theorem prodTime (x : Vec Ideal S2000x16 .f32) (w : Vec Ideal S16x384 .bf16) (p : Fin 2000) (c : Fin 384) :
    matmul dot_S2000x16_S16x384_S2000x384_1_0_0_1_n_n none
        (truncf .bf16 (shapeCast S2000x16 x shapeCasts_S2000x16_S2000x16 : FVec Ideal S2000x16 .f32) bitsLt_bf16_f32)
        (shapeCast S16x384 w shapeCasts_S16x384_S16x384 : FVec Ideal S16x384 .bf16) (constant (F := Ideal) S2000x384 .f32 0x00000000#32) (ix2 p c)
      = ∑ k : Fin 16, row x p k * colsOf w c k := by
  rw [shapeCast_self, shapeCast_self]
  exact Cert.LibDenseEntry.matmul_plain_zero_apply dot_S2000x16_S16x384_S2000x384_1_0_0_1_n_n rfl rfl rfl rfl rfl rfl
    none (truncf .bf16 (x : FVec Ideal S2000x16 .f32) bitsLt_bf16_f32) w p c

/-- A bias row laid under every event: entry (p, c) is the row's entry c. -/
theorem biasRow (b : Vec Ideal S1x384 .f32) (p : Fin 2000) (c : Fin 384) :
    broadcastTo S2000x384 (shapeCast S1x384 b shapeCasts_S1x384_S1x384 : FVec Ideal S1x384 .f32) broadcasts_S1x384_S2000x384 (ix2 p c)
      = b (ix2 (0 : Fin 1) c) := by
  rw [shapeCast_self]
  exact broadcastTo_1b_ab_apply b broadcasts_S1x384_S2000x384 p c

/-! ## The input pre-activations -/

/-- Entry (p, c) of the input pre-activations: the four block products of row p, added in order, plus the bias. -/
theorem pay5_apply (x0 x1 : Vec Ideal S2000x128 .f32) (x2 : Vec Ideal S2000x64 .f32) (x3 : Vec Ideal S2000x16 .f32)
    (w4 w5 : Vec Ideal S128x384 .bf16) (w6 : Vec Ideal S64x384 .bf16) (w7 : Vec Ideal S16x384 .bf16)
    (b9 : Vec Ideal S1x384 .f32) (p : Fin 2000) (c : Fin 384) :
    k0_pay5 x0 x1 x2 x3 w4 w5 w6 w7 b9 (ix2 p c)
      = giBlocks (row x0 p) (row x1 p) (row x2 p) (row x3 p) (colsOf w4) (colsOf w5) (colsOf w6) (colsOf w7)
          (fun c => b9 (ix2 (0 : Fin 1) c)) c :=
  congrArg₂ (· + ·) (congrArg₂ (· + ·) (congrArg₂ (· + ·) (congrArg₂ (· + ·) (prodSrc x0 w4 p c) (prodDst x1 w5 p c))
    (prodEdge x2 w6 p c)) (prodTime x3 w7 p c)) (biasRow b9 p c)

/-- Entry (p, c) of the hidden product for the source side: row p of the old source state against column c. -/
theorem pay6_apply (x : Vec Ideal S2000x128 .f32) (w : Vec Ideal S128x384 .bf16) (p : Fin 2000) (c : Fin 384) :
    k0_pay6 x w (ix2 p c) = ∑ k : Fin 128, row x p k * colsOf w c k :=
  prodSrc x w p c

/-! ## The three thirds of the gate columns -/

/-- The reset third of a [2000, 384] array: entry (p, j) is the array's entry (p, j). -/
theorem thirdR (v : FVec Ideal S2000x384 .f32) (p : Fin 2000) (j : Fin 128) :
    extractStridedSlice S2000x128 ![0, 0] v slices_S2000x384_o0_0_S2000x128 (ix2 p j) = v (ix2 p (colR j)) :=
  slice2_axis1_apply 0 v slices_S2000x384_o0_0_S2000x128 p j (colR j) (Nat.zero_add j.val).symm

/-- The update third: entry (p, j) is the array's entry (p, 128 + j). -/
theorem thirdZ (v : FVec Ideal S2000x384 .f32) (p : Fin 2000) (j : Fin 128) :
    extractStridedSlice S2000x128 ![0, 128] v slices_S2000x384_o0_128_S2000x128 (ix2 p j) = v (ix2 p (colZ j)) :=
  slice2_axis1_apply 128 v slices_S2000x384_o0_128_S2000x128 p j (colZ j) rfl

/-- The candidate third: entry (p, j) is the array's entry (p, 256 + j). -/
theorem thirdN (v : FVec Ideal S2000x384 .f32) (p : Fin 2000) (j : Fin 128) :
    extractStridedSlice S2000x128 ![0, 256] v slices_S2000x384_o0_256_S2000x128 (ix2 p j) = v (ix2 p (colN j)) :=
  slice2_axis1_apply 256 v slices_S2000x384_o0_256_S2000x128 p j (colN j) rfl

/-! ## One coordinate of the new state -/

/-- The source side's stored value at (p, j), for any carried arrays: the gated update of one coordinate from the
    thirds of the input pre-activations `gi`, the thirds of the hidden product `hp` plus its bias row, and the old
    state's entry. -/
theorem pay10_cell (h : FVec Ideal S2000x128 .f32) (gi hp : FVec Ideal S2000x384 .f32) (bh : Vec Ideal S1x384 .f32)
    (p : Fin 2000) (j : Fin 128) :
    k0_pay10 h gi hp bh (ix2 p j)
      = gruCell (Ideal.ofBits .f32 0x3F800000#32)
          (gi (ix2 p (colR j))) (gi (ix2 p (colZ j))) (gi (ix2 p (colN j)))
          (hp (ix2 p (colR j)) + bh (ix2 (0 : Fin 1) (colR j)))
          (hp (ix2 p (colZ j)) + bh (ix2 (0 : Fin 1) (colZ j)))
          (hp (ix2 p (colN j)) + bh (ix2 (0 : Fin 1) (colN j)))
          (h (ix2 p j)) := by
  unfold k0_pay10 k0_pay7 k0_pay8 k0_pay9 gruCell
  simp only [addf_apply, mulf_apply, subf_apply, broadcast_apply, logistic_apply, tanh_apply, scalar_ofBits,
    thirdR, thirdZ, thirdN, biasRow]

/-- The destination side's stored value at (p, j), for any carried arrays: the same update, the hidden product now
    taken inside — row p of the carried operand `l` against the hidden weights. -/
theorem pay11_cell (h : FVec Ideal S2000x128 .f32) (l : FVec Ideal S2000x128 .bf16) (gi : FVec Ideal S2000x384 .f32)
    (u : Vec Ideal S128x384 .bf16) (bh : Vec Ideal S1x384 .f32) (p : Fin 2000) (j : Fin 128) :
    k0_pay11 h l gi u bh (ix2 p j)
      = gruCell (Ideal.ofBits .f32 0x3F800000#32)
          (gi (ix2 p (colR j))) (gi (ix2 p (colZ j))) (gi (ix2 p (colN j)))
          ((∑ k : Fin 128, l (ix2 p k) * colsOf u (colR j) k) + bh (ix2 (0 : Fin 1) (colR j)))
          ((∑ k : Fin 128, l (ix2 p k) * colsOf u (colZ j) k) + bh (ix2 (0 : Fin 1) (colZ j)))
          ((∑ k : Fin 128, l (ix2 p k) * colsOf u (colN j) k) + bh (ix2 (0 : Fin 1) (colN j)))
          (h (ix2 p j)) := by
  unfold k0_pay11 k0_pay7 k0_pay8 k0_pay9 gruCell
  simp only [addf_apply, mulf_apply, subf_apply, broadcast_apply, logistic_apply, tanh_apply, scalar_ofBits,
    thirdR, thirdZ, thirdN, biasRow, prod128]

/-! ## The two stored states -/

/-- Entry (p, j) of the new source state: the gated update of coordinate j of event p's source state. -/
theorem pay10_apply (x0 x1 : Vec Ideal S2000x128 .f32) (x2 : Vec Ideal S2000x64 .f32) (x3 : Vec Ideal S2000x16 .f32)
    (w4 w5 : Vec Ideal S128x384 .bf16) (w6 : Vec Ideal S64x384 .bf16) (w7 : Vec Ideal S16x384 .bf16)
    (w8 : Vec Ideal S128x384 .bf16) (b9 b10 : Vec Ideal S1x384 .f32) (p : Fin 2000) (j : Fin 128) :
    k0_pay10 (k0_pay1 x0) (k0_pay5 x0 x1 x2 x3 w4 w5 w6 w7 b9) (k0_pay6 x0 w8) b10 (ix2 p j)
      = gruNew (Ideal.ofBits .f32 0x3F800000#32)
          (giBlocks (row x0 p) (row x1 p) (row x2 p) (row x3 p) (colsOf w4) (colsOf w5) (colsOf w6) (colsOf w7)
            (fun c => b9 (ix2 (0 : Fin 1) c)))
          (row x0 p) (colsOf w8) (fun c => b10 (ix2 (0 : Fin 1) c)) j := by
  rw [pay10_cell, pay1_eq]
  simp only [pay5_apply, pay6_apply]
  rfl

/-- Entry (p, j) of the new destination state: the gated update of coordinate j of event p's destination state. -/
theorem pay11_apply (x0 x1 : Vec Ideal S2000x128 .f32) (x2 : Vec Ideal S2000x64 .f32) (x3 : Vec Ideal S2000x16 .f32)
    (w4 w5 : Vec Ideal S128x384 .bf16) (w6 : Vec Ideal S64x384 .bf16) (w7 : Vec Ideal S16x384 .bf16)
    (w8 : Vec Ideal S128x384 .bf16) (b9 b10 : Vec Ideal S1x384 .f32) (p : Fin 2000) (j : Fin 128) :
    k0_pay11 (k0_pay2 x1) (k0_pay4 x1) (k0_pay5 x0 x1 x2 x3 w4 w5 w6 w7 b9) w8 b10 (ix2 p j)
      = gruNew (Ideal.ofBits .f32 0x3F800000#32)
          (giBlocks (row x0 p) (row x1 p) (row x2 p) (row x3 p) (colsOf w4) (colsOf w5) (colsOf w6) (colsOf w7)
            (fun c => b9 (ix2 (0 : Fin 1) c)))
          (row x1 p) (colsOf w8) (fun c => b10 (ix2 (0 : Fin 1) c)) j := by
  rw [pay11_cell, pay2_eq]
  simp only [pay5_apply, pay4_apply]
  rfl

end Cert.KernelIdeal.Pay

end
-- ==== Proof.Region0Value.lean ====
/-
  Region 0 (the recurrent update): the two arrays it leaves. Point t computes, for each of its 2000 events and each of
  the 128 state coordinates, the gated update of the source state and of the destination state from that event's rows
  of the four event-indexed inputs and the whole weight arrays; so what it writes back is block t of one function of
  the whole arrays, and the fifty blocks tile the 100000 rows: the two output arrays end holding that function.
-/
import proofs.«138008_j16372415332401_2_alg».proof.Proof.Region0Blocks
import proofs.«138008_j16372415332401_2_alg».proof.Proof.PayGru
import Idealize.ShloMosaic.Lib.Pipeline.Value

set_option maxRecDepth 16384

noncomputable section

namespace Cert.KernelIdeal.Blocks

open Cert.KernelIdeal Cert.KernelIdeal.Gen Cert.Spec
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The updated source states, as one function of the arrays the region finds. -/
def newS (c : Dev nD) : S100000x128.Idx → EReal := fun i =>
  gruNew (Ideal.ofBits .f32 0x3F800000#32)
    (giBlocks (row (R := 100000) (K := 128) (V c main_call0_v6) (i 0)) (row (R := 100000) (K := 128) (V c main_call0_v13) (i 0)) (row (R := 100000) (K := 64) (V c main_arg4) (i 0)) (row (R := 100000) (K := 16) (V c main_call0_v23) (i 0))
      (colsOf (K := 128) (C := 384) (V c main_call0_v26)) (colsOf (K := 128) (C := 384) (V c main_call0_v29)) (colsOf (K := 64) (C := 384) (V c main_call0_v32)) (colsOf (K := 16) (C := 384) (V c main_call0_v35))
      (fun cc => (V c main_call0_v38 : S1x384.Idx → EReal) (ix2 (0 : Fin 1) cc)))
    (row (R := 100000) (K := 128) (V c main_call0_v6) (i 0)) (colsOf (K := 128) (C := 384) (V c main_call0_v37))
    (fun cc => (V c main_call0_v39 : S1x384.Idx → EReal) (ix2 (0 : Fin 1) cc)) (i 1)

/-- The updated destination states. -/
def newD (c : Dev nD) : S100000x128.Idx → EReal := fun i =>
  gruNew (Ideal.ofBits .f32 0x3F800000#32)
    (giBlocks (row (R := 100000) (K := 128) (V c main_call0_v6) (i 0)) (row (R := 100000) (K := 128) (V c main_call0_v13) (i 0)) (row (R := 100000) (K := 64) (V c main_arg4) (i 0)) (row (R := 100000) (K := 16) (V c main_call0_v23) (i 0))
      (colsOf (K := 128) (C := 384) (V c main_call0_v26)) (colsOf (K := 128) (C := 384) (V c main_call0_v29)) (colsOf (K := 64) (C := 384) (V c main_call0_v32)) (colsOf (K := 16) (C := 384) (V c main_call0_v35))
      (fun cc => (V c main_call0_v38 : S1x384.Idx → EReal) (ix2 (0 : Fin 1) cc)))
    (row (R := 100000) (K := 128) (V c main_call0_v13) (i 0)) (colsOf (K := 128) (C := 384) (V c main_call0_v37))
    (fun cc => (V c main_call0_v39 : S1x384.Idx → EReal) (ix2 (0 : Fin 1) cc)) (i 1)

/-- What point t writes back through output window 11 is block t of `newS`. -/
theorem flushed11 (c : Dev nD) (t : Fin cfg0.N) :
    (dat0 V c).flushed 11 t = ((cfg0.win 11).blk t).view.read (Elt Ideal) (newS V c) := by
  show (cfg0.win 11).cut (grid0.coords t) ((dat0 V c).after 11 t) = _
  rw [after0_11]
  unfold out0_11
  rw [View.canon_unit_zero hz]
  simp only [View.ld_unit_zero (S := S2000x128) hz, View.ld_unit_zero (S := S2000x64) hz, View.ld_unit_zero (S := S2000x16) hz,
    View.ld_unit_zero (S := S128x384) hz, View.ld_unit_zero (S := S64x384) hz, View.ld_unit_zero (S := S16x384) hz, View.ld_unit_zero (S := S1x384) hz]
  funext y
  obtain ⟨p, j, rfl⟩ : ∃ (p : Fin 2000) (j : Fin 128), y = ix2 p j := ⟨y 0, y 1, eq_ix2 y⟩
  have hN : cfg0.N = 50 := N_0
  have ht : t.val < 50 := by have := t.isLt; omega
  let e : Fin 100000 := ⟨t.val * 2000 + p.val, by have := p.isLt; omega⟩
  have r0 : row (R := 2000) (K := 128) (iblk0 V c 0 t) p = row (R := 100000) (K := 128) (V c main_call0_v6) e := funext fun k => blk0_0 V c t p k e rfl
  have r1 : row (R := 2000) (K := 128) (iblk0 V c 1 t) p = row (R := 100000) (K := 128) (V c main_call0_v13) e := funext fun k => blk0_1 V c t p k e rfl
  have r2 : row (R := 2000) (K := 64) (iblk0 V c 2 t) p = row (R := 100000) (K := 64) (V c main_arg4) e := funext fun k => blk0_2 V c t p k e rfl
  have r3 : row (R := 2000) (K := 16) (iblk0 V c 3 t) p = row (R := 100000) (K := 16) (V c main_call0_v23) e := funext fun k => blk0_3 V c t p k e rfl
  have c4 : colsOf (K := 128) (C := 384) (iblk0 V c 4 t) = colsOf (K := 128) (C := 384) (V c main_call0_v26) := funext fun cc => funext fun k => blk0_4 V c t k cc
  have c5 : colsOf (K := 128) (C := 384) (iblk0 V c 5 t) = colsOf (K := 128) (C := 384) (V c main_call0_v29) := funext fun cc => funext fun k => blk0_5 V c t k cc
  have c6 : colsOf (K := 64) (C := 384) (iblk0 V c 6 t) = colsOf (K := 64) (C := 384) (V c main_call0_v32) := funext fun cc => funext fun k => blk0_6 V c t k cc
  have c7 : colsOf (K := 16) (C := 384) (iblk0 V c 7 t) = colsOf (K := 16) (C := 384) (V c main_call0_v35) := funext fun cc => funext fun k => blk0_7 V c t k cc
  have c8 : colsOf (K := 128) (C := 384) (iblk0 V c 8 t) = colsOf (K := 128) (C := 384) (V c main_call0_v37) := funext fun cc => funext fun k => blk0_8 V c t k cc
  have b9 : (fun cc : Fin 384 => (iblk0 V c 9 t : S1x384.Idx → EReal) (ix2 (0 : Fin 1) cc)) = fun cc => (V c main_call0_v38 : S1x384.Idx → EReal) (ix2 (0 : Fin 1) cc) := funext fun cc => blk0_9 V c t 0 cc
  have b10 : (fun cc : Fin 384 => (iblk0 V c 10 t : S1x384.Idx → EReal) (ix2 (0 : Fin 1) cc)) = fun cc => (V c main_call0_v39 : S1x384.Idx → EReal) (ix2 (0 : Fin 1) cc) := funext fun cc => blk0_10 V c t 0 cc
  have hemb : ((cfg0.win 11).blk t).view.emb (ix2 p j) = (ix2 e j : S100000x128.Idx) := funext fun a => Fin.ext (by
    match a with
    | ⟨0, _⟩ => show win0_11.index t (0 : Fin 2) * 2000 + 1 * p.val = t.val * 2000 + p.val; rw [(idx0_11 t).1]; omega
    | ⟨1, _⟩ => show win0_11.index t (1 : Fin 2) * 128 + 1 * j.val = j.val; rw [(idx0_11 t).2]; omega)
  show k0_pay10 (k0_pay1 (iblk0 V c 0 t)) (k0_pay5 (iblk0 V c 0 t) (iblk0 V c 1 t) (iblk0 V c 2 t) (iblk0 V c 3 t) (iblk0 V c 4 t) (iblk0 V c 5 t) (iblk0 V c 6 t) (iblk0 V c 7 t) (iblk0 V c 9 t)) (k0_pay6 (iblk0 V c 0 t) (iblk0 V c 8 t)) (iblk0 V c 10 t) (ix2 p j) = newS V c (((cfg0.win 11).blk t).view.emb (ix2 p j))
  rw [hemb]
  refine (Cert.KernelIdeal.Pay.pay10_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p j).trans ?_
  rw [r0, r1, r2, r3, c4, c5, c6, c7, c8, b9, b10]
  rfl

/-- Every event row lies in exactly the block of the point that owns it. -/
theorem cover11 (i : S100000x128.Idx) : ∃ t : Fin cfg0.N, (cfg0.win 11).flush t = true ∧ i ∈ ((cfg0.win 11).blk t).view.set := by
  have hN : cfg0.N = 50 := N_0
  have hi0 : (i 0).val < 100000 := (i 0).isLt
  have hi1 : (i 1).val < 128 := (i 1).isLt
  let t : Fin cfg0.N := ⟨(i 0).val / 2000, by omega⟩
  refine ⟨t, flush0_11 t, ?_⟩
  show i ∈ ((View.whole main_call0_v40_0).slice (win0_11.rect t)).set
  rw [View.set_slice_whole, Rect.mem_set_unit]
  intro a
  match a with
  | ⟨0, _⟩ =>
    show win0_11.index t (0 : Fin 2) * 2000 ≤ (i 0).val ∧ (i 0).val < win0_11.index t (0 : Fin 2) * 2000 + 2000
    rw [(idx0_11 t).1]; show (i 0).val / 2000 * 2000 ≤ (i 0).val ∧ (i 0).val < (i 0).val / 2000 * 2000 + 2000; omega
  | ⟨1, _⟩ =>
    show win0_11.index t (1 : Fin 2) * 128 ≤ (i 1).val ∧ (i 1).val < win0_11.index t (1 : Fin 2) * 128 + 128
    rw [(idx0_11 t).2]; omega

/-- The array output window 11 ends holding. -/
theorem final11 (c : Dev nD) : (dat0 V c).arrAt 11 cfg0.N = newS V c :=
  (dat0 V c).arrAt_eq_of_cover 11 (newS V c) (fun t _ => flushed11 V c t) (cover11)

/-- What point t writes back through output window 12 is block t of `newD`. -/
theorem flushed12 (c : Dev nD) (t : Fin cfg0.N) :
    (dat0 V c).flushed 12 t = ((cfg0.win 12).blk t).view.read (Elt Ideal) (newD V c) := by
  show (cfg0.win 12).cut (grid0.coords t) ((dat0 V c).after 12 t) = _
  rw [after0_12]
  unfold out0_12
  rw [View.canon_unit_zero hz]
  simp only [View.ld_unit_zero (S := S2000x128) hz, View.ld_unit_zero (S := S2000x64) hz, View.ld_unit_zero (S := S2000x16) hz,
    View.ld_unit_zero (S := S128x384) hz, View.ld_unit_zero (S := S64x384) hz, View.ld_unit_zero (S := S16x384) hz, View.ld_unit_zero (S := S1x384) hz]
  funext y
  obtain ⟨p, j, rfl⟩ : ∃ (p : Fin 2000) (j : Fin 128), y = ix2 p j := ⟨y 0, y 1, eq_ix2 y⟩
  have hN : cfg0.N = 50 := N_0
  have ht : t.val < 50 := by have := t.isLt; omega
  let e : Fin 100000 := ⟨t.val * 2000 + p.val, by have := p.isLt; omega⟩
  have r0 : row (R := 2000) (K := 128) (iblk0 V c 0 t) p = row (R := 100000) (K := 128) (V c main_call0_v6) e := funext fun k => blk0_0 V c t p k e rfl
  have r1 : row (R := 2000) (K := 128) (iblk0 V c 1 t) p = row (R := 100000) (K := 128) (V c main_call0_v13) e := funext fun k => blk0_1 V c t p k e rfl
  have r2 : row (R := 2000) (K := 64) (iblk0 V c 2 t) p = row (R := 100000) (K := 64) (V c main_arg4) e := funext fun k => blk0_2 V c t p k e rfl
  have r3 : row (R := 2000) (K := 16) (iblk0 V c 3 t) p = row (R := 100000) (K := 16) (V c main_call0_v23) e := funext fun k => blk0_3 V c t p k e rfl
  have c4 : colsOf (K := 128) (C := 384) (iblk0 V c 4 t) = colsOf (K := 128) (C := 384) (V c main_call0_v26) := funext fun cc => funext fun k => blk0_4 V c t k cc
  have c5 : colsOf (K := 128) (C := 384) (iblk0 V c 5 t) = colsOf (K := 128) (C := 384) (V c main_call0_v29) := funext fun cc => funext fun k => blk0_5 V c t k cc
  have c6 : colsOf (K := 64) (C := 384) (iblk0 V c 6 t) = colsOf (K := 64) (C := 384) (V c main_call0_v32) := funext fun cc => funext fun k => blk0_6 V c t k cc
  have c7 : colsOf (K := 16) (C := 384) (iblk0 V c 7 t) = colsOf (K := 16) (C := 384) (V c main_call0_v35) := funext fun cc => funext fun k => blk0_7 V c t k cc
  have c8 : colsOf (K := 128) (C := 384) (iblk0 V c 8 t) = colsOf (K := 128) (C := 384) (V c main_call0_v37) := funext fun cc => funext fun k => blk0_8 V c t k cc
  have b9 : (fun cc : Fin 384 => (iblk0 V c 9 t : S1x384.Idx → EReal) (ix2 (0 : Fin 1) cc)) = fun cc => (V c main_call0_v38 : S1x384.Idx → EReal) (ix2 (0 : Fin 1) cc) := funext fun cc => blk0_9 V c t 0 cc
  have b10 : (fun cc : Fin 384 => (iblk0 V c 10 t : S1x384.Idx → EReal) (ix2 (0 : Fin 1) cc)) = fun cc => (V c main_call0_v39 : S1x384.Idx → EReal) (ix2 (0 : Fin 1) cc) := funext fun cc => blk0_10 V c t 0 cc
  have hemb : ((cfg0.win 12).blk t).view.emb (ix2 p j) = (ix2 e j : S100000x128.Idx) := funext fun a => Fin.ext (by
    match a with
    | ⟨0, _⟩ => show win0_12.index t (0 : Fin 2) * 2000 + 1 * p.val = t.val * 2000 + p.val; rw [(idx0_12 t).1]; omega
    | ⟨1, _⟩ => show win0_12.index t (1 : Fin 2) * 128 + 1 * j.val = j.val; rw [(idx0_12 t).2]; omega)
  show k0_pay11 (k0_pay2 (iblk0 V c 1 t)) (k0_pay4 (iblk0 V c 1 t)) (k0_pay5 (iblk0 V c 0 t) (iblk0 V c 1 t) (iblk0 V c 2 t) (iblk0 V c 3 t) (iblk0 V c 4 t) (iblk0 V c 5 t) (iblk0 V c 6 t) (iblk0 V c 7 t) (iblk0 V c 9 t)) (iblk0 V c 8 t) (iblk0 V c 10 t) (ix2 p j) = newD V c (((cfg0.win 12).blk t).view.emb (ix2 p j))
  rw [hemb]
  refine (Cert.KernelIdeal.Pay.pay11_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p j).trans ?_
  rw [r0, r1, r2, r3, c4, c5, c6, c7, c8, b9, b10]
  rfl

/-- Every event row lies in exactly the block of the point that owns it. -/
theorem cover12 (i : S100000x128.Idx) : ∃ t : Fin cfg0.N, (cfg0.win 12).flush t = true ∧ i ∈ ((cfg0.win 12).blk t).view.set := by
  have hN : cfg0.N = 50 := N_0
  have hi0 : (i 0).val < 100000 := (i 0).isLt
  have hi1 : (i 1).val < 128 := (i 1).isLt
  let t : Fin cfg0.N := ⟨(i 0).val / 2000, by omega⟩
  refine ⟨t, flush0_12 t, ?_⟩
  show i ∈ ((View.whole main_call0_v40_1).slice (win0_12.rect t)).set
  rw [View.set_slice_whole, Rect.mem_set_unit]
  intro a
  match a with
  | ⟨0, _⟩ =>
    show win0_12.index t (0 : Fin 2) * 2000 ≤ (i 0).val ∧ (i 0).val < win0_12.index t (0 : Fin 2) * 2000 + 2000
    rw [(idx0_12 t).1]; show (i 0).val / 2000 * 2000 ≤ (i 0).val ∧ (i 0).val < (i 0).val / 2000 * 2000 + 2000; omega
  | ⟨1, _⟩ =>
    show win0_12.index t (1 : Fin 2) * 128 ≤ (i 1).val ∧ (i 1).val < win0_12.index t (1 : Fin 2) * 128 + 128
    rw [(idx0_12 t).2]; omega

/-- The array output window 12 ends holding. -/
theorem final12 (c : Dev nD) : (dat0 V c).arrAt 12 cfg0.N = newD V c :=
  (dat0 V c).arrAt_eq_of_cover 12 (newD V c) (fun t _ => flushed12 V c t) (cover12)

end Cert.KernelIdeal.Blocks

end
-- ==== Proof.Region1Blocks.lean ====
/-
  Region 1 (the predictor), block reads. Fifty points again, point t on events 2000·t … 2000·t + 1999: the two
  updated-state inputs and the output column move with t along their rows; the weight matrix, the two rows
  and the 1×1 bias are whole arrays at every point.
-/
import proofs.«138008_j16372415332401_2_alg».proof.Proof.Gen.KernelIdeal.Frame
import proofs.«138008_j16372415332401_2_alg».proof.Proof.Spec

set_option maxRecDepth 16384

noncomputable section

namespace Cert.KernelIdeal.Blocks1

open Cert.KernelIdeal Cert.KernelIdeal.Gen Cert.Spec
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = 0 ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 2) = 0 ∧ win1_5.index t (1 : Fin 2) = 0 :=
  (by decide +kernel : ∀ t : Fin grid1.N, _)

theorem idx1_6 : ∀ t : Fin cfg1.N, win1_6.index t (0 : Fin 2) = t.val ∧ win1_6.index t (1 : Fin 2) = 0 :=
  (by decide +kernel : ∀ t : Fin grid1.N, _)

/-- Window 0's block at point t, read at (p, k): its array at row 2000·t + p. -/
theorem blk1_0 (c : Dev nD) (t : Fin cfg1.N) (p : Fin 2000) (k : Fin 128) (e : Fin 100000) (he : e.val = t.val * 2000 + p.val) :
    (iblk1 V c 0 t : S2000x128.Idx → EReal) (ix2 p k) = (V c main_call0_v61 : S100000x128.Idx → EReal) (ix2 e k) := by
  show (V c main_call0_v61 : S100000x128.Idx → EReal) (((cfg1.win 0).blk t).view.emb (ix2 p k)) = _
  refine congrArg (V c main_call0_v61 : S100000x128.Idx → EReal) (funext fun a => Fin.ext ?_)
  match a with
  | ⟨0, _⟩ => show win1_0.index t (0 : Fin 2) * 2000 + 1 * p.val = e.val; rw [(idx1_0 t).1]; omega
  | ⟨1, _⟩ => show win1_0.index t (1 : Fin 2) * 128 + 1 * k.val = k.val; rw [(idx1_0 t).2]; omega

/-- Window 1's block at point t, read at (p, k): its array at row 2000·t + p. -/
theorem blk1_1 (c : Dev nD) (t : Fin cfg1.N) (p : Fin 2000) (k : Fin 128) (e : Fin 100000) (he : e.val = t.val * 2000 + p.val) :
    (iblk1 V c 1 t : S2000x128.Idx → EReal) (ix2 p k) = (V c main_call0_v68 : S100000x128.Idx → EReal) (ix2 e k) := by
  show (V c main_call0_v68 : S100000x128.Idx → EReal) (((cfg1.win 1).blk t).view.emb (ix2 p k)) = _
  refine congrArg (V c main_call0_v68 : S100000x128.Idx → EReal) (funext fun a => Fin.ext ?_)
  match a with
  | ⟨0, _⟩ => show win1_1.index t (0 : Fin 2) * 2000 + 1 * p.val = e.val; rw [(idx1_1 t).1]; omega
  | ⟨1, _⟩ => show win1_1.index t (1 : Fin 2) * 128 + 1 * k.val = k.val; rw [(idx1_1 t).2]; omega

/-- Window 2's block is its whole array at every point. -/
theorem blk1_2 (c : Dev nD) (t : Fin cfg1.N) (p : Fin 256) (k : Fin 128) :
    (iblk1 V c 2 t : S256x128.Idx → EReal) (ix2 p k) = (V c main_call0_v70 : S256x128.Idx → EReal) (ix2 p k) := by
  show (V c main_call0_v70 : S256x128.Idx → EReal) (((cfg1.win 2).blk t).view.emb (ix2 p k)) = _
  refine congrArg (V c main_call0_v70 : S256x128.Idx → EReal) (funext fun a => Fin.ext ?_)
  match a with
  | ⟨0, _⟩ => show win1_2.index t (0 : Fin 2) * 256 + 1 * p.val = p.val; rw [(idx1_2 t).1]; omega
  | ⟨1, _⟩ => show win1_2.index t (1 : Fin 2) * 128 + 1 * k.val = k.val; rw [(idx1_2 t).2]; omega

/-- Window 3's block is its whole array at every point. -/
theorem blk1_3 (c : Dev nD) (t : Fin cfg1.N) (p : Fin 1) (k : Fin 128) :
    (iblk1 V c 3 t : S1x128.Idx → EReal) (ix2 p k) = (V c main_call0_v71 : S1x128.Idx → EReal) (ix2 p k) := by
  show (V c main_call0_v71 : S1x128.Idx → EReal) (((cfg1.win 3).blk t).view.emb (ix2 p k)) = _
  refine congrArg (V c main_call0_v71 : S1x128.Idx → EReal) (funext fun a => Fin.ext ?_)
  match a with
  | ⟨0, _⟩ => show win1_3.index t (0 : Fin 2) * 1 + 1 * p.val = p.val; rw [(idx1_3 t).1]; omega
  | ⟨1, _⟩ => show win1_3.index t (1 : Fin 2) * 128 + 1 * k.val = k.val; rw [(idx1_3 t).2]; omega

/-- Window 4's block is its whole array at every point. -/
theorem blk1_4 (c : Dev nD) (t : Fin cfg1.N) (p : Fin 1) (k : Fin 128) :
    (iblk1 V c 4 t : S1x128.Idx → EReal) (ix2 p k) = (V c main_arg13 : S1x128.Idx → EReal) (ix2 p k) := by
  show (V c main_arg13 : S1x128.Idx → EReal) (((cfg1.win 4).blk t).view.emb (ix2 p k)) = _
  refine congrArg (V c main_arg13 : S1x128.Idx → EReal) (funext fun a => Fin.ext ?_)
  match a with
  | ⟨0, _⟩ => show win1_4.index t (0 : Fin 2) * 1 + 1 * p.val = p.val; rw [(idx1_4 t).1]; omega
  | ⟨1, _⟩ => show win1_4.index t (1 : Fin 2) * 128 + 1 * k.val = k.val; rw [(idx1_4 t).2]; omega

/-- Window 5's block is its whole array at every point. -/
theorem blk1_5 (c : Dev nD) (t : Fin cfg1.N) (p : Fin 1) (k : Fin 1) :
    (iblk1 V c 5 t : S1x1.Idx → EReal) (ix2 p k) = (V c main_call0_v72 : S1x1.Idx → EReal) (ix2 p k) := by
  show (V c main_call0_v72 : S1x1.Idx → EReal) (((cfg1.win 5).blk t).view.emb (ix2 p k)) = _
  refine congrArg (V c main_call0_v72 : S1x1.Idx → EReal) (funext fun a => Fin.ext ?_)
  match a with
  | ⟨0, _⟩ => show win1_5.index t (0 : Fin 2) * 1 + 1 * p.val = p.val; rw [(idx1_5 t).1]; omega
  | ⟨1, _⟩ => show win1_5.index t (1 : Fin 2) * 1 + 1 * k.val = k.val; rw [(idx1_5 t).2]; omega

end Cert.KernelIdeal.Blocks1

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.PayPred.lean ====
/-
  The predictor body's arithmetic, read at one entry, over the extended reals.

  For each event (row) p the body lays the updated source state and the updated destination state side by side
  (256 features), multiplies by a [256, 128] matrix into zero, adds a bias row, floors at zero, multiplies entry by
  entry by one weight row, sums each row, keeps the sums as a column and adds a [1, 1] bias.

  Read at (p, u) — u the only coordinate of the column's unit axis — this is: the sum over the 128 hidden units j
  of max (⟨features of p, column j⟩ + bias j, 0) · weight j, plus the last bias. On extended reals a change of
  format is the identity and a cast to the same shape is the identity; only the definitions of the operations are
  used, no law of arithmetic, so no entry needs to be finite.
-/
import proofs.«138008_j16372415332401_2_alg».proof.Proof.Gen.KernelIdeal.Skeleton
import proofs.«138008_j16372415332401_2_alg».proof.Proof.Spec
import proofs.«138008_j16372415332401_2_alg».proof.Proof.LibDenseEntry
import proofs.«138008_j16372415332401_2_alg».proof.Proof.LibRank2
import proofs.«138008_j16372415332401_2_alg».proof.Proof.LibColumnCast
import Idealize.ShloMosaic.Lib.ValueLayout

noncomputable section

namespace Cert.KernelIdeal.Pay

open Cert.KernelIdeal Cert.KernelIdeal.Gen Cert.Spec Idealize.ShloMosaic Idealize.ShloMosaic.ValueIdx
open scoped BigOperators

/-! ## The layout operations at an entry -/

/-- A scalar constant is the extended real its word denotes. -/
theorem pred_scalar_ofBits (w : BitVec 32) : Scalar.ofBits (F := Ideal) .f32 w = Ideal.ofBits .f32 w := rfl

/-- Two [2000, 128] arrays side by side: entry (p, q) is the first array's (p, q) for q < 128 and the second's
    (p, q − 128) from there on. -/
theorem catRow (a b : FVec Ideal S2000x128 .f32) (p : Fin 2000) (q : Fin 256) :
    concatenate S2000x256 1 [⟨S2000x128, a⟩, ⟨S2000x128, b⟩] concatenates_S2000x128_S2000x128_S2000x256_d1 (ix2 p q)
      = cat2 (row a p) (row b p) q := by
  unfold cat2
  by_cases h : q.val < 128
  · rw [dif_pos h]
    exact concatenate_pair_apply_left (1 : Fin S2000x256.rank) a b concatenates_S2000x128_S2000x128_S2000x256_d1
      (ix2 p q) rfl (ix2 p ⟨q.val, h⟩) (fun ax => by match ax with | ⟨0, _⟩ => rfl | ⟨1, _⟩ => rfl)
  · rw [dif_neg h]
    exact concatenate_pair_apply_right (1 : Fin S2000x256.rank) a b concatenates_S2000x128_S2000x128_S2000x256_d1
      (ix2 p q) rfl rfl (ix2 p ⟨q.val - 128, by omega⟩)
      (fun ax hne => by
        match ax, hne with
        | ⟨0, _⟩, _ => rfl
        | ⟨1, _⟩, hne => exact absurd rfl hne)
      (by show q.val - 128 + 128 = q.val; omega)

/-- The 256 features against the [256, 128] matrix: entry (p, j) is the inner product of the operand's row p with
    the matrix's column j. -/
theorem prod256 (l : FVec Ideal S2000x256 .bf16) (w : FVec Ideal S256x128 .bf16) (p : Fin 2000) (j : Fin 128) :
    matmul dot_S2000x256_S256x128_S2000x128_1_0_0_1_n_n none l w
        (constant (F := Ideal) S2000x128 .f32 0x00000000#32) (ix2 p j)
      = ∑ k : Fin 256, l (ix2 p k) * colsOf w j k :=
  Cert.LibDenseEntry.matmul_plain_zero_apply dot_S2000x256_S256x128_S2000x128_1_0_0_1_n_n rfl rfl rfl rfl rfl rfl
    none l w p j

/-- A [1, 128] row laid under every event: entry (p, j) is the row's entry j. -/
theorem rowUnder (r : FVec Ideal S1x128 .f32) (p : Fin 2000) (j : Fin 128) :
    broadcastTo S2000x128 r broadcasts_S1x128_S2000x128 (ix2 p j) = r (ix2 (0 : Fin 1) j) :=
  broadcastTo_1b_ab_apply r broadcasts_S1x128_S2000x128 p j

/-- The [1, 1] bias laid under every event: every entry of the column is the bias. -/
theorem biasUnder (b : FVec Ideal S1x1 .f32) (p : Fin 2000) (u : Fin 1) :
    broadcastTo S2000x1 b broadcasts_S1x1_S2000x1 (ix2 p u) = b (ix2 (0 : Fin 1) (0 : Fin 1)) := by
  rw [Subsingleton.elim u (0 : Fin 1)]
  exact broadcastTo_1b_ab_apply b broadcasts_S1x1_S2000x1 p (0 : Fin 1)

/-- The sum of each row of a [2000, 128] array, at row p. -/
theorem rowSum (v : FVec Ideal S2000x128 .f32) (p : Fin 2000) :
    multiReduction (F := Ideal) .add [1] S2000 v 0x00000000#32 reduces_S2000x128_S2000 (.inl rfl) rfl (ix1 p)
      = ∑ k : Fin 128, v (ix2 p k) :=
  Cert.LibRank2.sum_last v 0x00000000#32 reduces_S2000x128_S2000 (.inl rfl) rfl p

/-- The row sums kept as a column: entry (p, u) is the sum of row p. -/
theorem colCast (v : FVec Ideal S2000 .f32) (p : Fin 2000) (u : Fin 1) :
    shapeCast S2000x1 v shapeCasts_S2000_S2000x1 (ix2 p u) = v (ix1 p) :=
  Cert.LibColumnCast.shapeCast_a_a1_apply v shapeCasts_S2000_S2000x1 p u

/-! ## The prediction -/

/-- Entry (p, u) of the stored column: the prediction of event p from its two updated states. -/
theorem pay1_apply (y0 y1 : Vec Ideal S2000x128 .f32) (w2 : Vec Ideal S256x128 .bf16) (b3 r4 : Vec Ideal S1x128 .f32)
    (b5 : Vec Ideal S1x1 .f32) (p : Fin 2000) (u : Fin 1) :
    k1_pay1 y0 y1 w2 b3 r4 b5 (ix2 p u)
      = predRow (Ideal.ofBits .f32 0x00000000#32) (cat2 (row y0 p) (row y1 p)) (colsOf w2)
          (fun j => b3 (ix2 (0 : Fin 1) j)) (fun j => r4 (ix2 (0 : Fin 1) j)) (b5 (ix2 (0 : Fin 1) (0 : Fin 1))) := by
  unfold k1_pay1 predRow
  -- the column entry is the row's sum plus the last bias
  simp only [addf_apply, colCast, biasUnder, shapeCast_self]
  refine congrArg (· + b5 (ix2 (0 : Fin 1) (0 : Fin 1))) ?_
  -- the row's sum, one hidden unit at a time
  refine (rowSum _ p).trans (Finset.sum_congr rfl fun j _ => ?_)
  simp only [addf_apply, mulf_apply, maximumf_apply, broadcast_apply, truncf_apply, pred_scalar_ofBits, shapeCast_self,
    prod256, catRow, rowUnder]

end Cert.KernelIdeal.Pay

end
-- ==== Proof.Region1Value.lean ====
/-
  Region 1 (the predictor): the column it leaves. Point t computes, for each of its 2000 events, the prediction from that
  event's two updated-state rows and the whole weight arrays; so what it writes back is block t of one function of the whole
  arrays, and the fifty blocks tile the 100000 rows of the output column.
-/
import proofs.«138008_j16372415332401_2_alg».proof.Proof.Region1Blocks
import proofs.«138008_j16372415332401_2_alg».proof.Proof.PayPred
import Idealize.ShloMosaic.Lib.Pipeline.Value

set_option maxRecDepth 16384

noncomputable section

namespace Cert.KernelIdeal.Blocks1

open Cert.KernelIdeal Cert.KernelIdeal.Gen Cert.Spec
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The predictions, as one function of the arrays the region finds. -/
def predCol (c : Dev nD) : S100000x1.Idx → EReal := fun i =>
  predRow (Ideal.ofBits .f32 0x00000000#32)
    (cat2 (row (R := 100000) (K := 128) (V c main_call0_v61) (i 0)) (row (R := 100000) (K := 128) (V c main_call0_v68) (i 0)))
    (colsOf (K := 256) (C := 128) (V c main_call0_v70))
    (fun j => (V c main_call0_v71 : S1x128.Idx → EReal) (ix2 (0 : Fin 1) j))
    (fun j => (V c main_arg13 : S1x128.Idx → EReal) (ix2 (0 : Fin 1) j))
    ((V c main_call0_v72 : S1x1.Idx → EReal) (ix2 (0 : Fin 1) (0 : Fin 1)))

/-- What point t writes back is block t of `predCol`. -/
theorem flushed6 (c : Dev nD) (t : Fin cfg1.N) :
    (dat1 V c).flushed 6 t = ((cfg1.win 6).blk t).view.read (Elt Ideal) (predCol V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S256x128) hz, View.ld_unit_zero (S := S1x128) hz, View.ld_unit_zero (S := S1x1) hz]
  funext y
  obtain ⟨p, u, rfl⟩ : ∃ (p : Fin 2000) (u : Fin 1), y = ix2 p u := ⟨y 0, y 1, eq_ix2 y⟩
  have hN : cfg1.N = 50 := N_1
  have ht : t.val < 50 := by have := t.isLt; omega
  let e : Fin 100000 := ⟨t.val * 2000 + p.val, by have := p.isLt; omega⟩
  have r0 : row (R := 2000) (K := 128) (iblk1 V c 0 t) p = row (R := 100000) (K := 128) (V c main_call0_v61) e := funext fun k => blk1_0 V c t p k e rfl
  have r1 : row (R := 2000) (K := 128) (iblk1 V c 1 t) p = row (R := 100000) (K := 128) (V c main_call0_v68) e := funext fun k => blk1_1 V c t p k e rfl
  have c2 : colsOf (K := 256) (C := 128) (iblk1 V c 2 t) = colsOf (K := 256) (C := 128) (V c main_call0_v70) := funext fun j => funext fun k => blk1_2 V c t k j
  have b3 : (fun j : Fin 128 => (iblk1 V c 3 t : S1x128.Idx → EReal) (ix2 (0 : Fin 1) j)) = fun j => (V c main_call0_v71 : S1x128.Idx → EReal) (ix2 (0 : Fin 1) j) := funext fun j => blk1_3 V c t 0 j
  have r4 : (fun j : Fin 128 => (iblk1 V c 4 t : S1x128.Idx → EReal) (ix2 (0 : Fin 1) j)) = fun j => (V c main_arg13 : S1x128.Idx → EReal) (ix2 (0 : Fin 1) j) := funext fun j => blk1_4 V c t 0 j
  have b5 : (iblk1 V c 5 t : S1x1.Idx → EReal) (ix2 (0 : Fin 1) (0 : Fin 1)) = (V c main_call0_v72 : S1x1.Idx → EReal) (ix2 (0 : Fin 1) (0 : Fin 1)) := blk1_5 V c t 0 0
  have hemb : ((cfg1.win 6).blk t).view.emb (ix2 p u) = (ix2 e u : S100000x1.Idx) := funext fun a => Fin.ext (by
    match a with
    | ⟨0, _⟩ => show win1_6.index t (0 : Fin 2) * 2000 + 1 * p.val = t.val * 2000 + p.val; rw [(idx1_6 t).1]; omega
    | ⟨1, _⟩ => show win1_6.index t (1 : Fin 2) * 1 + 1 * u.val = u.val; rw [(idx1_6 t).2]; omega)
  show k1_pay1 (iblk1 V c 0 t) (iblk1 V c 1 t) (iblk1 V c 2 t) (iblk1 V c 3 t) (iblk1 V c 4 t) (iblk1 V c 5 t) (ix2 p u) = predCol V c (((cfg1.win 6).blk t).view.emb (ix2 p u))
  rw [hemb]
  refine (Cert.KernelIdeal.Pay.pay1_apply (iblk1 V c 0 t) (iblk1 V c 1 t) (iblk1 V c 2 t) (iblk1 V c 3 t) (iblk1 V c 4 t) (iblk1 V c 5 t) p u).trans ?_
  rw [r0, r1, c2, b3, r4, b5]
  rfl

/-- Every event row lies in the block of the point that owns it. -/
theorem cover6 (i : S100000x1.Idx) : ∃ t : Fin cfg1.N, (cfg1.win 6).flush t = true ∧ i ∈ ((cfg1.win 6).blk t).view.set := by
  have hN : cfg1.N = 50 := N_1
  have hi0 : (i 0).val < 100000 := (i 0).isLt
  have hi1 : (i 1).val < 1 := (i 1).isLt
  let t : Fin cfg1.N := ⟨(i 0).val / 2000, by omega⟩
  refine ⟨t, flush1_6 t, ?_⟩
  show i ∈ ((View.whole main_call0_v73).slice (win1_6.rect t)).set
  rw [View.set_slice_whole, Rect.mem_set_unit]
  intro a
  match a with
  | ⟨0, _⟩ =>
    show win1_6.index t (0 : Fin 2) * 2000 ≤ (i 0).val ∧ (i 0).val < win1_6.index t (0 : Fin 2) * 2000 + 2000
    rw [(idx1_6 t).1]; show (i 0).val / 2000 * 2000 ≤ (i 0).val ∧ (i 0).val < (i 0).val / 2000 * 2000 + 2000; omega
  | ⟨1, _⟩ =>
    show win1_6.index t (1 : Fin 2) * 1 ≤ (i 1).val ∧ (i 1).val < win1_6.index t (1 : Fin 2) * 1 + 1
    rw [(idx1_6 t).2]; omega

/-- The column the predictor region leaves. -/
theorem final6 (c : Dev nD) : (dat1 V c).arrAt 6 cfg1.N = predCol V c :=
  (dat1 V c).arrAt_eq_of_cover 6 (predCol V c) (fun t _ => flushed6 V c t) (cover6)

end Cert.KernelIdeal.Blocks1

end
-- ==== Proof.KernelValue.lean ====
/-
  The idealized kernel program's run, read: every weakly fair execution terminates with
  * the prediction vector at the predictor region's column read as a vector, that column being the row-wise prediction of
    the arrays the predictor region finds;
  * the memory table at both scatters of the two updated-state arrays the recurrent-update region leaves, those being the
    row-wise gated updates of the arrays that region finds;
  * every argument array as launched.
-/
import proofs.«138008_j16372415332401_2_alg».proof.Proof.KernelRun
import proofs.«138008_j16372415332401_2_alg».proof.Proof.KernelFold
import proofs.«138008_j16372415332401_2_alg».proof.Proof.Region0Value
import proofs.«138008_j16372415332401_2_alg».proof.Proof.Region1Value

set_option maxRecDepth 16384

noncomputable section

namespace Cert.KernelIdeal.KValue

open Cert.KernelIdeal Cert.KernelIdeal.Gen Cert.KernelIdeal.Host Cert.Spec
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- The prediction vector the program returns. -/
def pred (c : Dev nD) : (⟨S100000, .f32⟩ : BufTy).Contents (Elt Ideal) :=
  shapeCast S100000 (Blocks1.predCol (V3 m ρ) c : (⟨S100000x1, .f32⟩ : BufTy).Contents (Elt Ideal)) shapeCasts_S100000x1_S100000

/-- The memory table the program returns. -/
def mem (c : Dev nD) : (⟨S1000000x128, .f32⟩ : BufTy).Contents (Elt Ideal) :=
  hk_main_v0_1 (m ((c : Thread nD τ).loc main_arg0)) (m ((c : Thread nD τ).loc main_arg1)) (m ((c : Thread nD τ).loc main_arg2))
    (Blocks.newS (V1 m ρ) c) (Blocks.newD (V1 m ρ) c)

theorem run : θ_run defs (onTc (τ := τ) (main (F := Ideal))) ⟨m, fun _ => 0, ρ⟩ (fun r => ∀ c : Dev nD,
      r.2.mem ((c.tc : Thread nD τ).loc main_v0_0) = pred m ρ c
      ∧ r.2.mem ((c.tc : Thread nD τ).loc main_v0_1) = mem m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  RunAll.run_all m ρ (fun s h c =>
    ⟨(h c _ (mem_uc main_v0_0 (by decide))).trans ((W5_pred m ρ c).trans (by rw [Blocks1.final6]; rfl)),
      (h c _ (mem_uc main_v0_1 (by decide))).trans ((W5_mem m ρ c).trans (by rw [Blocks.final11, Blocks.final12]; rfl)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c)⟩)

end Cert.KernelIdeal.KValue

end
-- ==== Proof.RefRun.lean ====
/-
  The reference program's run, read stage by stage. The reference is a straight line of host operations: two gathers of
  memory rows, the time embedding, a 336-wide concatenation, two dense products for each of the two recurrent updates,
  the gates, two scatters into the memory table, two gathers from the updated table, and the two-layer predictor. Every
  weakly fair execution terminates with the two results at the last stages' values of the argument arrays, and the
  argument arrays unchanged (no operation writes one).
-/
import proofs.«138008_j16372415332401_2_alg».proof.Proof.RefReadP

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The program's operations, in order (the one outlined function's three operations stand in its call's place). -/
abbrev ops : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg1 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 1000000#32),
    unary main_c_0 main_v2 (broadcastInDim S100000 ![] bcast_S_S100000 : (⟨S_, .i32⟩ : BufTy).Contents (Elt F) → (⟨S100000, .i32⟩ : BufTy).Contents (Elt F)),
    binary main_arg1 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg1 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg0 main_v5 main_v6 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v7 (broadcastInDim S100000 ![] bcast_S_S100000 : (⟨S_, .i32⟩ : BufTy).Contents (Elt F) → (⟨S100000, .i32⟩ : BufTy).Contents (Elt F)),
    binary main_arg2 main_v7 main_v8 (cmpi .slt : (⟨S100000, .i32⟩ : BufTy).Contents (Elt F) → (⟨S100000, .i32⟩ : BufTy).Contents (Elt F) → (⟨S100000, .i1⟩ : BufTy).Contents (Elt F)),
    nullary main_c_2 (constantI S_ 32 1000000#32),
    unary main_c_2 main_v9 (broadcastInDim S100000 ![] bcast_S_S100000 : (⟨S_, .i32⟩ : BufTy).Contents (Elt F) → (⟨S100000, .i32⟩ : BufTy).Contents (Elt F)),
    binary main_arg2 main_v9 main_v10 (addi : (⟨S100000, .i32⟩ : BufTy).Contents (Elt F) → (⟨S100000, .i32⟩ : BufTy).Contents (Elt F) → (⟨S100000, .i32⟩ : BufTy).Contents (Elt F)),
    ternary main_v8 main_v10 main_arg2 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v11 main_v12 (broadcastInDim S100000x1 ![0] bcast_S100000_S100000x1_0 : (⟨S100000, .i32⟩ : BufTy).Contents (Elt F) → (⟨S100000x1, .i32⟩ : BufTy).Contents (Elt F)),
    binary main_arg0 main_v12 main_v13 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)),
    unary main_arg3 main_v14 (broadcastInDim S100000x1 ![0] bcast_S100000_S100000x1_0 : (⟨S100000, .f32⟩ : BufTy).Contents (Elt F) → (⟨S100000x1, .f32⟩ : BufTy).Contents (Elt F)),
    unary main_arg5 main_v15 ((transpose S1x16 [1, 0] · transposes_S16x1_S1x16_1_0) : (⟨S16x1, .f32⟩ : BufTy).Contents (Elt F) → (⟨S1x16, .f32⟩ : BufTy).Contents (Elt F)),
    binary main_v14 main_v15 main_v16 ((fun l r => Host.dotGeneral dot_S100000x1_S1x16_S100000x16_1_0_0_1_n_n none l r) : (⟨S100000x1, .f32⟩ : BufTy).Contents (Elt F) → (⟨S1x16, .f32⟩ : BufTy).Contents (Elt F) → (⟨S100000x16, .f32⟩ : BufTy).Contents (Elt F)),
    unary main_arg6 main_v17 (broadcastInDim S1x16 ![1] bcast_S16_S1x16_1 : (⟨S16, .f32⟩ : BufTy).Contents (Elt F) → (⟨S1x16, .f32⟩ : BufTy).Contents (Elt F)),
    unary main_v17 main_v18 (broadcastInDim S100000x16 ![0, 1] bcast_S1x16_S100000x16_0_1 : (⟨S1x16, .f32⟩ : BufTy).Contents (Elt F) → (⟨S100000x16, .f32⟩ : BufTy).Contents (Elt F)),
    binary main_v16 main_v18 main_v19 (addf : (⟨S100000x16, .f32⟩ : BufTy).Contents (Elt F) → (⟨S100000x16, .f32⟩ : BufTy).Contents (Elt F) → (⟨S100000x16, .f32⟩ : BufTy).Contents (Elt F)),
    unary main_v19 main_v20 (Host.sin : (⟨S100000x16, .f32⟩ : BufTy).Contents (Elt F) → (⟨S100000x16, .f32⟩ : BufTy).Contents (Elt F)),
    nary ![main_v6, main_v13, main_arg4, main_v20] main_v21 (fun u => concatenate S100000x336 1 [⟨S100000x128, u 0⟩, ⟨S100000x128, u 1⟩, ⟨S100000x64, u 2⟩, ⟨S100000x16, u 3⟩] concatenates_S100000x128_S100000x128_S100000x64_S100000x16_S100000x336_d1),
    unary main_arg7 main_v22 ((transpose S336x384 [1, 0] · transposes_S384x336_S336x384_1_0) : (⟨S384x336, .f32⟩ : BufTy).Contents (Elt F) → (⟨S336x384, .f32⟩ : BufTy).Contents (Elt F)),
    binary main_v21 main_v22 main_v23 ((fun l r => Host.dotGeneral dot_S100000x336_S336x384_S100000x384_1_0_0_1_n_n none l r) : (⟨S100000x336, .f32⟩ : BufTy).Contents (Elt F) → (⟨S336x384, .f32⟩ : BufTy).Contents (Elt F) → (⟨S100000x384, .f32⟩ : BufTy).Contents (Elt F)),
    unary main_arg9 main_v24 (broadcastInDim S1x384 ![1] bcast_S384_S1x384_1 : (⟨S384, .f32⟩ : BufTy).Contents (Elt F) → (⟨S1x384, .f32⟩ : BufTy).Contents (Elt F)),
    unary main_v24 main_v25 (broadcastInDim S100000x384 ![0, 1] bcast_S1x384_S100000x384_0_1 : (⟨S1x384, .f32⟩ : BufTy).Contents (Elt F) → (⟨S100000x384, .f32⟩ : BufTy).Contents (Elt F)),
    binary main_v23 main_v25 main_v26 (addf : (⟨S100000x384, .f32⟩ : BufTy).Contents (Elt F) → (⟨S100000x384, .f32⟩ : BufTy).Contents (Elt F) → (⟨S100000x384, .f32⟩ : BufTy).Contents (Elt F)),
    unary main_arg8 main_v27 ((transpose S128x384 [1, 0] · transposes_S384x128_S128x384_1_0) : (⟨S384x128, .f32⟩ : BufTy).Contents (Elt F) → (⟨S128x384, .f32⟩ : BufTy).Contents (Elt F)),
    binary main_v6 main_v27 main_v28 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg10 main_v29 (broadcastInDim S1x384 ![1] bcast_S384_S1x384_1 : (⟨S384, .f32⟩ : BufTy).Contents (Elt F) → (⟨S1x384, .f32⟩ : BufTy).Contents (Elt F)),
    unary main_v29 main_v30 (broadcastInDim S100000x384 ![0, 1] bcast_S1x384_S100000x384_0_1 : (⟨S1x384, .f32⟩ : BufTy).Contents (Elt F) → (⟨S100000x384, .f32⟩ : BufTy).Contents (Elt F)),
    binary main_v28 main_v30 main_v31 (addf : (⟨S100000x384, .f32⟩ : BufTy).Contents (Elt F) → (⟨S100000x384, .f32⟩ : BufTy).Contents (Elt F) → (⟨S100000x384, .f32⟩ : BufTy).Contents (Elt F)),
    unary main_v26 main_v32 ((extractStridedSlice S100000x128 ![0, 0] · slices_S100000x384_S100000x128_0_0) : (⟨S100000x384, .f32⟩ : BufTy).Contents (Elt F) → (⟨S100000x128, .f32⟩ : BufTy).Contents (Elt F)),
    unary main_v26 main_v33 ((extractStridedSlice S100000x128 ![0, 128] · slices_S100000x384_S100000x128_0_128) : (⟨S100000x384, .f32⟩ : BufTy).Contents (Elt F) → (⟨S100000x128, .f32⟩ : BufTy).Contents (Elt F)),
    unary main_v26 main_v34 ((extractStridedSlice S100000x128 ![0, 256] · slices_S100000x384_S100000x128_0_256) : (⟨S100000x384, .f32⟩ : BufTy).Contents (Elt F) → (⟨S100000x128, .f32⟩ : BufTy).Contents (Elt F)),
    unary main_v31 main_v35 ((extractStridedSlice S100000x128 ![0, 0] · slices_S100000x384_S100000x128_0_0) : (⟨S100000x384, .f32⟩ : BufTy).Contents (Elt F) → (⟨S100000x128, .f32⟩ : BufTy).Contents (Elt F)),
    unary main_v31 main_v36 ((extractStridedSlice S100000x128 ![0, 128] · slices_S100000x384_S100000x128_0_128) : (⟨S100000x384, .f32⟩ : BufTy).Contents (Elt F) → (⟨S100000x128, .f32⟩ : BufTy).Contents (Elt F)),
    unary main_v31 main_v37 ((extractStridedSlice S100000x128 ![0, 256] · slices_S100000x384_S100000x128_0_256) : (⟨S100000x384, .f32⟩ : BufTy).Contents (Elt F) → (⟨S100000x128, .f32⟩ : BufTy).Contents (Elt F)),
    binary main_v32 main_v35 main_v38 (addf : (⟨S100000x128, .f32⟩ : BufTy).Contents (Elt F) → (⟨S100000x128, .f32⟩ : BufTy).Contents (Elt F) → (⟨S100000x128, .f32⟩ : BufTy).Contents (Elt F)),
    unary main_v38 main_v39 (Host.negf : (⟨S100000x128, .f32⟩ : BufTy).Contents (Elt F) → (⟨S100000x128, .f32⟩ : BufTy).Contents (Elt F)),
    unary main_v39 main_v40 (Host.exp : (⟨S100000x128, .f32⟩ : BufTy).Contents (Elt F) → (⟨S100000x128, .f32⟩ : BufTy).Contents (Elt F)),
    nullary main_cst (constant S_ .f32 0x3F800000#32),
    unary main_cst main_v41 (broadcastInDim S100000x128 ![] bcast_S_S100000x128 : (⟨S_, .f32⟩ : BufTy).Contents (Elt F) → (⟨S100000x128, .f32⟩ : BufTy).Contents (Elt F)),
    binary main_v41 main_v40 main_v42 (addf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3F800000#32),
    unary main_cst_3 main_v43 (broadcastInDim S100000x128 ![] bcast_S_S100000x128 : (⟨S_, .f32⟩ : BufTy).Contents (Elt F) → (⟨S100000x128, .f32⟩ : BufTy).Contents (Elt F)),
    binary main_v43 main_v42 main_v44 (Host.divf : (⟨S100000x128, .f32⟩ : BufTy).Contents (Elt F) → (⟨S100000x128, .f32⟩ : BufTy).Contents (Elt F) → (⟨S100000x128, .f32⟩ : BufTy).Contents (Elt F)),
    binary main_v33 main_v36 main_v45 (addf : (⟨S100000x128, .f32⟩ : BufTy).Contents (Elt F) → (⟨S100000x128, .f32⟩ : BufTy).Contents (Elt F) → (⟨S100000x128, .f32⟩ : BufTy).Contents (Elt F)),
    unary main_v45 main_v46 (Host.negf : (⟨S100000x128, .f32⟩ : BufTy).Contents (Elt F) → (⟨S100000x128, .f32⟩ : BufTy).Contents (Elt F)),
    unary main_v46 main_v47 (Host.exp : (⟨S100000x128, .f32⟩ : BufTy).Contents (Elt F) → (⟨S100000x128, .f32⟩ : BufTy).Contents (Elt F)),
    nullary main_cst_4 (constant S_ .f32 0x3F800000#32),
    unary main_cst_4 main_v48 (broadcastInDim S100000x128 ![] bcast_S_S100000x128 : (⟨S_, .f32⟩ : BufTy).Contents (Elt F) → (⟨S100000x128, .f32⟩ : BufTy).Contents (Elt F)),
    binary main_v48 main_v47 main_v49 (addf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3F800000#32),
    unary main_cst_5 main_v50 (broadcastInDim S100000x128 ![] bcast_S_S100000x128 : (⟨S_, .f32⟩ : BufTy).Contents (Elt F) → (⟨S100000x128, .f32⟩ : BufTy).Contents (Elt F)),
    binary main_v50 main_v49 main_v51 (Host.divf : (⟨S100000x128, .f32⟩ : BufTy).Contents (Elt F) → (⟨S100000x128, .f32⟩ : BufTy).Contents (Elt F) → (⟨S100000x128, .f32⟩ : BufTy).Contents (Elt F)),
    binary main_v44 main_v37 main_v52 (mulf : (⟨S100000x128, .f32⟩ : BufTy).Contents (Elt F) → (⟨S100000x128, .f32⟩ : BufTy).Contents (Elt F) → (⟨S100000x128, .f32⟩ : BufTy).Contents (Elt F)),
    binary main_v34 main_v52 main_v53 (addf : (⟨S100000x128, .f32⟩ : BufTy).Contents (Elt F) → (⟨S100000x128, .f32⟩ : BufTy).Contents (Elt F) → (⟨S100000x128, .f32⟩ : BufTy).Contents (Elt F)),
    unary main_v53 main_v54 (Host.tanh : (⟨S100000x128, .f32⟩ : BufTy).Contents (Elt F) → (⟨S100000x128, .f32⟩ : BufTy).Contents (Elt F)),
    nullary main_cst_6 (constant S_ .f32 0x3F800000#32),
    unary main_cst_6 main_v55 (broadcastInDim S100000x128 ![] bcast_S_S100000x128 : (⟨S_, .f32⟩ : BufTy).Contents (Elt F) → (⟨S100000x128, .f32⟩ : BufTy).Contents (Elt F)),
    binary main_v55 main_v51 main_v56 (subf : (⟨S100000x128, .f32⟩ : BufTy).Contents (Elt F) → (⟨S100000x128, .f32⟩ : BufTy).Contents (Elt F) → (⟨S100000x128, .f32⟩ : BufTy).Contents (Elt F)),
    binary main_v56 main_v54 main_v57 (mulf : (⟨S100000x128, .f32⟩ : BufTy).Contents (Elt F) → (⟨S100000x128, .f32⟩ : BufTy).Contents (Elt F) → (⟨S100000x128, .f32⟩ : BufTy).Contents (Elt F)),
    binary main_v51 main_v6 main_v58 (mulf : (⟨S100000x128, .f32⟩ : BufTy).Contents (Elt F) → (⟨S100000x128, .f32⟩ : BufTy).Contents (Elt F) → (⟨S100000x128, .f32⟩ : BufTy).Contents (Elt F)),
    binary main_v57 main_v58 main_v59 (addf : (⟨S100000x128, .f32⟩ : BufTy).Contents (Elt F) → (⟨S100000x128, .f32⟩ : BufTy).Contents (Elt F) → (⟨S100000x128, .f32⟩ : BufTy).Contents (Elt F)),
    unary main_arg7 main_v60 ((transpose S336x384 [1, 0] · transposes_S384x336_S336x384_1_0) : (⟨S384x336, .f32⟩ : BufTy).Contents (Elt F) → (⟨S336x384, .f32⟩ : BufTy).Contents (Elt F)),
    binary main_v21 main_v60 main_v61 ((fun l r => Host.dotGeneral dot_S100000x336_S336x384_S100000x384_1_0_0_1_n_n none l r) : (⟨S100000x336, .f32⟩ : BufTy).Contents (Elt F) → (⟨S336x384, .f32⟩ : BufTy).Contents (Elt F) → (⟨S100000x384, .f32⟩ : BufTy).Contents (Elt F)),
    unary main_arg9 main_v62 (broadcastInDim S1x384 ![1] bcast_S384_S1x384_1 : (⟨S384, .f32⟩ : BufTy).Contents (Elt F) → (⟨S1x384, .f32⟩ : BufTy).Contents (Elt F)),
    unary main_v62 main_v63 (broadcastInDim S100000x384 ![0, 1] bcast_S1x384_S100000x384_0_1 : (⟨S1x384, .f32⟩ : BufTy).Contents (Elt F) → (⟨S100000x384, .f32⟩ : BufTy).Contents (Elt F)),
    binary main_v61 main_v63 main_v64 (addf : (⟨S100000x384, .f32⟩ : BufTy).Contents (Elt F) → (⟨S100000x384, .f32⟩ : BufTy).Contents (Elt F) → (⟨S100000x384, .f32⟩ : BufTy).Contents (Elt F)),
    unary main_arg8 main_v65 ((transpose S128x384 [1, 0] · transposes_S384x128_S128x384_1_0) : (⟨S384x128, .f32⟩ : BufTy).Contents (Elt F) → (⟨S128x384, .f32⟩ : BufTy).Contents (Elt F)),
    binary main_v13 main_v65 main_v66 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg10 main_v67 (broadcastInDim S1x384 ![1] bcast_S384_S1x384_1 : (⟨S384, .f32⟩ : BufTy).Contents (Elt F) → (⟨S1x384, .f32⟩ : BufTy).Contents (Elt F)),
    unary main_v67 main_v68 (broadcastInDim S100000x384 ![0, 1] bcast_S1x384_S100000x384_0_1 : (⟨S1x384, .f32⟩ : BufTy).Contents (Elt F) → (⟨S100000x384, .f32⟩ : BufTy).Contents (Elt F)),
    binary main_v66 main_v68 main_v69 (addf : (⟨S100000x384, .f32⟩ : BufTy).Contents (Elt F) → (⟨S100000x384, .f32⟩ : BufTy).Contents (Elt F) → (⟨S100000x384, .f32⟩ : BufTy).Contents (Elt F)),
    unary main_v64 main_v70 ((extractStridedSlice S100000x128 ![0, 0] · slices_S100000x384_S100000x128_0_0) : (⟨S100000x384, .f32⟩ : BufTy).Contents (Elt F) → (⟨S100000x128, .f32⟩ : BufTy).Contents (Elt F)),
    unary main_v64 main_v71 ((extractStridedSlice S100000x128 ![0, 128] · slices_S100000x384_S100000x128_0_128) : (⟨S100000x384, .f32⟩ : BufTy).Contents (Elt F) → (⟨S100000x128, .f32⟩ : BufTy).Contents (Elt F)),
    unary main_v64 main_v72 ((extractStridedSlice S100000x128 ![0, 256] · slices_S100000x384_S100000x128_0_256) : (⟨S100000x384, .f32⟩ : BufTy).Contents (Elt F) → (⟨S100000x128, .f32⟩ : BufTy).Contents (Elt F)),
    unary main_v69 main_v73 ((extractStridedSlice S100000x128 ![0, 0] · slices_S100000x384_S100000x128_0_0) : (⟨S100000x384, .f32⟩ : BufTy).Contents (Elt F) → (⟨S100000x128, .f32⟩ : BufTy).Contents (Elt F)),
    unary main_v69 main_v74 ((extractStridedSlice S100000x128 ![0, 128] · slices_S100000x384_S100000x128_0_128) : (⟨S100000x384, .f32⟩ : BufTy).Contents (Elt F) → (⟨S100000x128, .f32⟩ : BufTy).Contents (Elt F)),
    unary main_v69 main_v75 ((extractStridedSlice S100000x128 ![0, 256] · slices_S100000x384_S100000x128_0_256) : (⟨S100000x384, .f32⟩ : BufTy).Contents (Elt F) → (⟨S100000x128, .f32⟩ : BufTy).Contents (Elt F)),
    binary main_v70 main_v73 main_v76 (addf : (⟨S100000x128, .f32⟩ : BufTy).Contents (Elt F) → (⟨S100000x128, .f32⟩ : BufTy).Contents (Elt F) → (⟨S100000x128, .f32⟩ : BufTy).Contents (Elt F)),
    unary main_v76 main_v77 (Host.negf : (⟨S100000x128, .f32⟩ : BufTy).Contents (Elt F) → (⟨S100000x128, .f32⟩ : BufTy).Contents (Elt F)),
    unary main_v77 main_v78 (Host.exp : (⟨S100000x128, .f32⟩ : BufTy).Contents (Elt F) → (⟨S100000x128, .f32⟩ : BufTy).Contents (Elt F)),
    nullary main_cst_7 (constant S_ .f32 0x3F800000#32),
    unary main_cst_7 main_v79 (broadcastInDim S100000x128 ![] bcast_S_S100000x128 : (⟨S_, .f32⟩ : BufTy).Contents (Elt F) → (⟨S100000x128, .f32⟩ : BufTy).Contents (Elt F)),
    binary main_v79 main_v78 main_v80 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3F800000#32),
    unary main_cst_8 main_v81 (broadcastInDim S100000x128 ![] bcast_S_S100000x128 : (⟨S_, .f32⟩ : BufTy).Contents (Elt F) → (⟨S100000x128, .f32⟩ : BufTy).Contents (Elt F)),
    binary main_v81 main_v80 main_v82 (Host.divf : (⟨S100000x128, .f32⟩ : BufTy).Contents (Elt F) → (⟨S100000x128, .f32⟩ : BufTy).Contents (Elt F) → (⟨S100000x128, .f32⟩ : BufTy).Contents (Elt F)),
    binary main_v71 main_v74 main_v83 (addf : (⟨S100000x128, .f32⟩ : BufTy).Contents (Elt F) → (⟨S100000x128, .f32⟩ : BufTy).Contents (Elt F) → (⟨S100000x128, .f32⟩ : BufTy).Contents (Elt F)),
    unary main_v83 main_v84 (Host.negf : (⟨S100000x128, .f32⟩ : BufTy).Contents (Elt F) → (⟨S100000x128, .f32⟩ : BufTy).Contents (Elt F)),
    unary main_v84 main_v85 (Host.exp : (⟨S100000x128, .f32⟩ : BufTy).Contents (Elt F) → (⟨S100000x128, .f32⟩ : BufTy).Contents (Elt F)),
    nullary main_cst_9 (constant S_ .f32 0x3F800000#32),
    unary main_cst_9 main_v86 (broadcastInDim S100000x128 ![] bcast_S_S100000x128 : (⟨S_, .f32⟩ : BufTy).Contents (Elt F) → (⟨S100000x128, .f32⟩ : BufTy).Contents (Elt F)),
    binary main_v86 main_v85 main_v87 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3F800000#32),
    unary main_cst_10 main_v88 (broadcastInDim S100000x128 ![] bcast_S_S100000x128 : (⟨S_, .f32⟩ : BufTy).Contents (Elt F) → (⟨S100000x128, .f32⟩ : BufTy).Contents (Elt F)),
    binary main_v88 main_v87 main_v89 (Host.divf : (⟨S100000x128, .f32⟩ : BufTy).Contents (Elt F) → (⟨S100000x128, .f32⟩ : BufTy).Contents (Elt F) → (⟨S100000x128, .f32⟩ : BufTy).Contents (Elt F)),
    binary main_v82 main_v75 main_v90 (mulf : (⟨S100000x128, .f32⟩ : BufTy).Contents (Elt F) → (⟨S100000x128, .f32⟩ : BufTy).Contents (Elt F) → (⟨S100000x128, .f32⟩ : BufTy).Contents (Elt F)),
    binary main_v72 main_v90 main_v91 (addf : (⟨S100000x128, .f32⟩ : BufTy).Contents (Elt F) → (⟨S100000x128, .f32⟩ : BufTy).Contents (Elt F) → (⟨S100000x128, .f32⟩ : BufTy).Contents (Elt F)),
    unary main_v91 main_v92 (Host.tanh : (⟨S100000x128, .f32⟩ : BufTy).Contents (Elt F) → (⟨S100000x128, .f32⟩ : BufTy).Contents (Elt F)),
    nullary main_cst_11 (constant S_ .f32 0x3F800000#32),
    unary main_cst_11 main_v93 (broadcastInDim S100000x128 ![] bcast_S_S100000x128 : (⟨S_, .f32⟩ : BufTy).Contents (Elt F) → (⟨S100000x128, .f32⟩ : BufTy).Contents (Elt F)),
    binary main_v93 main_v89 main_v94 (subf : (⟨S100000x128, .f32⟩ : BufTy).Contents (Elt F) → (⟨S100000x128, .f32⟩ : BufTy).Contents (Elt F) → (⟨S100000x128, .f32⟩ : BufTy).Contents (Elt F)),
    binary main_v94 main_v92 main_v95 (mulf : (⟨S100000x128, .f32⟩ : BufTy).Contents (Elt F) → (⟨S100000x128, .f32⟩ : BufTy).Contents (Elt F) → (⟨S100000x128, .f32⟩ : BufTy).Contents (Elt F)),
    binary main_v89 main_v13 main_v96 (mulf : (⟨S100000x128, .f32⟩ : BufTy).Contents (Elt F) → (⟨S100000x128, .f32⟩ : BufTy).Contents (Elt F) → (⟨S100000x128, .f32⟩ : BufTy).Contents (Elt F)),
    binary main_v95 main_v96 main_v97 (addf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v98 (broadcastInDim S100000 ![] bcast_S_S100000 : (⟨S_, .i32⟩ : BufTy).Contents (Elt F) → (⟨S100000, .i32⟩ : BufTy).Contents (Elt F)),
    binary main_arg1 main_v98 main_v99 (cmpi .slt : (⟨S100000, .i32⟩ : BufTy).Contents (Elt F) → (⟨S100000, .i32⟩ : BufTy).Contents (Elt F) → (⟨S100000, .i1⟩ : BufTy).Contents (Elt F)),
    nullary main_c_13 (constantI S_ 32 1000000#32),
    unary main_c_13 main_v100 (broadcastInDim S100000 ![] bcast_S_S100000 : (⟨S_, .i32⟩ : BufTy).Contents (Elt F) → (⟨S100000, .i32⟩ : BufTy).Contents (Elt F)),
    binary main_arg1 main_v100 main_v101 (addi : (⟨S100000, .i32⟩ : BufTy).Contents (Elt F) → (⟨S100000, .i32⟩ : BufTy).Contents (Elt F) → (⟨S100000, .i32⟩ : BufTy).Contents (Elt F)),
    ternary main_v99 main_v101 main_arg1 main_v102 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v102 main_v103 (broadcastInDim S100000x1 ![0] bcast_S100000_S100000x1_0 : (⟨S100000, .i32⟩ : BufTy).Contents (Elt F) → (⟨S100000x1, .i32⟩ : BufTy).Contents (Elt F)),
    ternary main_arg0 main_v103 main_v59 main_v104 ((fun x i u => Host.scatter scatter_S1000000x128_S100000x1_S100000x128_1_0_0_1 (fun _ b => b) x i u) : (⟨S1000000x128, .f32⟩ : BufTy).Contents (Elt F) → (⟨S100000x1, .i32⟩ : BufTy).Contents (Elt F) → (⟨S100000x128, .f32⟩ : BufTy).Contents (Elt F) → (⟨S1000000x128, .f32⟩ : BufTy).Contents (Elt F)),
    nullary main_c_14 (constantI S_ 32 0#32),
    unary main_c_14 main_v105 (broadcastInDim S100000 ![] bcast_S_S100000 : (⟨S_, .i32⟩ : BufTy).Contents (Elt F) → (⟨S100000, .i32⟩ : BufTy).Contents (Elt F)),
    binary main_arg2 main_v105 main_v106 (cmpi .slt : (⟨S100000, .i32⟩ : BufTy).Contents (Elt F) → (⟨S100000, .i32⟩ : BufTy).Contents (Elt F) → (⟨S100000, .i1⟩ : BufTy).Contents (Elt F)),
    nullary main_c_15 (constantI S_ 32 1000000#32),
    unary main_c_15 main_v107 (broadcastInDim S100000 ![] bcast_S_S100000 : (⟨S_, .i32⟩ : BufTy).Contents (Elt F) → (⟨S100000, .i32⟩ : BufTy).Contents (Elt F)),
    binary main_arg2 main_v107 main_v108 (addi : (⟨S100000, .i32⟩ : BufTy).Contents (Elt F) → (⟨S100000, .i32⟩ : BufTy).Contents (Elt F) → (⟨S100000, .i32⟩ : BufTy).Contents (Elt F)),
    ternary main_v106 main_v108 main_arg2 main_v109 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v109 main_v110 (broadcastInDim S100000x1 ![0] bcast_S100000_S100000x1_0 : (⟨S100000, .i32⟩ : BufTy).Contents (Elt F) → (⟨S100000x1, .i32⟩ : BufTy).Contents (Elt F)),
    ternary main_v104 main_v110 main_v97 main_v111 ((fun x i u => Host.scatter scatter_S1000000x128_S100000x1_S100000x128_1_0_0_1 (fun _ b => b) x i u) : (⟨S1000000x128, .f32⟩ : BufTy).Contents (Elt F) → (⟨S100000x1, .i32⟩ : BufTy).Contents (Elt F) → (⟨S100000x128, .f32⟩ : BufTy).Contents (Elt F) → (⟨S1000000x128, .f32⟩ : BufTy).Contents (Elt F)),
    nullary main_c_16 (constantI S_ 32 0#32),
    unary main_c_16 main_v112 (broadcastInDim S100000 ![] bcast_S_S100000 : (⟨S_, .i32⟩ : BufTy).Contents (Elt F) → (⟨S100000, .i32⟩ : BufTy).Contents (Elt F)),
    binary main_arg1 main_v112 main_v113 (cmpi .slt : (⟨S100000, .i32⟩ : BufTy).Contents (Elt F) → (⟨S100000, .i32⟩ : BufTy).Contents (Elt F) → (⟨S100000, .i1⟩ : BufTy).Contents (Elt F)),
    nullary main_c_17 (constantI S_ 32 1000000#32),
    unary main_c_17 main_v114 (broadcastInDim S100000 ![] bcast_S_S100000 : (⟨S_, .i32⟩ : BufTy).Contents (Elt F) → (⟨S100000, .i32⟩ : BufTy).Contents (Elt F)),
    binary main_arg1 main_v114 main_v115 (addi : (⟨S100000, .i32⟩ : BufTy).Contents (Elt F) → (⟨S100000, .i32⟩ : BufTy).Contents (Elt F) → (⟨S100000, .i32⟩ : BufTy).Contents (Elt F)),
    ternary main_v113 main_v115 main_arg1 main_v116 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v116 main_v117 (broadcastInDim S100000x1 ![0] bcast_S100000_S100000x1_0 : (⟨S100000, .i32⟩ : BufTy).Contents (Elt F) → (⟨S100000x1, .i32⟩ : BufTy).Contents (Elt F)),
    binary main_v111 main_v117 main_v118 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)),
    nullary main_c_18 (constantI S_ 32 0#32),
    unary main_c_18 main_v119 (broadcastInDim S100000 ![] bcast_S_S100000 : (⟨S_, .i32⟩ : BufTy).Contents (Elt F) → (⟨S100000, .i32⟩ : BufTy).Contents (Elt F)),
    binary main_arg2 main_v119 main_v120 (cmpi .slt : (⟨S100000, .i32⟩ : BufTy).Contents (Elt F) → (⟨S100000, .i32⟩ : BufTy).Contents (Elt F) → (⟨S100000, .i1⟩ : BufTy).Contents (Elt F)),
    nullary main_c_19 (constantI S_ 32 1000000#32),
    unary main_c_19 main_v121 (broadcastInDim S100000 ![] bcast_S_S100000 : (⟨S_, .i32⟩ : BufTy).Contents (Elt F) → (⟨S100000, .i32⟩ : BufTy).Contents (Elt F)),
    binary main_arg2 main_v121 main_v122 (addi : (⟨S100000, .i32⟩ : BufTy).Contents (Elt F) → (⟨S100000, .i32⟩ : BufTy).Contents (Elt F) → (⟨S100000, .i32⟩ : BufTy).Contents (Elt F)),
    ternary main_v120 main_v122 main_arg2 main_v123 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v123 main_v124 (broadcastInDim S100000x1 ![0] bcast_S100000_S100000x1_0 : (⟨S100000, .i32⟩ : BufTy).Contents (Elt F) → (⟨S100000x1, .i32⟩ : BufTy).Contents (Elt F)),
    binary main_v111 main_v124 main_v125 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)),
    binary main_v118 main_v125 main_v126 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg11 main_v127 ((transpose S256x128 [1, 0] · transposes_S128x256_S256x128_1_0) : (⟨S128x256, .f32⟩ : BufTy).Contents (Elt F) → (⟨S256x128, .f32⟩ : BufTy).Contents (Elt F)),
    binary main_v126 main_v127 main_v128 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg12 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v128 main_v130 main_v131 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v131) (TRef.of (T := ⟨S100000x128, .f32⟩) main_call0_v0) (TRef.of (T := ⟨S100000x128, .f32⟩) main_v132) maximumf,
    unary main_arg13 main_v133 ((transpose S128x1 [1, 0] · transposes_S1x128_S128x1_1_0) : (⟨S1x128, .f32⟩ : BufTy).Contents (Elt F) → (⟨S128x1, .f32⟩ : BufTy).Contents (Elt F)),
    binary main_v132 main_v133 main_v134 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg14 main_v135 (broadcastInDim S1x1 ![1] bcast_S1_S1x1_1 : (⟨S1, .f32⟩ : BufTy).Contents (Elt F) → (⟨S1x1, .f32⟩ : BufTy).Contents (Elt F)),
    unary main_v135 main_v136 (broadcastInDim S100000x1 ![0, 1] bcast_S1x1_S100000x1_0_1 : (⟨S1x1, .f32⟩ : BufTy).Contents (Elt F) → (⟨S100000x1, .f32⟩ : BufTy).Contents (Elt F)),
    binary main_v134 main_v136 main_v137 (addf : (⟨S100000x1, .f32⟩ : BufTy).Contents (Elt F) → (⟨S100000x1, .f32⟩ : BufTy).Contents (Elt F) → (⟨S100000x1, .f32⟩ : BufTy).Contents (Elt F)),
    reshape main_v137 main_v138 rfl shapeCasts_S100000x1_S100000 ]

/-- The operations up to and including the second scatter into the memory table. -/
abbrev opsA : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg1 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 1000000#32),
    unary main_c_0 main_v2 (broadcastInDim S100000 ![] bcast_S_S100000 : (⟨S_, .i32⟩ : BufTy).Contents (Elt F) → (⟨S100000, .i32⟩ : BufTy).Contents (Elt F)),
    binary main_arg1 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg1 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg0 main_v5 main_v6 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v7 (broadcastInDim S100000 ![] bcast_S_S100000 : (⟨S_, .i32⟩ : BufTy).Contents (Elt F) → (⟨S100000, .i32⟩ : BufTy).Contents (Elt F)),
    binary main_arg2 main_v7 main_v8 (cmpi .slt : (⟨S100000, .i32⟩ : BufTy).Contents (Elt F) → (⟨S100000, .i32⟩ : BufTy).Contents (Elt F) → (⟨S100000, .i1⟩ : BufTy).Contents (Elt F)),
    nullary main_c_2 (constantI S_ 32 1000000#32),
    unary main_c_2 main_v9 (broadcastInDim S100000 ![] bcast_S_S100000 : (⟨S_, .i32⟩ : BufTy).Contents (Elt F) → (⟨S100000, .i32⟩ : BufTy).Contents (Elt F)),
    binary main_arg2 main_v9 main_v10 (addi : (⟨S100000, .i32⟩ : BufTy).Contents (Elt F) → (⟨S100000, .i32⟩ : BufTy).Contents (Elt F) → (⟨S100000, .i32⟩ : BufTy).Contents (Elt F)),
    ternary main_v8 main_v10 main_arg2 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v11 main_v12 (broadcastInDim S100000x1 ![0] bcast_S100000_S100000x1_0 : (⟨S100000, .i32⟩ : BufTy).Contents (Elt F) → (⟨S100000x1, .i32⟩ : BufTy).Contents (Elt F)),
    binary main_arg0 main_v12 main_v13 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)),
    unary main_arg3 main_v14 (broadcastInDim S100000x1 ![0] bcast_S100000_S100000x1_0 : (⟨S100000, .f32⟩ : BufTy).Contents (Elt F) → (⟨S100000x1, .f32⟩ : BufTy).Contents (Elt F)),
    unary main_arg5 main_v15 ((transpose S1x16 [1, 0] · transposes_S16x1_S1x16_1_0) : (⟨S16x1, .f32⟩ : BufTy).Contents (Elt F) → (⟨S1x16, .f32⟩ : BufTy).Contents (Elt F)),
    binary main_v14 main_v15 main_v16 ((fun l r => Host.dotGeneral dot_S100000x1_S1x16_S100000x16_1_0_0_1_n_n none l r) : (⟨S100000x1, .f32⟩ : BufTy).Contents (Elt F) → (⟨S1x16, .f32⟩ : BufTy).Contents (Elt F) → (⟨S100000x16, .f32⟩ : BufTy).Contents (Elt F)),
    unary main_arg6 main_v17 (broadcastInDim S1x16 ![1] bcast_S16_S1x16_1 : (⟨S16, .f32⟩ : BufTy).Contents (Elt F) → (⟨S1x16, .f32⟩ : BufTy).Contents (Elt F)),
    unary main_v17 main_v18 (broadcastInDim S100000x16 ![0, 1] bcast_S1x16_S100000x16_0_1 : (⟨S1x16, .f32⟩ : BufTy).Contents (Elt F) → (⟨S100000x16, .f32⟩ : BufTy).Contents (Elt F)),
    binary main_v16 main_v18 main_v19 (addf : (⟨S100000x16, .f32⟩ : BufTy).Contents (Elt F) → (⟨S100000x16, .f32⟩ : BufTy).Contents (Elt F) → (⟨S100000x16, .f32⟩ : BufTy).Contents (Elt F)),
    unary main_v19 main_v20 (Host.sin : (⟨S100000x16, .f32⟩ : BufTy).Contents (Elt F) → (⟨S100000x16, .f32⟩ : BufTy).Contents (Elt F)),
    nary ![main_v6, main_v13, main_arg4, main_v20] main_v21 (fun u => concatenate S100000x336 1 [⟨S100000x128, u 0⟩, ⟨S100000x128, u 1⟩, ⟨S100000x64, u 2⟩, ⟨S100000x16, u 3⟩] concatenates_S100000x128_S100000x128_S100000x64_S100000x16_S100000x336_d1),
    unary main_arg7 main_v22 ((transpose S336x384 [1, 0] · transposes_S384x336_S336x384_1_0) : (⟨S384x336, .f32⟩ : BufTy).Contents (Elt F) → (⟨S336x384, .f32⟩ : BufTy).Contents (Elt F)),
    binary main_v21 main_v22 main_v23 ((fun l r => Host.dotGeneral dot_S100000x336_S336x384_S100000x384_1_0_0_1_n_n none l r) : (⟨S100000x336, .f32⟩ : BufTy).Contents (Elt F) → (⟨S336x384, .f32⟩ : BufTy).Contents (Elt F) → (⟨S100000x384, .f32⟩ : BufTy).Contents (Elt F)),
    unary main_arg9 main_v24 (broadcastInDim S1x384 ![1] bcast_S384_S1x384_1 : (⟨S384, .f32⟩ : BufTy).Contents (Elt F) → (⟨S1x384, .f32⟩ : BufTy).Contents (Elt F)),
    unary main_v24 main_v25 (broadcastInDim S100000x384 ![0, 1] bcast_S1x384_S100000x384_0_1 : (⟨S1x384, .f32⟩ : BufTy).Contents (Elt F) → (⟨S100000x384, .f32⟩ : BufTy).Contents (Elt F)),
    binary main_v23 main_v25 main_v26 (addf : (⟨S100000x384, .f32⟩ : BufTy).Contents (Elt F) → (⟨S100000x384, .f32⟩ : BufTy).Contents (Elt F) → (⟨S100000x384, .f32⟩ : BufTy).Contents (Elt F)),
    unary main_arg8 main_v27 ((transpose S128x384 [1, 0] · transposes_S384x128_S128x384_1_0) : (⟨S384x128, .f32⟩ : BufTy).Contents (Elt F) → (⟨S128x384, .f32⟩ : BufTy).Contents (Elt F)),
    binary main_v6 main_v27 main_v28 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg10 main_v29 (broadcastInDim S1x384 ![1] bcast_S384_S1x384_1 : (⟨S384, .f32⟩ : BufTy).Contents (Elt F) → (⟨S1x384, .f32⟩ : BufTy).Contents (Elt F)),
    unary main_v29 main_v30 (broadcastInDim S100000x384 ![0, 1] bcast_S1x384_S100000x384_0_1 : (⟨S1x384, .f32⟩ : BufTy).Contents (Elt F) → (⟨S100000x384, .f32⟩ : BufTy).Contents (Elt F)),
    binary main_v28 main_v30 main_v31 (addf : (⟨S100000x384, .f32⟩ : BufTy).Contents (Elt F) → (⟨S100000x384, .f32⟩ : BufTy).Contents (Elt F) → (⟨S100000x384, .f32⟩ : BufTy).Contents (Elt F)),
    unary main_v26 main_v32 ((extractStridedSlice S100000x128 ![0, 0] · slices_S100000x384_S100000x128_0_0) : (⟨S100000x384, .f32⟩ : BufTy).Contents (Elt F) → (⟨S100000x128, .f32⟩ : BufTy).Contents (Elt F)),
    unary main_v26 main_v33 ((extractStridedSlice S100000x128 ![0, 128] · slices_S100000x384_S100000x128_0_128) : (⟨S100000x384, .f32⟩ : BufTy).Contents (Elt F) → (⟨S100000x128, .f32⟩ : BufTy).Contents (Elt F)),
    unary main_v26 main_v34 ((extractStridedSlice S100000x128 ![0, 256] · slices_S100000x384_S100000x128_0_256) : (⟨S100000x384, .f32⟩ : BufTy).Contents (Elt F) → (⟨S100000x128, .f32⟩ : BufTy).Contents (Elt F)),
    unary main_v31 main_v35 ((extractStridedSlice S100000x128 ![0, 0] · slices_S100000x384_S100000x128_0_0) : (⟨S100000x384, .f32⟩ : BufTy).Contents (Elt F) → (⟨S100000x128, .f32⟩ : BufTy).Contents (Elt F)),
    unary main_v31 main_v36 ((extractStridedSlice S100000x128 ![0, 128] · slices_S100000x384_S100000x128_0_128) : (⟨S100000x384, .f32⟩ : BufTy).Contents (Elt F) → (⟨S100000x128, .f32⟩ : BufTy).Contents (Elt F)),
    unary main_v31 main_v37 ((extractStridedSlice S100000x128 ![0, 256] · slices_S100000x384_S100000x128_0_256) : (⟨S100000x384, .f32⟩ : BufTy).Contents (Elt F) → (⟨S100000x128, .f32⟩ : BufTy).Contents (Elt F)),
    binary main_v32 main_v35 main_v38 (addf : (⟨S100000x128, .f32⟩ : BufTy).Contents (Elt F) → (⟨S100000x128, .f32⟩ : BufTy).Contents (Elt F) → (⟨S100000x128, .f32⟩ : BufTy).Contents (Elt F)),
    unary main_v38 main_v39 (Host.negf : (⟨S100000x128, .f32⟩ : BufTy).Contents (Elt F) → (⟨S100000x128, .f32⟩ : BufTy).Contents (Elt F)),
    unary main_v39 main_v40 (Host.exp : (⟨S100000x128, .f32⟩ : BufTy).Contents (Elt F) → (⟨S100000x128, .f32⟩ : BufTy).Contents (Elt F)),
    nullary main_cst (constant S_ .f32 0x3F800000#32),
    unary main_cst main_v41 (broadcastInDim S100000x128 ![] bcast_S_S100000x128 : (⟨S_, .f32⟩ : BufTy).Contents (Elt F) → (⟨S100000x128, .f32⟩ : BufTy).Contents (Elt F)),
    binary main_v41 main_v40 main_v42 (addf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3F800000#32),
    unary main_cst_3 main_v43 (broadcastInDim S100000x128 ![] bcast_S_S100000x128 : (⟨S_, .f32⟩ : BufTy).Contents (Elt F) → (⟨S100000x128, .f32⟩ : BufTy).Contents (Elt F)),
    binary main_v43 main_v42 main_v44 (Host.divf : (⟨S100000x128, .f32⟩ : BufTy).Contents (Elt F) → (⟨S100000x128, .f32⟩ : BufTy).Contents (Elt F) → (⟨S100000x128, .f32⟩ : BufTy).Contents (Elt F)),
    binary main_v33 main_v36 main_v45 (addf : (⟨S100000x128, .f32⟩ : BufTy).Contents (Elt F) → (⟨S100000x128, .f32⟩ : BufTy).Contents (Elt F) → (⟨S100000x128, .f32⟩ : BufTy).Contents (Elt F)),
    unary main_v45 main_v46 (Host.negf : (⟨S100000x128, .f32⟩ : BufTy).Contents (Elt F) → (⟨S100000x128, .f32⟩ : BufTy).Contents (Elt F)),
    unary main_v46 main_v47 (Host.exp : (⟨S100000x128, .f32⟩ : BufTy).Contents (Elt F) → (⟨S100000x128, .f32⟩ : BufTy).Contents (Elt F)),
    nullary main_cst_4 (constant S_ .f32 0x3F800000#32),
    unary main_cst_4 main_v48 (broadcastInDim S100000x128 ![] bcast_S_S100000x128 : (⟨S_, .f32⟩ : BufTy).Contents (Elt F) → (⟨S100000x128, .f32⟩ : BufTy).Contents (Elt F)),
    binary main_v48 main_v47 main_v49 (addf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3F800000#32),
    unary main_cst_5 main_v50 (broadcastInDim S100000x128 ![] bcast_S_S100000x128 : (⟨S_, .f32⟩ : BufTy).Contents (Elt F) → (⟨S100000x128, .f32⟩ : BufTy).Contents (Elt F)),
    binary main_v50 main_v49 main_v51 (Host.divf : (⟨S100000x128, .f32⟩ : BufTy).Contents (Elt F) → (⟨S100000x128, .f32⟩ : BufTy).Contents (Elt F) → (⟨S100000x128, .f32⟩ : BufTy).Contents (Elt F)),
    binary main_v44 main_v37 main_v52 (mulf : (⟨S100000x128, .f32⟩ : BufTy).Contents (Elt F) → (⟨S100000x128, .f32⟩ : BufTy).Contents (Elt F) → (⟨S100000x128, .f32⟩ : BufTy).Contents (Elt F)),
    binary main_v34 main_v52 main_v53 (addf : (⟨S100000x128, .f32⟩ : BufTy).Contents (Elt F) → (⟨S100000x128, .f32⟩ : BufTy).Contents (Elt F) → (⟨S100000x128, .f32⟩ : BufTy).Contents (Elt F)),
    unary main_v53 main_v54 (Host.tanh : (⟨S100000x128, .f32⟩ : BufTy).Contents (Elt F) → (⟨S100000x128, .f32⟩ : BufTy).Contents (Elt F)),
    nullary main_cst_6 (constant S_ .f32 0x3F800000#32),
    unary main_cst_6 main_v55 (broadcastInDim S100000x128 ![] bcast_S_S100000x128 : (⟨S_, .f32⟩ : BufTy).Contents (Elt F) → (⟨S100000x128, .f32⟩ : BufTy).Contents (Elt F)),
    binary main_v55 main_v51 main_v56 (subf : (⟨S100000x128, .f32⟩ : BufTy).Contents (Elt F) → (⟨S100000x128, .f32⟩ : BufTy).Contents (Elt F) → (⟨S100000x128, .f32⟩ : BufTy).Contents (Elt F)),
    binary main_v56 main_v54 main_v57 (mulf : (⟨S100000x128, .f32⟩ : BufTy).Contents (Elt F) → (⟨S100000x128, .f32⟩ : BufTy).Contents (Elt F) → (⟨S100000x128, .f32⟩ : BufTy).Contents (Elt F)),
    binary main_v51 main_v6 main_v58 (mulf : (⟨S100000x128, .f32⟩ : BufTy).Contents (Elt F) → (⟨S100000x128, .f32⟩ : BufTy).Contents (Elt F) → (⟨S100000x128, .f32⟩ : BufTy).Contents (Elt F)),
    binary main_v57 main_v58 main_v59 (addf : (⟨S100000x128, .f32⟩ : BufTy).Contents (Elt F) → (⟨S100000x128, .f32⟩ : BufTy).Contents (Elt F) → (⟨S100000x128, .f32⟩ : BufTy).Contents (Elt F)),
    unary main_arg7 main_v60 ((transpose S336x384 [1, 0] · transposes_S384x336_S336x384_1_0) : (⟨S384x336, .f32⟩ : BufTy).Contents (Elt F) → (⟨S336x384, .f32⟩ : BufTy).Contents (Elt F)),
    binary main_v21 main_v60 main_v61 ((fun l r => Host.dotGeneral dot_S100000x336_S336x384_S100000x384_1_0_0_1_n_n none l r) : (⟨S100000x336, .f32⟩ : BufTy).Contents (Elt F) → (⟨S336x384, .f32⟩ : BufTy).Contents (Elt F) → (⟨S100000x384, .f32⟩ : BufTy).Contents (Elt F)),
    unary main_arg9 main_v62 (broadcastInDim S1x384 ![1] bcast_S384_S1x384_1 : (⟨S384, .f32⟩ : BufTy).Contents (Elt F) → (⟨S1x384, .f32⟩ : BufTy).Contents (Elt F)),
    unary main_v62 main_v63 (broadcastInDim S100000x384 ![0, 1] bcast_S1x384_S100000x384_0_1 : (⟨S1x384, .f32⟩ : BufTy).Contents (Elt F) → (⟨S100000x384, .f32⟩ : BufTy).Contents (Elt F)),
    binary main_v61 main_v63 main_v64 (addf : (⟨S100000x384, .f32⟩ : BufTy).Contents (Elt F) → (⟨S100000x384, .f32⟩ : BufTy).Contents (Elt F) → (⟨S100000x384, .f32⟩ : BufTy).Contents (Elt F)),
    unary main_arg8 main_v65 ((transpose S128x384 [1, 0] · transposes_S384x128_S128x384_1_0) : (⟨S384x128, .f32⟩ : BufTy).Contents (Elt F) → (⟨S128x384, .f32⟩ : BufTy).Contents (Elt F)),
    binary main_v13 main_v65 main_v66 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg10 main_v67 (broadcastInDim S1x384 ![1] bcast_S384_S1x384_1 : (⟨S384, .f32⟩ : BufTy).Contents (Elt F) → (⟨S1x384, .f32⟩ : BufTy).Contents (Elt F)),
    unary main_v67 main_v68 (broadcastInDim S100000x384 ![0, 1] bcast_S1x384_S100000x384_0_1 : (⟨S1x384, .f32⟩ : BufTy).Contents (Elt F) → (⟨S100000x384, .f32⟩ : BufTy).Contents (Elt F)),
    binary main_v66 main_v68 main_v69 (addf : (⟨S100000x384, .f32⟩ : BufTy).Contents (Elt F) → (⟨S100000x384, .f32⟩ : BufTy).Contents (Elt F) → (⟨S100000x384, .f32⟩ : BufTy).Contents (Elt F)),
    unary main_v64 main_v70 ((extractStridedSlice S100000x128 ![0, 0] · slices_S100000x384_S100000x128_0_0) : (⟨S100000x384, .f32⟩ : BufTy).Contents (Elt F) → (⟨S100000x128, .f32⟩ : BufTy).Contents (Elt F)),
    unary main_v64 main_v71 ((extractStridedSlice S100000x128 ![0, 128] · slices_S100000x384_S100000x128_0_128) : (⟨S100000x384, .f32⟩ : BufTy).Contents (Elt F) → (⟨S100000x128, .f32⟩ : BufTy).Contents (Elt F)),
    unary main_v64 main_v72 ((extractStridedSlice S100000x128 ![0, 256] · slices_S100000x384_S100000x128_0_256) : (⟨S100000x384, .f32⟩ : BufTy).Contents (Elt F) → (⟨S100000x128, .f32⟩ : BufTy).Contents (Elt F)),
    unary main_v69 main_v73 ((extractStridedSlice S100000x128 ![0, 0] · slices_S100000x384_S100000x128_0_0) : (⟨S100000x384, .f32⟩ : BufTy).Contents (Elt F) → (⟨S100000x128, .f32⟩ : BufTy).Contents (Elt F)),
    unary main_v69 main_v74 ((extractStridedSlice S100000x128 ![0, 128] · slices_S100000x384_S100000x128_0_128) : (⟨S100000x384, .f32⟩ : BufTy).Contents (Elt F) → (⟨S100000x128, .f32⟩ : BufTy).Contents (Elt F)),
    unary main_v69 main_v75 ((extractStridedSlice S100000x128 ![0, 256] · slices_S100000x384_S100000x128_0_256) : (⟨S100000x384, .f32⟩ : BufTy).Contents (Elt F) → (⟨S100000x128, .f32⟩ : BufTy).Contents (Elt F)),
    binary main_v70 main_v73 main_v76 (addf : (⟨S100000x128, .f32⟩ : BufTy).Contents (Elt F) → (⟨S100000x128, .f32⟩ : BufTy).Contents (Elt F) → (⟨S100000x128, .f32⟩ : BufTy).Contents (Elt F)),
    unary main_v76 main_v77 (Host.negf : (⟨S100000x128, .f32⟩ : BufTy).Contents (Elt F) → (⟨S100000x128, .f32⟩ : BufTy).Contents (Elt F)),
    unary main_v77 main_v78 (Host.exp : (⟨S100000x128, .f32⟩ : BufTy).Contents (Elt F) → (⟨S100000x128, .f32⟩ : BufTy).Contents (Elt F)),
    nullary main_cst_7 (constant S_ .f32 0x3F800000#32),
    unary main_cst_7 main_v79 (broadcastInDim S100000x128 ![] bcast_S_S100000x128 : (⟨S_, .f32⟩ : BufTy).Contents (Elt F) → (⟨S100000x128, .f32⟩ : BufTy).Contents (Elt F)),
    binary main_v79 main_v78 main_v80 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3F800000#32),
    unary main_cst_8 main_v81 (broadcastInDim S100000x128 ![] bcast_S_S100000x128 : (⟨S_, .f32⟩ : BufTy).Contents (Elt F) → (⟨S100000x128, .f32⟩ : BufTy).Contents (Elt F)),
    binary main_v81 main_v80 main_v82 (Host.divf : (⟨S100000x128, .f32⟩ : BufTy).Contents (Elt F) → (⟨S100000x128, .f32⟩ : BufTy).Contents (Elt F) → (⟨S100000x128, .f32⟩ : BufTy).Contents (Elt F)),
    binary main_v71 main_v74 main_v83 (addf : (⟨S100000x128, .f32⟩ : BufTy).Contents (Elt F) → (⟨S100000x128, .f32⟩ : BufTy).Contents (Elt F) → (⟨S100000x128, .f32⟩ : BufTy).Contents (Elt F)),
    unary main_v83 main_v84 (Host.negf : (⟨S100000x128, .f32⟩ : BufTy).Contents (Elt F) → (⟨S100000x128, .f32⟩ : BufTy).Contents (Elt F)),
    unary main_v84 main_v85 (Host.exp : (⟨S100000x128, .f32⟩ : BufTy).Contents (Elt F) → (⟨S100000x128, .f32⟩ : BufTy).Contents (Elt F)),
    nullary main_cst_9 (constant S_ .f32 0x3F800000#32),
    unary main_cst_9 main_v86 (broadcastInDim S100000x128 ![] bcast_S_S100000x128 : (⟨S_, .f32⟩ : BufTy).Contents (Elt F) → (⟨S100000x128, .f32⟩ : BufTy).Contents (Elt F)),
    binary main_v86 main_v85 main_v87 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3F800000#32),
    unary main_cst_10 main_v88 (broadcastInDim S100000x128 ![] bcast_S_S100000x128 : (⟨S_, .f32⟩ : BufTy).Contents (Elt F) → (⟨S100000x128, .f32⟩ : BufTy).Contents (Elt F)),
    binary main_v88 main_v87 main_v89 (Host.divf : (⟨S100000x128, .f32⟩ : BufTy).Contents (Elt F) → (⟨S100000x128, .f32⟩ : BufTy).Contents (Elt F) → (⟨S100000x128, .f32⟩ : BufTy).Contents (Elt F)),
    binary main_v82 main_v75 main_v90 (mulf : (⟨S100000x128, .f32⟩ : BufTy).Contents (Elt F) → (⟨S100000x128, .f32⟩ : BufTy).Contents (Elt F) → (⟨S100000x128, .f32⟩ : BufTy).Contents (Elt F)),
    binary main_v72 main_v90 main_v91 (addf : (⟨S100000x128, .f32⟩ : BufTy).Contents (Elt F) → (⟨S100000x128, .f32⟩ : BufTy).Contents (Elt F) → (⟨S100000x128, .f32⟩ : BufTy).Contents (Elt F)),
    unary main_v91 main_v92 (Host.tanh : (⟨S100000x128, .f32⟩ : BufTy).Contents (Elt F) → (⟨S100000x128, .f32⟩ : BufTy).Contents (Elt F)),
    nullary main_cst_11 (constant S_ .f32 0x3F800000#32),
    unary main_cst_11 main_v93 (broadcastInDim S100000x128 ![] bcast_S_S100000x128 : (⟨S_, .f32⟩ : BufTy).Contents (Elt F) → (⟨S100000x128, .f32⟩ : BufTy).Contents (Elt F)),
    binary main_v93 main_v89 main_v94 (subf : (⟨S100000x128, .f32⟩ : BufTy).Contents (Elt F) → (⟨S100000x128, .f32⟩ : BufTy).Contents (Elt F) → (⟨S100000x128, .f32⟩ : BufTy).Contents (Elt F)),
    binary main_v94 main_v92 main_v95 (mulf : (⟨S100000x128, .f32⟩ : BufTy).Contents (Elt F) → (⟨S100000x128, .f32⟩ : BufTy).Contents (Elt F) → (⟨S100000x128, .f32⟩ : BufTy).Contents (Elt F)),
    binary main_v89 main_v13 main_v96 (mulf : (⟨S100000x128, .f32⟩ : BufTy).Contents (Elt F) → (⟨S100000x128, .f32⟩ : BufTy).Contents (Elt F) → (⟨S100000x128, .f32⟩ : BufTy).Contents (Elt F)),
    binary main_v95 main_v96 main_v97 (addf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v98 (broadcastInDim S100000 ![] bcast_S_S100000 : (⟨S_, .i32⟩ : BufTy).Contents (Elt F) → (⟨S100000, .i32⟩ : BufTy).Contents (Elt F)),
    binary main_arg1 main_v98 main_v99 (cmpi .slt : (⟨S100000, .i32⟩ : BufTy).Contents (Elt F) → (⟨S100000, .i32⟩ : BufTy).Contents (Elt F) → (⟨S100000, .i1⟩ : BufTy).Contents (Elt F)),
    nullary main_c_13 (constantI S_ 32 1000000#32),
    unary main_c_13 main_v100 (broadcastInDim S100000 ![] bcast_S_S100000 : (⟨S_, .i32⟩ : BufTy).Contents (Elt F) → (⟨S100000, .i32⟩ : BufTy).Contents (Elt F)),
    binary main_arg1 main_v100 main_v101 (addi : (⟨S100000, .i32⟩ : BufTy).Contents (Elt F) → (⟨S100000, .i32⟩ : BufTy).Contents (Elt F) → (⟨S100000, .i32⟩ : BufTy).Contents (Elt F)),
    ternary main_v99 main_v101 main_arg1 main_v102 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v102 main_v103 (broadcastInDim S100000x1 ![0] bcast_S100000_S100000x1_0 : (⟨S100000, .i32⟩ : BufTy).Contents (Elt F) → (⟨S100000x1, .i32⟩ : BufTy).Contents (Elt F)),
    ternary main_arg0 main_v103 main_v59 main_v104 ((fun x i u => Host.scatter scatter_S1000000x128_S100000x1_S100000x128_1_0_0_1 (fun _ b => b) x i u) : (⟨S1000000x128, .f32⟩ : BufTy).Contents (Elt F) → (⟨S100000x1, .i32⟩ : BufTy).Contents (Elt F) → (⟨S100000x128, .f32⟩ : BufTy).Contents (Elt F) → (⟨S1000000x128, .f32⟩ : BufTy).Contents (Elt F)),
    nullary main_c_14 (constantI S_ 32 0#32),
    unary main_c_14 main_v105 (broadcastInDim S100000 ![] bcast_S_S100000 : (⟨S_, .i32⟩ : BufTy).Contents (Elt F) → (⟨S100000, .i32⟩ : BufTy).Contents (Elt F)),
    binary main_arg2 main_v105 main_v106 (cmpi .slt : (⟨S100000, .i32⟩ : BufTy).Contents (Elt F) → (⟨S100000, .i32⟩ : BufTy).Contents (Elt F) → (⟨S100000, .i1⟩ : BufTy).Contents (Elt F)),
    nullary main_c_15 (constantI S_ 32 1000000#32),
    unary main_c_15 main_v107 (broadcastInDim S100000 ![] bcast_S_S100000 : (⟨S_, .i32⟩ : BufTy).Contents (Elt F) → (⟨S100000, .i32⟩ : BufTy).Contents (Elt F)),
    binary main_arg2 main_v107 main_v108 (addi : (⟨S100000, .i32⟩ : BufTy).Contents (Elt F) → (⟨S100000, .i32⟩ : BufTy).Contents (Elt F) → (⟨S100000, .i32⟩ : BufTy).Contents (Elt F)),
    ternary main_v106 main_v108 main_arg2 main_v109 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v109 main_v110 (broadcastInDim S100000x1 ![0] bcast_S100000_S100000x1_0 : (⟨S100000, .i32⟩ : BufTy).Contents (Elt F) → (⟨S100000x1, .i32⟩ : BufTy).Contents (Elt F)),
    ternary main_v104 main_v110 main_v97 main_v111 ((fun x i u => Host.scatter scatter_S1000000x128_S100000x1_S100000x128_1_0_0_1 (fun _ b => b) x i u) : (⟨S1000000x128, .f32⟩ : BufTy).Contents (Elt F) → (⟨S100000x1, .i32⟩ : BufTy).Contents (Elt F) → (⟨S100000x128, .f32⟩ : BufTy).Contents (Elt F) → (⟨S1000000x128, .f32⟩ : BufTy).Contents (Elt F)) ]

/-- The operations after it up to the second gather from the updated table. -/
abbrev opsB1 : List (HloOp τ sig (Elt F)) :=
  [ nullary main_c_16 (constantI S_ 32 0#32),
    unary main_c_16 main_v112 (broadcastInDim S100000 ![] bcast_S_S100000 : (⟨S_, .i32⟩ : BufTy).Contents (Elt F) → (⟨S100000, .i32⟩ : BufTy).Contents (Elt F)),
    binary main_arg1 main_v112 main_v113 (cmpi .slt : (⟨S100000, .i32⟩ : BufTy).Contents (Elt F) → (⟨S100000, .i32⟩ : BufTy).Contents (Elt F) → (⟨S100000, .i1⟩ : BufTy).Contents (Elt F)),
    nullary main_c_17 (constantI S_ 32 1000000#32),
    unary main_c_17 main_v114 (broadcastInDim S100000 ![] bcast_S_S100000 : (⟨S_, .i32⟩ : BufTy).Contents (Elt F) → (⟨S100000, .i32⟩ : BufTy).Contents (Elt F)),
    binary main_arg1 main_v114 main_v115 (addi : (⟨S100000, .i32⟩ : BufTy).Contents (Elt F) → (⟨S100000, .i32⟩ : BufTy).Contents (Elt F) → (⟨S100000, .i32⟩ : BufTy).Contents (Elt F)),
    ternary main_v113 main_v115 main_arg1 main_v116 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v116 main_v117 (broadcastInDim S100000x1 ![0] bcast_S100000_S100000x1_0 : (⟨S100000, .i32⟩ : BufTy).Contents (Elt F) → (⟨S100000x1, .i32⟩ : BufTy).Contents (Elt F)),
    binary main_v111 main_v117 main_v118 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)),
    nullary main_c_18 (constantI S_ 32 0#32),
    unary main_c_18 main_v119 (broadcastInDim S100000 ![] bcast_S_S100000 : (⟨S_, .i32⟩ : BufTy).Contents (Elt F) → (⟨S100000, .i32⟩ : BufTy).Contents (Elt F)),
    binary main_arg2 main_v119 main_v120 (cmpi .slt : (⟨S100000, .i32⟩ : BufTy).Contents (Elt F) → (⟨S100000, .i32⟩ : BufTy).Contents (Elt F) → (⟨S100000, .i1⟩ : BufTy).Contents (Elt F)),
    nullary main_c_19 (constantI S_ 32 1000000#32),
    unary main_c_19 main_v121 (broadcastInDim S100000 ![] bcast_S_S100000 : (⟨S_, .i32⟩ : BufTy).Contents (Elt F) → (⟨S100000, .i32⟩ : BufTy).Contents (Elt F)),
    binary main_arg2 main_v121 main_v122 (addi : (⟨S100000, .i32⟩ : BufTy).Contents (Elt F) → (⟨S100000, .i32⟩ : BufTy).Contents (Elt F) → (⟨S100000, .i32⟩ : BufTy).Contents (Elt F)),
    ternary main_v120 main_v122 main_arg2 main_v123 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v123 main_v124 (broadcastInDim S100000x1 ![0] bcast_S100000_S100000x1_0 : (⟨S100000, .i32⟩ : BufTy).Contents (Elt F) → (⟨S100000x1, .i32⟩ : BufTy).Contents (Elt F)),
    binary main_v111 main_v124 main_v125 ((fun x i => Host.gather gather_S1000000x128_S100000x1_S100000x128_1_0_n_n_0_1_1128 x i) : (⟨S1000000x128, .f32⟩ : BufTy).Contents (Elt F) → (⟨S100000x1, .i32⟩ : BufTy).Contents (Elt F) → (⟨S100000x128, .f32⟩ : BufTy).Contents (Elt F)) ]

/-- The rest: the predictor, from the concatenation of the two re-gathered rows on. -/
abbrev opsB2 : List (HloOp τ sig (Elt F)) :=
  [ binary main_v118 main_v125 main_v126 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg11 main_v127 ((transpose S256x128 [1, 0] · transposes_S128x256_S256x128_1_0) : (⟨S128x256, .f32⟩ : BufTy).Contents (Elt F) → (⟨S256x128, .f32⟩ : BufTy).Contents (Elt F)),
    binary main_v126 main_v127 main_v128 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg12 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v128 main_v130 main_v131 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v131) (TRef.of (T := ⟨S100000x128, .f32⟩) main_call0_v0) (TRef.of (T := ⟨S100000x128, .f32⟩) main_v132) maximumf,
    unary main_arg13 main_v133 ((transpose S128x1 [1, 0] · transposes_S1x128_S128x1_1_0) : (⟨S1x128, .f32⟩ : BufTy).Contents (Elt F) → (⟨S128x1, .f32⟩ : BufTy).Contents (Elt F)),
    binary main_v132 main_v133 main_v134 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg14 main_v135 (broadcastInDim S1x1 ![1] bcast_S1_S1x1_1 : (⟨S1, .f32⟩ : BufTy).Contents (Elt F) → (⟨S1x1, .f32⟩ : BufTy).Contents (Elt F)),
    unary main_v135 main_v136 (broadcastInDim S100000x1 ![0, 1] bcast_S1x1_S100000x1_0_1 : (⟨S1x1, .f32⟩ : BufTy).Contents (Elt F) → (⟨S100000x1, .f32⟩ : BufTy).Contents (Elt F)),
    binary main_v134 main_v136 main_v137 (addf : (⟨S100000x1, .f32⟩ : BufTy).Contents (Elt F) → (⟨S100000x1, .f32⟩ : BufTy).Contents (Elt F) → (⟨S100000x1, .f32⟩ : BufTy).Contents (Elt F)),
    reshape main_v137 main_v138 rfl shapeCasts_S100000x1_S100000 ]

set_option maxRecDepth 8192 in
/-- The line is its three parts, one after the other. -/
theorem ops_split : (ops : List (HloOp τ sig (Elt F))) = opsA ++ (opsB1 ++ opsB2) := rfl

/-- Running a line of operations is running its first part, then its second from where the first ended. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., unary_bufs_sub .., nary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub ..⟩

/-- Contents carried to a buffer's own type and back are the contents. -/
theorem ofBuf_toBuf {T : BufTy} (x : TRef sig T) (v : T.Contents (Elt F)) : x.ofBuf (x.toBuf v) = v := by
  obtain ⟨r, h, _, _⟩ := x
  subst h
  rfl

/-- Contents of the rectifier's operand and result buffers, carried between the value's type and the buffer's own, are unchanged. -/
theorem toBuf_main_v132 (h1 h2 h3) (v : (⟨S100000x128, .f32⟩ : BufTy).Contents (Elt F)) :
    ((TRef.of (T := ⟨S100000x128, .f32⟩) main_v132 h1 h2 h3).toBuf v : (⟨S100000x128, .f32⟩ : BufTy).Contents (Elt F)) = v := rfl
theorem ofBuf_main_v131 (h1 h2 h3) (v : (⟨S100000x128, .f32⟩ : BufTy).Contents (Elt F)) :
    ((TRef.of (T := ⟨S100000x128, .f32⟩) main_v131 h1 h2 h3).ofBuf v : (⟨S100000x128, .f32⟩ : BufTy).Contents (Elt F)) = v := rfl

set_option maxRecDepth 8192 in
set_option maxHeartbeats 40000000 in
/-- The memory table after the first part, from any starting contents: the second scatter's stage. -/
theorem afterA_mem (W : Valuation τ sig (Elt F)) : (StableHlo.after opsA W (Proc.devRef .tc main_v111) : (⟨S1000000x128, .f32⟩ : BufTy).Contents (Elt F))
    = val_main_v111 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  after_results_simp
  rfl

/-- The first part writes no argument array. -/
theorem afterA_main_arg1 (W : Valuation τ sig (Elt F)) : StableHlo.after opsA W (Proc.devRef .tc main_arg1) = W (Proc.devRef .tc main_arg1) :=
  StableHlo.after_of_forall_not_mem (b := Proc.devRef .tc main_arg1) _ _ (List.forall_iff_forall_mem.mp (by
          simp only [opsA, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))
/-- The first part writes no argument array. -/
theorem afterA_main_arg2 (W : Valuation τ sig (Elt F)) : StableHlo.after opsA W (Proc.devRef .tc main_arg2) = W (Proc.devRef .tc main_arg2) :=
  StableHlo.after_of_forall_not_mem (b := Proc.devRef .tc main_arg2) _ _ (List.forall_iff_forall_mem.mp (by
          simp only [opsA, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))
/-- The first part writes no argument array. -/
theorem afterA_main_arg11 (W : Valuation τ sig (Elt F)) : StableHlo.after opsA W (Proc.devRef .tc main_arg11) = W (Proc.devRef .tc main_arg11) :=
  StableHlo.after_of_forall_not_mem (b := Proc.devRef .tc main_arg11) _ _ (List.forall_iff_forall_mem.mp (by
          simp only [opsA, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))
/-- The first part writes no argument array. -/
theorem afterA_main_arg12 (W : Valuation τ sig (Elt F)) : StableHlo.after opsA W (Proc.devRef .tc main_arg12) = W (Proc.devRef .tc main_arg12) :=
  StableHlo.after_of_forall_not_mem (b := Proc.devRef .tc main_arg12) _ _ (List.forall_iff_forall_mem.mp (by
          simp only [opsA, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))
/-- The first part writes no argument array. -/
theorem afterA_main_arg13 (W : Valuation τ sig (Elt F)) : StableHlo.after opsA W (Proc.devRef .tc main_arg13) = W (Proc.devRef .tc main_arg13) :=
  StableHlo.after_of_forall_not_mem (b := Proc.devRef .tc main_arg13) _ _ (List.forall_iff_forall_mem.mp (by
          simp only [opsA, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))
/-- The first part writes no argument array. -/
theorem afterA_main_arg14 (W : Valuation τ sig (Elt F)) : StableHlo.after opsA W (Proc.devRef .tc main_arg14) = W (Proc.devRef .tc main_arg14) :=
  StableHlo.after_of_forall_not_mem (b := Proc.devRef .tc main_arg14) _ _ (List.forall_iff_forall_mem.mp (by
          simp only [opsA, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))

/-- The memory table after the whole line: the second part does not write it. -/
theorem after_mem (W : Valuation τ sig (Elt F)) : (StableHlo.after ops W (Proc.devRef .tc main_v111) : (⟨S1000000x128, .f32⟩ : BufTy).Contents (Elt F))
    = val_main_v111 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_split, after_append]
  exact (StableHlo.after_of_forall_not_mem (b := Proc.devRef .tc main_v111) _ _ (List.forall_iff_forall_mem.mp (by
          simp only [opsB1, opsB2, List.cons_append, List.nil_append, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))).trans (afterA_mem W)

set_option maxRecDepth 16384 in
set_option maxHeartbeats 40000000 in
/-- The prediction after the whole line, read part by part: after the first part the updated table is one array; the second
    part gathers its source and destination rows; the third part is the predictor on those two arrays. -/
theorem after_pred (W : Valuation τ sig (Elt F)) : (StableHlo.after ops W (Proc.devRef .tc main_v138) : (⟨S100000, .f32⟩ : BufTy).Contents (Elt F))
    = val_main_v138 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [ops_split, after_append, after_append]
  have h111 := afterA_mem W
  have h1 := afterA_main_arg1 W
  have h2 := afterA_main_arg2 W
  have h11 := afterA_main_arg11 W
  have h12 := afterA_main_arg12 W
  have h13 := afterA_main_arg13 W
  have h14 := afterA_main_arg14 W
  generalize StableHlo.after opsA W = V1 at h111 h1 h2 h11 h12 h13 h14 ⊢
  have h118 : (StableHlo.after opsB1 V1 (Proc.devRef .tc main_v118) : (⟨S100000x128, .f32⟩ : BufTy).Contents (Elt F))
      = val_main_v118 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
    after_results_simp
    rw [h111, h1]
    rfl
  have h125 : (StableHlo.after opsB1 V1 (Proc.devRef .tc main_v125) : (⟨S100000x128, .f32⟩ : BufTy).Contents (Elt F))
      = val_main_v125 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
    after_results_simp
    rw [h111, h2]
    rfl
  have k11 : StableHlo.after opsB1 V1 (Proc.devRef .tc main_arg11) = W (Proc.devRef .tc main_arg11) := (StableHlo.after_of_forall_not_mem (b := Proc.devRef .tc main_arg11) _ _ (List.forall_iff_forall_mem.mp (by
          simp only [opsB1, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))).trans h11
  have k12 : StableHlo.after opsB1 V1 (Proc.devRef .tc main_arg12) = W (Proc.devRef .tc main_arg12) := (StableHlo.after_of_forall_not_mem (b := Proc.devRef .tc main_arg12) _ _ (List.forall_iff_forall_mem.mp (by
          simp only [opsB1, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))).trans h12
  have k13 : StableHlo.after opsB1 V1 (Proc.devRef .tc main_arg13) = W (Proc.devRef .tc main_arg13) := (StableHlo.after_of_forall_not_mem (b := Proc.devRef .tc main_arg13) _ _ (List.forall_iff_forall_mem.mp (by
          simp only [opsB1, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))).trans h13
  have k14 : StableHlo.after opsB1 V1 (Proc.devRef .tc main_arg14) = W (Proc.devRef .tc main_arg14) := (StableHlo.after_of_forall_not_mem (b := Proc.devRef .tc main_arg14) _ _ (List.forall_iff_forall_mem.mp (by
          simp only [opsB1, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))).trans h14
  generalize StableHlo.after opsB1 V1 = V2 at h118 h125 k11 k12 k13 k14 ⊢
  after_results_simp
  simp only [ofBuf_toBuf, toBuf_main_v132, ofBuf_main_v131]
  rw [h118, h125, k11, k12, k13, k14]
  rfl

set_option maxRecDepth 8192 in
set_option maxHeartbeats 40000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v111) = val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v138).trans (after_pred _), (h c main_v111).trans (after_mem _),
      (h c main_arg0).trans (StableHlo.after_of_forall_not_mem (b := Proc.devRef .tc main_arg0) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg1).trans (StableHlo.after_of_forall_not_mem (b := Proc.devRef .tc main_arg1) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg2).trans (StableHlo.after_of_forall_not_mem (b := Proc.devRef .tc main_arg2) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg3).trans (StableHlo.after_of_forall_not_mem (b := Proc.devRef .tc main_arg3) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg4).trans (StableHlo.after_of_forall_not_mem (b := Proc.devRef .tc main_arg4) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg5).trans (StableHlo.after_of_forall_not_mem (b := Proc.devRef .tc main_arg5) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg6).trans (StableHlo.after_of_forall_not_mem (b := Proc.devRef .tc main_arg6) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg7).trans (StableHlo.after_of_forall_not_mem (b := Proc.devRef .tc main_arg7) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg8).trans (StableHlo.after_of_forall_not_mem (b := Proc.devRef .tc main_arg8) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg9).trans (StableHlo.after_of_forall_not_mem (b := Proc.devRef .tc main_arg9) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg10).trans (StableHlo.after_of_forall_not_mem (b := Proc.devRef .tc main_arg10) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg11).trans (StableHlo.after_of_forall_not_mem (b := Proc.devRef .tc main_arg11) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg12).trans (StableHlo.after_of_forall_not_mem (b := Proc.devRef .tc main_arg12) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg13).trans (StableHlo.after_of_forall_not_mem (b := Proc.devRef .tc main_arg13) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide)))),
      (h c main_arg14).trans (StableHlo.after_of_forall_not_mem (b := Proc.devRef .tc main_arg14) _ _ (List.forall_iff_forall_mem.mp (by
          simp only [ops, List.Forall, StableHlo.nullary_writes, StableHlo.unary_writes, StableHlo.binary_writes, StableHlo.ternary_writes, StableHlo.quaternary_writes, StableHlo.reshape_writes, StableHlo.nary_writes, Finset.mem_singleton]
          repeat' apply And.intro
          all_goals exact StableHlo.devRef_ne_of_ne (by decide))))⟩)
    (run_seq scopedRefs_eq scopedSems_eq defs main (fun _ => ops) main_eq (fun _ => ops_sub) m ρ)

end Cert.ReferenceIdeal.RunH

end
-- ==== Proof.KernelHostRead.lean ====
/-
  The kernel program's host stages, read at one entry, over the extended reals.

  Before the first region the host computes the time embedding of every event, cuts the [384, 336] input weight
  matrix into its four column blocks (columns 0–127, 128–255, 256–319, 320–335) and transposes each, transposes the
  hidden weights, and turns the two bias vectors into one-row matrices; before the second region it transposes the
  predictor's weight matrix and turns its two biases into one-row matrices.

  Read at an entry: the time embedding of event e at coordinate q is sin (t_e · w_q + b_q); entry (k, c) of a
  transposed block is the matrix's entry (c, offset + k); entry (0, c) of a bias row is the vector's entry c. On
  extended reals a change of format is the identity. Only the definitions of the operations are used.
-/
import proofs.«138008_j16372415332401_2_alg».proof.Proof.KernelHost
import proofs.«138008_j16372415332401_2_alg».proof.Proof.Spec
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.ValueIdx Cert.Spec

/-! ## A vector or a one-line matrix repeated along a new or a unit axis -/

/-- A vector laid along the second axis of a one-row matrix: entry (u, c) is the vector's entry c. -/
theorem vecRow_apply {α : Type} {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply _ h x (ix2 u c) (ix1 c) fun a => by
    match a with
    | ⟨0, _⟩ =>
      show c.val = if b = 1 then 0 else c.val
      split
      · have := c.isLt; omega
      · rfl

/-- A vector laid along the first axis of a one-column matrix: entry (i, u) is the vector's entry i. -/
theorem vecCol_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A one-column matrix repeated across b columns: entry (i, c) is the column's entry i. -/
theorem colMat_apply {α : Type} {a b : ℕ} (x : (⟨2, ![a, 1]⟩ : Shape).Idx → α)
    (h : (⟨2, ![a, 1]⟩ : Shape).BroadcastsInDim ⟨2, ![a, b]⟩ ![0, 1]) (i : Fin a) (c : Fin b) :
    broadcastInDim ⟨2, ![a, b]⟩ ![0, 1] h x (ix2 i c) = x (ix2 i (0 : Fin 1)) :=
  broadcastInDim_apply _ h x (ix2 i c) (ix2 i (0 : Fin 1)) fun ax => by
    match ax with
    | ⟨0, _⟩ =>
      show i.val = if a = 1 then 0 else i.val
      split
      · have := i.isLt; omega
      · rfl
    | ⟨1, _⟩ => rfl

/-- A one-row matrix repeated down a rows: entry (i, c) is the row's entry c. -/
theorem rowMat_apply {α : Type} {a b : ℕ} (x : (⟨2, ![1, b]⟩ : Shape).Idx → α)
    (h : (⟨2, ![1, b]⟩ : Shape).BroadcastsInDim ⟨2, ![a, b]⟩ ![0, 1]) (i : Fin a) (c : Fin b) :
    broadcastInDim ⟨2, ![a, b]⟩ ![0, 1] h x (ix2 i c) = x (ix2 (0 : Fin 1) c) :=
  broadcastInDim_apply _ h x (ix2 i c) (ix2 (0 : Fin 1) c) fun ax => by
    match ax with
    | ⟨0, _⟩ => rfl
    | ⟨1, _⟩ =>
      show c.val = if b = 1 then 0 else c.val
      split
      · have := c.isLt; omega
      · rfl

/-- A one-column matrix read as a vector: entry i is the column's entry (i, 0). -/
theorem colVec_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## A change of format -/

/-- On extended reals the change of format keeps every entry. -/
theorem trunc_entry {s : Shape} (v : FVec Ideal s .f32) (h : FTy.bits .bf16 < FTy.bits .f32) (i : s.Idx) :
    (truncf .bf16 v h : FVec Ideal s .bf16) i = v i := rfl

/-! ## The time embedding -/

/-- The event times repeated across the sixteen coordinates: entry (e, q) is the time of event e. -/
theorem te_time (x3 : (⟨S100000, .f32⟩ : BufTy).Contents (Elt Ideal)) (e : Fin 100000) (q : Fin 16) :
    hk_main_call0_v17 x3 (ix2 e q) = x3 (ix1 e) := by
  unfold hk_main_call0_v17 hk_main_call0_v14
  exact (colMat_apply _ _ e q).trans (vecCol_apply x3 _ e (0 : Fin 1))

/-- The sixteen frequencies repeated down the events: entry (e, q) is frequency q. -/
theorem te_freq (x5 : (⟨S16x1, .f32⟩ : BufTy).Contents (Elt Ideal)) (e : Fin 100000) (q : Fin 16) :
    hk_main_call0_v18 x5 (ix2 e q) = x5 (ix2 q (0 : Fin 1)) := by
  unfold hk_main_call0_v18 hk_main_call0_v16 hk_main_call0_v15
  exact (rowMat_apply _ _ e q).trans ((vecRow_apply _ _ (0 : Fin 1) q).trans (colVec_apply x5 _ q))

/-- The sixteen phases repeated down the events: entry (e, q) is phase q. -/
theorem te_phase (x6 : (⟨S16, .f32⟩ : BufTy).Contents (Elt Ideal)) (e : Fin 100000) (q : Fin 16) :
    hk_main_call0_v21 x6 (ix2 e q) = x6 (ix1 q) := by
  unfold hk_main_call0_v21 hk_main_call0_v20
  exact (rowMat_apply _ _ e q).trans (vecRow_apply x6 _ (0 : Fin 1) q)

/-- Coordinate q of the time embedding of event e: sin (t_e · w_q + b_q). -/
theorem hk_te_apply (x3 : (⟨S100000, .f32⟩ : BufTy).Contents (Elt Ideal)) (x5 : (⟨S16x1, .f32⟩ : BufTy).Contents (Elt Ideal))
    (x6 : (⟨S16, .f32⟩ : BufTy).Contents (Elt Ideal)) (e : Fin 100000) (q : Fin 16) :
    hk_main_call0_v23 x3 x5 x6 (ix2 e q) = timeEnc (x3 (ix1 e)) (x5 (ix2 q (0 : Fin 1))) (x6 (ix1 q)) := by
  show Ideal.sin (hk_main_call0_v17 x3 (ix2 e q) * hk_main_call0_v18 x5 (ix2 e q) + hk_main_call0_v21 x6 (ix2 e q)) = _
  rw [te_time, te_freq, te_phase]
  rfl

/-! ## The four blocks of the input weights, transposed -/

/-- The source block: entry (k, c) is the weight matrix's entry (c, k). -/
theorem hk_v26_apply (x7 : (⟨S384x336, .f32⟩ : BufTy).Contents (Elt Ideal)) (k : Fin 128) (c : Fin 384) :
    hk_main_call0_v26 x7 (ix2 k c) = x7 (ix2 c ⟨k.val, by omega⟩) := by
  unfold hk_main_call0_v26 hk_main_call0_v25 hk_main_call0_v24
  refine (trunc_entry _ _ _).trans ((transpose_ix2_apply _ _ k c).trans ?_)
  exact slice2_axis1_apply 0 x7 _ c k ⟨k.val, by omega⟩ (Nat.zero_add k.val).symm

/-- The destination block: entry (k, c) is the weight matrix's entry (c, 128 + k). -/
theorem hk_v29_apply (x7 : (⟨S384x336, .f32⟩ : BufTy).Contents (Elt Ideal)) (k : Fin 128) (c : Fin 384) :
    hk_main_call0_v29 x7 (ix2 k c) = x7 (ix2 c ⟨128 + k.val, by omega⟩) := by
  unfold hk_main_call0_v29 hk_main_call0_v28 hk_main_call0_v27
  refine (trunc_entry _ _ _).trans ((transpose_ix2_apply _ _ k c).trans ?_)
  exact slice2_axis1_apply 128 x7 _ c k ⟨128 + k.val, by omega⟩ rfl

/-- The edge block: entry (k, c) is the weight matrix's entry (c, 256 + k). -/
theorem hk_v32_apply (x7 : (⟨S384x336, .f32⟩ : BufTy).Contents (Elt Ideal)) (k : Fin 64) (c : Fin 384) :
    hk_main_call0_v32 x7 (ix2 k c) = x7 (ix2 c ⟨256 + k.val, by omega⟩) := by
  unfold hk_main_call0_v32 hk_main_call0_v31 hk_main_call0_v30
  refine (trunc_entry _ _ _).trans ((transpose_ix2_apply _ _ k c).trans ?_)
  exact slice2_axis1_apply 256 x7 _ c k ⟨256 + k.val, by omega⟩ rfl

/-- The time block: entry (k, c) is the weight matrix's entry (c, 320 + k). -/
theorem hk_v35_apply (x7 : (⟨S384x336, .f32⟩ : BufTy).Contents (Elt Ideal)) (k : Fin 16) (c : Fin 384) :
    hk_main_call0_v35 x7 (ix2 k c) = x7 (ix2 c ⟨320 + k.val, by omega⟩) := by
  unfold hk_main_call0_v35 hk_main_call0_v34 hk_main_call0_v33
  refine (trunc_entry _ _ _).trans ((transpose_ix2_apply _ _ k c).trans ?_)
  exact slice2_axis1_apply 320 x7 _ c k ⟨320 + k.val, by omega⟩ rfl

/-! ## The hidden weights and the two bias rows -/

/-- The hidden weights transposed: entry (k, c) is the matrix's entry (c, k). -/
theorem hk_v37_apply (x8 : (⟨S384x128, .f32⟩ : BufTy).Contents (Elt Ideal)) (k : Fin 128) (c : Fin 384) :
    hk_main_call0_v37 x8 (ix2 k c) = x8 (ix2 c k) := by
  unfold hk_main_call0_v37 hk_main_call0_v36
  exact (trunc_entry _ _ _).trans (transpose_ix2_apply x8 _ k c)

/-- The first bias vector as a row: entry (0, c) is the vector's entry c. -/
theorem hk_v38_apply (x9 : (⟨S384, .f32⟩ : BufTy).Contents (Elt Ideal)) (c : Fin 384) :
    hk_main_call0_v38 x9 (ix2 (0 : Fin 1) c) = x9 (ix1 c) := by
  unfold hk_main_call0_v38
  exact vecRow_apply x9 _ (0 : Fin 1) c

/-- The second bias vector as a row: entry (0, c) is the vector's entry c. -/
theorem hk_v39_apply (x10 : (⟨S384, .f32⟩ : BufTy).Contents (Elt Ideal)) (c : Fin 384) :
    hk_main_call0_v39 x10 (ix2 (0 : Fin 1) c) = x10 (ix1 c) := by
  unfold hk_main_call0_v39
  exact vecRow_apply x10 _ (0 : Fin 1) c

/-! ## The predictor's weights and biases -/

/-- The predictor's weight matrix transposed: entry (k, j) is the matrix's entry (j, k). -/
theorem hk_v70_apply (x11 : (⟨S128x256, .f32⟩ : BufTy).Contents (Elt Ideal)) (k : Fin 256) (j : Fin 128) :
    hk_main_call0_v70 x11 (ix2 k j) = x11 (ix2 j k) := by
  unfold hk_main_call0_v70 hk_main_call0_v69
  exact (trunc_entry _ _ _).trans (transpose_ix2_apply x11 _ k j)

/-- The predictor's hidden bias as a row: entry (0, j) is the vector's entry j. -/
theorem hk_v71_apply (x12 : (⟨S128, .f32⟩ : BufTy).Contents (Elt Ideal)) (j : Fin 128) :
    hk_main_call0_v71 x12 (ix2 (0 : Fin 1) j) = x12 (ix1 j) := by
  unfold hk_main_call0_v71
  exact vecRow_apply x12 _ (0 : Fin 1) j

/-- The predictor's last bias as a [1, 1] matrix: its one entry is the vector's one entry. -/
theorem hk_v72_apply (x14 : (⟨S1, .f32⟩ : BufTy).Contents (Elt Ideal)) :
    hk_main_call0_v72 x14 (ix2 (0 : Fin 1) (0 : Fin 1)) = x14 (ix1 (0 : Fin 1)) := by
  unfold hk_main_call0_v72
  exact vecRow_apply x14 _ (0 : Fin 1) (0 : Fin 1)

end Cert.KernelIdeal.Host

end
-- ==== Proof.RefGeneric.lean ====
/-
  Facts about the two joins of rows and about the spelled-out logistic function that mention no program: a join of
  four (or two) matrices along their second axis, read at a row and a position, is the piece whose span holds the
  position; and 1.0 / (1.0 + e^(−x)), with 1.0 the single-precision word, is the logistic function.
-/
import proofs.«138008_j16372415332401_2_alg».proof.Proof.Spec
import Idealize.ShloMosaic.Lib.Pipeline.Value
import Idealize.ShloMosaic.Lib.IdealHost

noncomputable section

namespace Cert.ReferenceIdeal.RefValue

open Cert.Spec Idealize.ShloMosaic Idealize.ShloMosaic.ValueIdx
open scoped BigOperators

/-- The word of the single-precision constant 1.0 is the extended real one. -/
theorem one_f32 : Ideal.ofBits .f32 0x3F800000#32 = 1 := Ideal.ofBits_one_f32

/-- The logistic function spelled 1.0 / (1.0 + e^(−x)). -/
theorem logistic_spelled (x : EReal) :
    Ideal.div (Ideal.ofBits .f32 0x3F800000#32) (Ideal.ofBits .f32 0x3F800000#32 + Ideal.exp (-x)) = Ideal.logistic x := by
  rw [one_f32]; rfl

/-- Four matrices of 128, 128, 64 and 16 columns joined along the columns, read at row `e` and column `k`. -/
theorem concatenate4_apply {R : ℕ} (S D : (⟨2, ![R, 128]⟩ : Shape).Idx → EReal) (E : (⟨2, ![R, 64]⟩ : Shape).Idx → EReal)
    (T : (⟨2, ![R, 16]⟩ : Shape).Idx → EReal)
    (h : Shape.Concatenates [⟨2, ![R, 128]⟩, ⟨2, ![R, 128]⟩, ⟨2, ![R, 64]⟩, ⟨2, ![R, 16]⟩] ⟨2, ![R, 336]⟩ 1)
    (e : Fin R) (k : Fin 336) :
    concatenate (⟨2, ![R, 336]⟩ : Shape) 1
        [⟨⟨2, ![R, 128]⟩, S⟩, ⟨⟨2, ![R, 128]⟩, D⟩, ⟨⟨2, ![R, 64]⟩, E⟩, ⟨⟨2, ![R, 16]⟩, T⟩] h (ix2 e k)
      = cat4 (row S e) (row D e) (row E e) (row T e) k := by
  unfold cat4 row
  by_cases h1 : k.val < 128
  · rw [dif_pos h1]
    exact concatenate_apply_piece _ _ _ (ix2 e k) 0 (by show (0 : ℕ) < 4; omega) ⟨2, ![R, 128]⟩ S rfl rfl 0 rfl (ix2 e ⟨k.val, h1⟩)
      (fun b hb => by match b with | ⟨0, _⟩ => rfl | ⟨1, _⟩ => exact absurd rfl hb)
      (by show 0 + k.val = k.val; omega)
  · rw [dif_neg h1]
    by_cases h2 : k.val < 256
    · rw [dif_pos h2]
      exact concatenate_apply_piece _ _ _ (ix2 e k) 1 (by show (1 : ℕ) < 4; omega) ⟨2, ![R, 128]⟩ D rfl rfl 128 rfl
        (ix2 e ⟨k.val - 128, by omega⟩)
        (fun b hb => by match b with | ⟨0, _⟩ => rfl | ⟨1, _⟩ => exact absurd rfl hb)
        (by show 128 + (k.val - 128) = k.val; omega)
    · rw [dif_neg h2]
      by_cases h3 : k.val < 320
      · rw [dif_pos h3]
        exact concatenate_apply_piece _ _ _ (ix2 e k) 2 (by show (2 : ℕ) < 4; omega) ⟨2, ![R, 64]⟩ E rfl rfl 256 rfl
          (ix2 e ⟨k.val - 256, by omega⟩)
          (fun b hb => by match b with | ⟨0, _⟩ => rfl | ⟨1, _⟩ => exact absurd rfl hb)
          (by show 256 + (k.val - 256) = k.val; omega)
      · rw [dif_neg h3]
        exact concatenate_apply_piece _ _ _ (ix2 e k) 3 (by show (3 : ℕ) < 4; omega) ⟨2, ![R, 16]⟩ T rfl rfl 320 rfl
          (ix2 e ⟨k.val - 320, by have := k.isLt; omega⟩)
          (fun b hb => by match b with | ⟨0, _⟩ => rfl | ⟨1, _⟩ => exact absurd rfl hb)
          (by show 320 + (k.val - 320) = k.val; omega)

/-- Two matrices of 128 columns joined along the columns, read at row `e` and column `k`. -/
theorem concatenate2_apply {R : ℕ} (A B : (⟨2, ![R, 128]⟩ : Shape).Idx → EReal)
    (h : Shape.Concatenates [⟨2, ![R, 128]⟩, ⟨2, ![R, 128]⟩] ⟨2, ![R, 256]⟩ 1) (e : Fin R) (k : Fin 256) :
    concatenate (⟨2, ![R, 256]⟩ : Shape) 1 [⟨⟨2, ![R, 128]⟩, A⟩, ⟨⟨2, ![R, 128]⟩, B⟩] h (ix2 e k)
      = cat2 (row A e) (row B e) k := by
  unfold cat2 row
  by_cases h1 : k.val < 128
  · rw [dif_pos h1]
    exact concatenate_pair_apply_left _ A B h (ix2 e k) rfl (ix2 e ⟨k.val, h1⟩)
      (fun b => by match b with | ⟨0, _⟩ => rfl | ⟨1, _⟩ => rfl)
  · rw [dif_neg h1]
    exact concatenate_pair_apply_right _ A B h (ix2 e k) rfl rfl (ix2 e ⟨k.val - 128, by omega⟩)
      (fun b hb => by match b with | ⟨0, _⟩ => rfl | ⟨1, _⟩ => exact absurd rfl hb)
      (by show (k.val - 128) + 128 = k.val; omega)

end Cert.ReferenceIdeal.RefValue

end
-- ==== Proof.RefTime.lean ====
/-
  The reference's time embedding, one coordinate at a time.

  The reference multiplies the column of event times by the transposed sixteen-row weight column — a matrix
  product whose contracted axis has a single position — adds the bias row and takes the sine. At event `e` and
  coordinate `q` this is sin (t_e · w_q + b_q).
-/
import proofs.«138008_j16372415332401_2_alg».proof.Proof.RefReadP
import proofs.«138008_j16372415332401_2_alg».proof.Proof.Spec
import proofs.«138008_j16372415332401_2_alg».proof.Proof.RefGeneric

noncomputable section

namespace Cert.ReferenceIdeal.RefValue

open Cert.ReferenceIdeal Cert.ReferenceIdeal.Gen Cert.ReferenceIdeal.ReadP Cert.Spec Idealize.ShloMosaic Idealize.ShloMosaic.ValueIdx
open scoped BigOperators

/-- Coordinate `q` of the time embedding of event `e`. -/
theorem ref_time (x3 : (⟨S100000, .f32⟩ : BufTy).Contents (Elt Ideal))
    (x5 : (⟨S16x1, .f32⟩ : BufTy).Contents (Elt Ideal)) (x6 : (⟨S16, .f32⟩ : BufTy).Contents (Elt Ideal))
    (e : Fin 100000) (q : Fin 16) :
    val_main_v20 (F := Ideal) x3 x5 x6 (ix2 e q)
      = timeEnc (x3 (ix1 e)) (x5 (ix2 q (0 : Fin 1))) (x6 (ix1 q)) := by
  rw [val_main_v20_apply, val_main_v19_apply, val_main_v16_apply, val_main_v18_apply, val_main_v17_apply,
    Fin.sum_univ_one, val_main_v14_apply, val_main_v15_apply]
  -- the composed index maps land on the event, the weight row and the bias coordinate
  have e1 : idx_main_v14 (lidx_main_v16 (ix2 e q) 0) = ix1 e :=
    funext fun a => Fin.ext (by match a with | ⟨0, _⟩ => rfl)
  have e2 : idx_main_v15 (ridx_main_v16 (ix2 e q) 0) = ix2 q (0 : Fin 1) :=
    funext fun a => Fin.ext (by match a with | ⟨0, _⟩ => rfl | ⟨1, _⟩ => rfl)
  have e3 : idx_main_v17 (idx_main_v18 (ix2 e q)) = ix1 q :=
    funext fun a => Fin.ext (by match a with | ⟨0, _⟩ => rfl)
  rw [e1, e2, e3]
  rfl

end Cert.ReferenceIdeal.RefValue

end
-- ==== Proof.RefGru.lean ====
/-
  The reference's two gated recurrent updates, one coordinate at a time.

  For event `e` the reference joins four rows — source state, destination state, edge features, time embedding —
  into 336 input features, multiplies them by the transposed input weights and adds a bias (the input
  pre-activation, 384 gate columns), multiplies the old state by the transposed hidden weights and adds a bias (the
  hidden pre-activation), cuts each into its reset, update and candidate thirds, and combines them coordinate by
  coordinate. The logistic function is spelled 1 / (1 + e^(−x)) with the constant 1.0 written twice.
-/
import proofs.«138008_j16372415332401_2_alg».proof.Proof.RefReadP
import proofs.«138008_j16372415332401_2_alg».proof.Proof.Spec
import proofs.«138008_j16372415332401_2_alg».proof.Proof.RefGeneric

noncomputable section

namespace Cert.ReferenceIdeal.RefValue

open Cert.ReferenceIdeal Cert.ReferenceIdeal.Gen Cert.ReferenceIdeal.ReadP Cert.Spec Idealize.ShloMosaic Idealize.ShloMosaic.ValueIdx
open scoped BigOperators

section
variable (x0 : (⟨S1000000x128, .f32⟩ : BufTy).Contents (Elt Ideal)) (x1 x2 : (⟨S100000, .i32⟩ : BufTy).Contents (Elt Ideal))
  (x3 : (⟨S100000, .f32⟩ : BufTy).Contents (Elt Ideal)) (x4 : (⟨S100000x64, .f32⟩ : BufTy).Contents (Elt Ideal))
  (x5 : (⟨S16x1, .f32⟩ : BufTy).Contents (Elt Ideal)) (x6 : (⟨S16, .f32⟩ : BufTy).Contents (Elt Ideal))
  (x7 : (⟨S384x336, .f32⟩ : BufTy).Contents (Elt Ideal)) (x8 : (⟨S384x128, .f32⟩ : BufTy).Contents (Elt Ideal))
  (x9 x10 : (⟨S384, .f32⟩ : BufTy).Contents (Elt Ideal))

/-- The 336 joined input features of event `e`, read at feature `k`: the piece whose span holds `k`. -/
theorem ref_cat (e : Fin 100000) (k : Fin 336) :
    val_main_v21 (F := Ideal) x0 x1 x2 x3 x4 x5 x6 (ix2 e k)
      = cat4 (row (val_main_v6 (F := Ideal) x0 x1) e) (row (val_main_v13 (F := Ideal) x0 x2) e) (row x4 e)
          (row (val_main_v20 (F := Ideal) x3 x5 x6) e) k := by
  unfold val_main_v21
  generalize val_main_v6 (F := Ideal) x0 x1 = S
  generalize val_main_v13 (F := Ideal) x0 x2 = D
  generalize val_main_v20 (F := Ideal) x3 x5 x6 = T
  exact concatenate4_apply S D x4 T _ e k

/-- The input pre-activation the source update reads, at event `e` and gate column `c`. -/
theorem ref_gi_s (e : Fin 100000) (c : Fin 384) :
    val_main_v26 (F := Ideal) x0 x1 x2 x3 x4 x5 x6 x7 x9 (ix2 e c)
      = giFull (cat4 (row (val_main_v6 (F := Ideal) x0 x1) e) (row (val_main_v13 (F := Ideal) x0 x2) e) (row x4 e)
          (row (val_main_v20 (F := Ideal) x3 x5 x6) e))
          (fun c k => x7 (ix2 c k)) (fun c => x9 (ix1 c)) c := by
  rw [val_main_v26_apply, val_main_v23_apply, val_main_v25_apply, val_main_v24_apply]
  have eb : idx_main_v24 (idx_main_v25 (ix2 e c)) = ix1 c :=
    funext fun a => Fin.ext (by match a with | ⟨0, _⟩ => rfl)
  rw [eb, Ideal.addf_def]
  unfold giFull
  refine congrArg₂ (· + ·) (Finset.sum_congr rfl fun k _ => ?_) rfl
  have el : lidx_main_v23 (ix2 e c) k = ix2 e k :=
    funext fun a => Fin.ext (by match a with | ⟨0, _⟩ => rfl | ⟨1, _⟩ => rfl)
  have er : idx_main_v22 (ridx_main_v23 (ix2 e c) k) = ix2 c k :=
    funext fun a => Fin.ext (by match a with | ⟨0, _⟩ => rfl | ⟨1, _⟩ => rfl)
  rw [val_main_v22_apply, el, er, ref_cat]

/-- The input pre-activation the destination update reads: the same function of the same arguments. -/
theorem ref_gi_d (e : Fin 100000) (c : Fin 384) :
    val_main_v64 (F := Ideal) x0 x1 x2 x3 x4 x5 x6 x7 x9 (ix2 e c)
      = giFull (cat4 (row (val_main_v6 (F := Ideal) x0 x1) e) (row (val_main_v13 (F := Ideal) x0 x2) e) (row x4 e)
          (row (val_main_v20 (F := Ideal) x3 x5 x6) e))
          (fun c k => x7 (ix2 c k)) (fun c => x9 (ix1 c)) c := by
  rw [val_main_v64_apply, val_main_v61_apply, val_main_v63_apply, val_main_v62_apply]
  have eb : idx_main_v62 (idx_main_v63 (ix2 e c)) = ix1 c :=
    funext fun a => Fin.ext (by match a with | ⟨0, _⟩ => rfl)
  rw [eb, Ideal.addf_def]
  unfold giFull
  refine congrArg₂ (· + ·) (Finset.sum_congr rfl fun k _ => ?_) rfl
  have el : lidx_main_v61 (ix2 e c) k = ix2 e k :=
    funext fun a => Fin.ext (by match a with | ⟨0, _⟩ => rfl | ⟨1, _⟩ => rfl)
  have er : idx_main_v60 (ridx_main_v61 (ix2 e c) k) = ix2 c k :=
    funext fun a => Fin.ext (by match a with | ⟨0, _⟩ => rfl | ⟨1, _⟩ => rfl)
  rw [val_main_v60_apply, el, er, ref_cat]

/-- The hidden pre-activation of the source state, at event `e` and gate column `c`. -/
theorem ref_gh_s (e : Fin 100000) (c : Fin 384) :
    val_main_v31 (F := Ideal) x0 x1 x8 x10 (ix2 e c)
      = gh (row (val_main_v6 (F := Ideal) x0 x1) e) (fun c k => x8 (ix2 c k)) (fun c => x10 (ix1 c)) c := by
  rw [val_main_v31_apply, val_main_v28_apply, val_main_v30_apply, val_main_v29_apply]
  have eb : idx_main_v29 (idx_main_v30 (ix2 e c)) = ix1 c :=
    funext fun a => Fin.ext (by match a with | ⟨0, _⟩ => rfl)
  rw [eb, Ideal.addf_def]
  unfold gh row
  refine congrArg₂ (· + ·) (Finset.sum_congr rfl fun k _ => ?_) rfl
  have el : lidx_main_v28 (ix2 e c) k = ix2 e k :=
    funext fun a => Fin.ext (by match a with | ⟨0, _⟩ => rfl | ⟨1, _⟩ => rfl)
  have er : idx_main_v27 (ridx_main_v28 (ix2 e c) k) = ix2 c k :=
    funext fun a => Fin.ext (by match a with | ⟨0, _⟩ => rfl | ⟨1, _⟩ => rfl)
  rw [val_main_v27_apply, el, er]

/-- The hidden pre-activation of the destination state, at event `e` and gate column `c`. -/
theorem ref_gh_d (e : Fin 100000) (c : Fin 384) :
    val_main_v69 (F := Ideal) x0 x2 x8 x10 (ix2 e c)
      = gh (row (val_main_v13 (F := Ideal) x0 x2) e) (fun c k => x8 (ix2 c k)) (fun c => x10 (ix1 c)) c := by
  rw [val_main_v69_apply, val_main_v66_apply, val_main_v68_apply, val_main_v67_apply]
  have eb : idx_main_v67 (idx_main_v68 (ix2 e c)) = ix1 c :=
    funext fun a => Fin.ext (by match a with | ⟨0, _⟩ => rfl)
  rw [eb, Ideal.addf_def]
  unfold gh row
  refine congrArg₂ (· + ·) (Finset.sum_congr rfl fun k _ => ?_) rfl
  have el : lidx_main_v66 (ix2 e c) k = ix2 e k :=
    funext fun a => Fin.ext (by match a with | ⟨0, _⟩ => rfl | ⟨1, _⟩ => rfl)
  have er : idx_main_v65 (ridx_main_v66 (ix2 e c) k) = ix2 c k :=
    funext fun a => Fin.ext (by match a with | ⟨0, _⟩ => rfl | ⟨1, _⟩ => rfl)
  rw [val_main_v65_apply, el, er]

/-- Coordinate `j` of the updated source state of event `e`. -/
theorem ref_news (e : Fin 100000) (j : Fin 128) :
    val_main_v59 (F := Ideal) x0 x1 x2 x3 x4 x5 x6 x7 x8 x9 x10 (ix2 e j)
      = gruNew (Ideal.ofBits .f32 0x3F800000#32)
          (giFull (cat4 (row (val_main_v6 (F := Ideal) x0 x1) e) (row (val_main_v13 (F := Ideal) x0 x2) e) (row x4 e)
          (row (val_main_v20 (F := Ideal) x3 x5 x6) e))
        (fun c k => x7 (ix2 c k)) (fun c => x9 (ix1 c)))
          (row (val_main_v6 (F := Ideal) x0 x1) e) (fun c k => x8 (ix2 c k)) (fun c => x10 (ix1 c)) j := by
  -- the six slices read the two pre-activations at the reset, update and candidate columns of coordinate j
  have i0 : idx_main_v32 (ix2 e j) = ix2 e (colR j) := funext fun a => Fin.ext (by match a with | ⟨0, _⟩ => rfl | ⟨1, _⟩ => rfl)
  have i1 : idx_main_v33 (ix2 e j) = ix2 e (colZ j) := funext fun a => Fin.ext (by match a with | ⟨0, _⟩ => rfl | ⟨1, _⟩ => rfl)
  have i2 : idx_main_v34 (ix2 e j) = ix2 e (colN j) := funext fun a => Fin.ext (by match a with | ⟨0, _⟩ => rfl | ⟨1, _⟩ => rfl)
  have i3 : idx_main_v35 (ix2 e j) = ix2 e (colR j) := funext fun a => Fin.ext (by match a with | ⟨0, _⟩ => rfl | ⟨1, _⟩ => rfl)
  have i4 : idx_main_v36 (ix2 e j) = ix2 e (colZ j) := funext fun a => Fin.ext (by match a with | ⟨0, _⟩ => rfl | ⟨1, _⟩ => rfl)
  have i5 : idx_main_v37 (ix2 e j) = ix2 e (colN j) := funext fun a => Fin.ext (by match a with | ⟨0, _⟩ => rfl | ⟨1, _⟩ => rfl)
  simp only [val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply,
    val_main_cst_apply, val_main_cst_3_apply, val_main_cst_4_apply, val_main_cst_5_apply, val_main_cst_6_apply,
    i0, i1, i2, i3, i4, i5, ref_gi_s, ref_gh_s]
  unfold gruNew gruCell
  simp only [← logistic_spelled]
  rfl

/-- Coordinate `j` of the updated destination state of event `e`. -/
theorem ref_newd (e : Fin 100000) (j : Fin 128) :
    val_main_v97 (F := Ideal) x0 x1 x2 x3 x4 x5 x6 x7 x8 x9 x10 (ix2 e j)
      = gruNew (Ideal.ofBits .f32 0x3F800000#32)
          (giFull (cat4 (row (val_main_v6 (F := Ideal) x0 x1) e) (row (val_main_v13 (F := Ideal) x0 x2) e) (row x4 e)
          (row (val_main_v20 (F := Ideal) x3 x5 x6) e))
        (fun c k => x7 (ix2 c k)) (fun c => x9 (ix1 c)))
          (row (val_main_v13 (F := Ideal) x0 x2) e) (fun c k => x8 (ix2 c k)) (fun c => x10 (ix1 c)) j := by
  -- the six slices read the two pre-activations at the reset, update and candidate columns of coordinate j
  have i0 : idx_main_v70 (ix2 e j) = ix2 e (colR j) := funext fun a => Fin.ext (by match a with | ⟨0, _⟩ => rfl | ⟨1, _⟩ => rfl)
  have i1 : idx_main_v71 (ix2 e j) = ix2 e (colZ j) := funext fun a => Fin.ext (by match a with | ⟨0, _⟩ => rfl | ⟨1, _⟩ => rfl)
  have i2 : idx_main_v72 (ix2 e j) = ix2 e (colN j) := funext fun a => Fin.ext (by match a with | ⟨0, _⟩ => rfl | ⟨1, _⟩ => rfl)
  have i3 : idx_main_v73 (ix2 e j) = ix2 e (colR j) := funext fun a => Fin.ext (by match a with | ⟨0, _⟩ => rfl | ⟨1, _⟩ => rfl)
  have i4 : idx_main_v74 (ix2 e j) = ix2 e (colZ j) := funext fun a => Fin.ext (by match a with | ⟨0, _⟩ => rfl | ⟨1, _⟩ => rfl)
  have i5 : idx_main_v75 (ix2 e j) = ix2 e (colN j) := funext fun a => Fin.ext (by match a with | ⟨0, _⟩ => rfl | ⟨1, _⟩ => rfl)
  simp only [val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply,
    val_main_cst_7_apply, val_main_cst_8_apply, val_main_cst_9_apply, val_main_cst_10_apply, val_main_cst_11_apply,
    i0, i1, i2, i3, i4, i5, ref_gi_d, ref_gh_d]
  unfold gruNew gruCell
  simp only [← logistic_spelled]
  rfl

end

end Cert.ReferenceIdeal.RefValue

end
-- ==== Proof.RefPred.lean ====
/-
  The reference's prediction, one event at a time.

  For event `e` the reference joins the two rows it gathers from the updated memory into 256 features, multiplies
  them by the transposed first-layer weights and adds a bias, floors each of the 128 units at zero, multiplies by
  the transposed second-layer weight row (a matrix product with a single output column), adds the scalar bias and
  drops the unit axis.
-/
import proofs.«138008_j16372415332401_2_alg».proof.Proof.RefReadP
import proofs.«138008_j16372415332401_2_alg».proof.Proof.Spec
import proofs.«138008_j16372415332401_2_alg».proof.Proof.RefGeneric

noncomputable section

namespace Cert.ReferenceIdeal.RefValue

open Cert.ReferenceIdeal Cert.ReferenceIdeal.Gen Cert.ReferenceIdeal.ReadP Cert.Spec Idealize.ShloMosaic Idealize.ShloMosaic.ValueIdx
open scoped BigOperators

section
variable (x0 : (⟨S1000000x128, .f32⟩ : BufTy).Contents (Elt Ideal)) (x1 x2 : (⟨S100000, .i32⟩ : BufTy).Contents (Elt Ideal))
  (x3 : (⟨S100000, .f32⟩ : BufTy).Contents (Elt Ideal)) (x4 : (⟨S100000x64, .f32⟩ : BufTy).Contents (Elt Ideal))
  (x5 : (⟨S16x1, .f32⟩ : BufTy).Contents (Elt Ideal)) (x6 : (⟨S16, .f32⟩ : BufTy).Contents (Elt Ideal))
  (x7 : (⟨S384x336, .f32⟩ : BufTy).Contents (Elt Ideal)) (x8 : (⟨S384x128, .f32⟩ : BufTy).Contents (Elt Ideal))
  (x9 x10 : (⟨S384, .f32⟩ : BufTy).Contents (Elt Ideal))
  (x11 : (⟨S128x256, .f32⟩ : BufTy).Contents (Elt Ideal)) (x12 : (⟨S128, .f32⟩ : BufTy).Contents (Elt Ideal))
  (x13 : (⟨S1x128, .f32⟩ : BufTy).Contents (Elt Ideal)) (x14 : (⟨S1, .f32⟩ : BufTy).Contents (Elt Ideal))

/-- The 256 joined features of event `e`, read at feature `k`. -/
theorem ref_cat2 (e : Fin 100000) (k : Fin 256) :
    val_main_v126 (F := Ideal) x0 x1 x2 x3 x4 x5 x6 x7 x8 x9 x10 (ix2 e k)
      = cat2 (row (val_main_v118 (F := Ideal) x0 x1 x2 x3 x4 x5 x6 x7 x8 x9 x10) e) (row (val_main_v125 (F := Ideal) x0 x1 x2 x3 x4 x5 x6 x7 x8 x9 x10) e) k := by
  unfold val_main_v126
  generalize val_main_v118 (F := Ideal) x0 x1 x2 x3 x4 x5 x6 x7 x8 x9 x10 = A
  generalize val_main_v125 (F := Ideal) x0 x1 x2 x3 x4 x5 x6 x7 x8 x9 x10 = B
  exact concatenate2_apply A B _ e k

/-- Unit `j` of the first layer before the floor, for event `e`. -/
theorem ref_hidden (e : Fin 100000) (j : Fin 128) :
    val_main_v131 (F := Ideal) x0 x1 x2 x3 x4 x5 x6 x7 x8 x9 x10 x11 x12 (ix2 e j)
      = (∑ k : Fin 256, cat2 (row (val_main_v118 (F := Ideal) x0 x1 x2 x3 x4 x5 x6 x7 x8 x9 x10) e) (row (val_main_v125 (F := Ideal) x0 x1 x2 x3 x4 x5 x6 x7 x8 x9 x10) e) k * x11 (ix2 j k)) + x12 (ix1 j) := by
  rw [val_main_v131_apply, val_main_v128_apply, val_main_v130_apply, val_main_v129_apply]
  have eb : idx_main_v129 (idx_main_v130 (ix2 e j)) = ix1 j :=
    funext fun a => Fin.ext (by match a with | ⟨0, _⟩ => rfl)
  rw [eb, Ideal.addf_def]
  refine congrArg₂ (· + ·) (Finset.sum_congr rfl fun k _ => ?_) rfl
  have el : lidx_main_v128 (ix2 e j) k = ix2 e k :=
    funext fun a => Fin.ext (by match a with | ⟨0, _⟩ => rfl | ⟨1, _⟩ => rfl)
  have er : idx_main_v127 (ridx_main_v128 (ix2 e j) k) = ix2 j k :=
    funext fun a => Fin.ext (by match a with | ⟨0, _⟩ => rfl | ⟨1, _⟩ => rfl)
  rw [val_main_v127_apply, el, er, ref_cat2]

/-- The prediction of event `e`. -/
theorem ref_pred (e : Fin 100000) :
    val_main_v138 (F := Ideal) x0 x1 x2 x3 x4 x5 x6 x7 x8 x9 x10 x11 x12 x13 x14 (ix1 e)
      = predRow (Ideal.ofBits .f32 0x00000000#32)
          (cat2 (row (val_main_v118 (F := Ideal) x0 x1 x2 x3 x4 x5 x6 x7 x8 x9 x10) e) (row (val_main_v125 (F := Ideal) x0 x1 x2 x3 x4 x5 x6 x7 x8 x9 x10) e))
          (fun j k => x11 (ix2 j k)) (fun j => x12 (ix1 j)) (fun j => x13 (ix2 (0 : Fin 1) j)) (x14 (ix1 (0 : Fin 1))) := by
  have e0 : idx_main_v138 (ix1 e) = ix2 e (0 : Fin 1) :=
    funext fun a => Fin.ext (by match a with | ⟨0, _⟩ => exact Nat.div_one _ | ⟨1, _⟩ => rfl)
  rw [val_main_v138_apply, e0, val_main_v137_apply, val_main_v134_apply, val_main_v136_apply, val_main_v135_apply]
  have eb : idx_main_v135 (idx_main_v136 (ix2 e (0 : Fin 1))) = ix1 (0 : Fin 1) :=
    funext fun a => Fin.ext (by match a with | ⟨0, _⟩ => rfl)
  rw [eb, Ideal.addf_def]
  unfold predRow
  refine congrArg₂ (· + ·) (Finset.sum_congr rfl fun j _ => ?_) rfl
  have el : lidx_main_v134 (ix2 e (0 : Fin 1)) j = ix2 e j :=
    funext fun a => Fin.ext (by match a with | ⟨0, _⟩ => rfl | ⟨1, _⟩ => rfl)
  have er : idx_main_v133 (ridx_main_v134 (ix2 e (0 : Fin 1)) j) = ix2 (0 : Fin 1) j :=
    funext fun a => Fin.ext (by match a with | ⟨0, _⟩ => rfl | ⟨1, _⟩ => rfl)
  rw [val_main_v133_apply, el, er, val_main_v132_apply, ref_hidden, val_main_call0_v0_apply, val_main_call0_cst_apply]
  rfl

end

end Cert.ReferenceIdeal.RefValue

end
-- ==== Proof.Glue.lean ====
/-
  The kernel program and the reference wrap the event's node indices, gather rows of the memory table, and scatter the
  updated rows into it with the same host operations on the same shapes. So the kernel program's gathered rows are the
  reference's, and the reference's updated table and the rows it gathers from it are the kernel program's functions of
  the two arrays of updated rows. No gather or scatter is opened: each equation is the two programs' definitions
  unfolded side by side.
-/
import proofs.«138008_j16372415332401_2_alg».proof.Proof.KernelHost
import proofs.«138008_j16372415332401_2_alg».proof.Proof.RefReadP

noncomputable section

namespace Cert.Glue

open Idealize.ShloMosaic Cert.ReferenceIdeal Cert.ReferenceIdeal.ReadP

section
variable (x0 : (⟨S1000000x128, .f32⟩ : BufTy).Contents (Elt Ideal)) (x1 x2 : (⟨S100000, .i32⟩ : BufTy).Contents (Elt Ideal))

/-- The wrapped source indices as a column: the same operations in both programs, at each of the three places
    the kernel program computes them. -/
theorem srcIdx_first : Cert.KernelIdeal.Host.hk_main_call0_v5 x1 = val_main_v5 (F := Ideal) x1 := rfl
theorem srcIdx_scatter : Cert.KernelIdeal.Host.hk_main_call0_v46 x1 = val_main_v103 (F := Ideal) x1 := rfl
theorem srcIdx_second : Cert.KernelIdeal.Host.hk_main_call0_v60 x1 = val_main_v117 (F := Ideal) x1 := rfl

/-- The wrapped destination indices as a column, likewise. -/
theorem dstIdx_first : Cert.KernelIdeal.Host.hk_main_call0_v12 x2 = val_main_v12 (F := Ideal) x2 := rfl
theorem dstIdx_scatter : Cert.KernelIdeal.Host.hk_main_call0_v53 x2 = val_main_v110 (F := Ideal) x2 := rfl
theorem dstIdx_second : Cert.KernelIdeal.Host.hk_main_call0_v67 x2 = val_main_v124 (F := Ideal) x2 := rfl

/-- The two programs' row gathers have the same dimension numbers. -/
theorem gatherDims_eq : Cert.KernelIdeal.gather_S1000000x128_S100000x1_S100000x128_1_0_n_n_0_1_1128
    = Cert.ReferenceIdeal.gather_S1000000x128_S100000x1_S100000x128_1_0_n_n_0_1_1128 := rfl

/-- The two programs' row scatters have the same dimension numbers. -/
theorem scatterDims_eq : Cert.KernelIdeal.scatter_S1000000x128_S100000x1_S100000x128_1_0_0_1
    = Cert.ReferenceIdeal.scatter_S1000000x128_S100000x1_S100000x128_1_0_0_1 := rfl

/-- The source rows of the memory table. -/
theorem gather_src : Cert.KernelIdeal.Host.hk_main_call0_v6 x0 x1 = val_main_v6 (F := Ideal) x0 x1 := by
  unfold Cert.KernelIdeal.Host.hk_main_call0_v6 val_main_v6
  rw [srcIdx_first, gatherDims_eq]

/-- The destination rows of the memory table. -/
theorem gather_dst : Cert.KernelIdeal.Host.hk_main_call0_v13 x0 x2 = val_main_v13 (F := Ideal) x0 x2 := by
  unfold Cert.KernelIdeal.Host.hk_main_call0_v13 val_main_v13
  rw [dstIdx_first, gatherDims_eq]

/-- The table after both scatters, for any two arrays of updated rows: source rows written first, then destination rows. -/
theorem table_eq (ns nd : (⟨S100000x128, .f32⟩ : BufTy).Contents (Elt Ideal)) :
    Host.scatter scatter_S1000000x128_S100000x1_S100000x128_1_0_0_1 (fun _ b => b)
        (Host.scatter scatter_S1000000x128_S100000x1_S100000x128_1_0_0_1 (fun _ b => b) x0 (val_main_v103 (F := Ideal) x1) ns)
        (val_main_v110 (F := Ideal) x2) nd
      = Cert.KernelIdeal.Host.hk_main_v0_1 x0 x1 x2 ns nd := by
  unfold Cert.KernelIdeal.Host.hk_main_v0_1 Cert.KernelIdeal.Host.hk_main_call0_v47
  rw [srcIdx_scatter, dstIdx_scatter, scatterDims_eq]

/-- The source rows gathered again from any table. -/
theorem regather_src (t : (⟨S1000000x128, .f32⟩ : BufTy).Contents (Elt Ideal)) :
    Host.gather gather_S1000000x128_S100000x1_S100000x128_1_0_n_n_0_1_1128 t (val_main_v117 (F := Ideal) x1)
      = Host.gather Cert.KernelIdeal.gather_S1000000x128_S100000x1_S100000x128_1_0_n_n_0_1_1128 t (Cert.KernelIdeal.Host.hk_main_call0_v60 x1) := by
  rw [srcIdx_second, gatherDims_eq]

/-- The destination rows gathered again from any table. -/
theorem regather_dst (t : (⟨S1000000x128, .f32⟩ : BufTy).Contents (Elt Ideal)) :
    Host.gather gather_S1000000x128_S100000x1_S100000x128_1_0_n_n_0_1_1128 t (val_main_v124 (F := Ideal) x2)
      = Host.gather Cert.KernelIdeal.gather_S1000000x128_S100000x1_S100000x128_1_0_n_n_0_1_1128 t (Cert.KernelIdeal.Host.hk_main_call0_v67 x2) := by
  rw [dstIdx_second, gatherDims_eq]

variable (x3 : (⟨S100000, .f32⟩ : BufTy).Contents (Elt Ideal)) (x4 : (⟨S100000x64, .f32⟩ : BufTy).Contents (Elt Ideal))
  (x5 : (⟨S16x1, .f32⟩ : BufTy).Contents (Elt Ideal)) (x6 : (⟨S16, .f32⟩ : BufTy).Contents (Elt Ideal))
  (x7 : (⟨S384x336, .f32⟩ : BufTy).Contents (Elt Ideal)) (x8 : (⟨S384x128, .f32⟩ : BufTy).Contents (Elt Ideal))
  (x9 x10 : (⟨S384, .f32⟩ : BufTy).Contents (Elt Ideal))

/-- The reference's updated table is the kernel program's, built from the reference's two updated-row arrays. -/
theorem table_ref :
    val_main_v111 (F := Ideal) x0 x1 x2 x3 x4 x5 x6 x7 x8 x9 x10
      = Cert.KernelIdeal.Host.hk_main_v0_1 x0 x1 x2 (val_main_v59 (F := Ideal) x0 x1 x2 x3 x4 x5 x6 x7 x8 x9 x10) (val_main_v97 (F := Ideal) x0 x1 x2 x3 x4 x5 x6 x7 x8 x9 x10) := by
  unfold val_main_v111 val_main_v104
  generalize val_main_v59 (F := Ideal) x0 x1 x2 x3 x4 x5 x6 x7 x8 x9 x10 = ns
  generalize val_main_v97 (F := Ideal) x0 x1 x2 x3 x4 x5 x6 x7 x8 x9 x10 = nd
  exact table_eq x0 x1 x2 ns nd

/-- The reference's updated source rows. -/
theorem regather_src_ref :
    val_main_v118 (F := Ideal) x0 x1 x2 x3 x4 x5 x6 x7 x8 x9 x10
      = Cert.KernelIdeal.Host.hk_main_call0_v61 x0 x1 x2 (val_main_v59 (F := Ideal) x0 x1 x2 x3 x4 x5 x6 x7 x8 x9 x10) (val_main_v97 (F := Ideal) x0 x1 x2 x3 x4 x5 x6 x7 x8 x9 x10) := by
  unfold val_main_v118 Cert.KernelIdeal.Host.hk_main_call0_v61
  rw [table_ref]
  generalize Cert.KernelIdeal.Host.hk_main_v0_1 x0 x1 x2 (val_main_v59 (F := Ideal) x0 x1 x2 x3 x4 x5 x6 x7 x8 x9 x10) (val_main_v97 (F := Ideal) x0 x1 x2 x3 x4 x5 x6 x7 x8 x9 x10) = t
  exact regather_src x1 t

/-- The reference's updated destination rows. -/
theorem regather_dst_ref :
    val_main_v125 (F := Ideal) x0 x1 x2 x3 x4 x5 x6 x7 x8 x9 x10
      = Cert.KernelIdeal.Host.hk_main_call0_v68 x0 x1 x2 (val_main_v59 (F := Ideal) x0 x1 x2 x3 x4 x5 x6 x7 x8 x9 x10) (val_main_v97 (F := Ideal) x0 x1 x2 x3 x4 x5 x6 x7 x8 x9 x10) := by
  unfold val_main_v125 Cert.KernelIdeal.Host.hk_main_call0_v68
  rw [table_ref]
  generalize Cert.KernelIdeal.Host.hk_main_v0_1 x0 x1 x2 (val_main_v59 (F := Ideal) x0 x1 x2 x3 x4 x5 x6 x7 x8 x9 x10) (val_main_v97 (F := Ideal) x0 x1 x2 x3 x4 x5 x6 x7 x8 x9 x10) = t
  exact regather_dst x2 t

end

end Cert.Glue

end
-- ==== Proof.LibDenseRelu.lean ====
/-
  Dense layers with a rectifier, over the extended reals, for any extents.

  * The plain matrix product [M, K] × [K, N] → [M, N] into an accumulator that is zero everywhere, read at an entry:
    entry (p, n) is ∑ k, l (p, k) · r (k, n), for any dimension record with the plain axis lists.
  * One dense layer: max (x · w + b, z) at entry (p, n), the bias a [1, N] row broadcast down the rows, the floor `z`
    a splat scalar: max (∑ k, x (p, k) · w (k, n) + b (0, n), z).
  * Two such layers followed by the sum of each row, kept as a column: row p of the result is
    ∑ j, max (∑ k, max (∑ l, x (p, l) · w₁ (l, k) + b₁ (0, k), z) · w₂ (k, j) + b₂ (0, j), z).
  No entry needs to be finite: only the definitions of the operations are used, no law of arithmetic.
-/
import proofs.«138008_j16372415332401_2_alg».proof.Proof.LibRank2
import proofs.«138008_j16372415332401_2_alg».proof.Proof.LibColumnCast
import Idealize.ShloMosaic.PureOps.Ideal.Laws
import Idealize.ShloMosaic.Lib.ValueIdx
import Idealize.ShloMosaic.Lib.ValueLayout
import Idealize.ShloMosaic.Lib.Pipeline.Value

noncomputable section

namespace Cert.LibDenseRelu

open Idealize.ShloMosaic Idealize.ShloMosaic.ValueIdx

/-! ## The plain product at an entry -/

section plain
variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- One dense layer with a rectifier at entry (p, n): the product plus the bias row, floored at the splat scalar. -/
theorem relu_dense_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (zb : BitVec 32) (p : Fin M) (n : Fin N) :
    maximumf (addf (matmul d prec x w (constant ⟨2, ![M, N]⟩ .f32 0x00000000#32)) (broadcastTo ⟨2, ![M, N]⟩ b hb))
        (broadcast ⟨2, ![M, N]⟩ (Scalar.ofBits (F := Ideal) .f32 zb)) (ix2 p n)
      = max (∑ k : Fin K, x (ix2 p k) * w (ix2 k n) + b (ix2 (0 : Fin 1) n)) (Ideal.ofBits .f32 zb) := by
  show max (FloatOps.matmul d prec x w (constant ⟨2, ![M, N]⟩ .f32 0x00000000#32) (ix2 p n) + broadcastTo ⟨2, ![M, N]⟩ b hb (ix2 p n))
      (Ideal.ofBits .f32 zb) = _
  rw [matmul_plain_zero_apply d h1 h2 h3 h4 h5 h6, broadcastTo_1b_ab_apply]

end plain

/-! ## Two layers and the row sums -/

/-- Row `r` of: two dense layers, each floored at `z`, then the sum along the row. -/
def mlpRowSum {B K H : ℕ} (z : EReal) (X : (⟨2, ![B, K]⟩ : Shape).Idx → EReal) (W1 : (⟨2, ![K, H]⟩ : Shape).Idx → EReal)
    (b1 : (⟨2, ![1, H]⟩ : Shape).Idx → EReal) (W2 : (⟨2, ![H, H]⟩ : Shape).Idx → EReal) (b2 : (⟨2, ![1, H]⟩ : Shape).Idx → EReal)
    (r : Fin B) : EReal :=
  ∑ j : Fin H, max (∑ k : Fin H, max (∑ l : Fin K, X (ix2 r l) * W1 (ix2 l k) + b1 (ix2 (0 : Fin 1) k)) z * W2 (ix2 k j)
    + b2 (ix2 (0 : Fin 1) j)) z

/-- The vector computation — product, bias, rectifier, change of format, product, bias, rectifier, sum over the last
    axis, the sums kept as a column — read at row `p`. -/
theorem mlp_rowsum_apply {T K H : ℕ} {φx φw : FTy}
    (d1 : DotDims ⟨2, ![T, K]⟩ ⟨2, ![K, H]⟩ ⟨2, ![T, H]⟩) (ha1 : d1.lhsContracting = [1]) (ha2 : d1.rhsContracting = [0]) (ha3 : d1.lhsNonContracting = [0])
    (ha4 : d1.rhsNonContracting = [1]) (ha5 : d1.lhsBatch = []) (ha6 : d1.rhsBatch = [])
    (d2 : DotDims ⟨2, ![T, H]⟩ ⟨2, ![H, H]⟩ ⟨2, ![T, H]⟩) (hb1 : d2.lhsContracting = [1]) (hb2 : d2.rhsContracting = [0]) (hb3 : d2.lhsNonContracting = [0])
    (hb4 : d2.rhsNonContracting = [1]) (hb5 : d2.lhsBatch = []) (hb6 : d2.rhsBatch = [])
    (x : FVec Ideal ⟨2, ![T, K]⟩ φx) (w1 : FVec Ideal ⟨2, ![K, H]⟩ φw) (b1 : FVec Ideal ⟨2, ![1, H]⟩ .f32)
    (w2 : FVec Ideal ⟨2, ![H, H]⟩ φw) (b2 : FVec Ideal ⟨2, ![1, H]⟩ .f32)
    (hb : (⟨2, ![1, H]⟩ : Shape).Broadcasts ⟨2, ![T, H]⟩) (hlt : FTy.bits .bf16 < FTy.bits .f32)
    (hr : (⟨2, ![T, H]⟩ : Shape).Reduces [1] ⟨1, ![T]⟩) (hφ : FKind.Formats .f32)
    (hacc : (0x00000000#32 : BitVec 32) = FKind.add.neutral .f32 hφ)
    (hsc : (⟨1, ![T]⟩ : Shape).ShapeCasts ⟨2, ![T, 1]⟩) (p : Fin T) (u : Fin 1) :
    shapeCast ⟨2, ![T, 1]⟩ (multiReduction .add [1] ⟨1, ![T]⟩
        (maximumf (addf (matmul d2 none (truncf .bf16
            (maximumf (addf (matmul d1 none x w1 (constant ⟨2, ![T, H]⟩ .f32 0x00000000#32)) (broadcastTo ⟨2, ![T, H]⟩ b1 hb))
              (broadcast ⟨2, ![T, H]⟩ (Scalar.ofBits (F := Ideal) .f32 0x00000000#32))) hlt)
            w2 (constant ⟨2, ![T, H]⟩ .f32 0x00000000#32)) (broadcastTo ⟨2, ![T, H]⟩ b2 hb))
          (broadcast ⟨2, ![T, H]⟩ (Scalar.ofBits (F := Ideal) .f32 0x00000000#32)))
        0x00000000#32 hr hφ hacc) hsc (ix2 p u)
      = mlpRowSum (Ideal.ofBits .f32 0x00000000#32) x w1 b1 w2 b2 p := by
  refine (Cert.LibColumnCast.shapeCast_a_a1_apply _ hsc p u).trans ?_
  refine (Cert.LibRank2.sum_last _ _ hr hφ hacc p).trans ?_
  refine Finset.sum_congr rfl fun j _ => ?_
  refine (relu_dense_apply d2 hb1 hb2 hb3 hb4 hb5 hb6 none _ w2 b2 hb 0x00000000#32 p j).trans ?_
  refine congrArg (max · _) (congrArg (· + _) (Finset.sum_congr rfl fun k _ => congrArg (· * _) ?_))
  exact (truncf_apply _ hlt (ix2 p k)).trans (relu_dense_apply d1 ha1 ha2 ha3 ha4 ha5 ha6 none x w1 b1 hb 0x00000000#32 p k)

/-- The row value depends on the input only through that row: two inputs that agree along their rows `r` and `r'`
    give the same value there. -/
theorem mlpRowSum_congr {B B' K H : ℕ} (z : EReal) (X : (⟨2, ![B, K]⟩ : Shape).Idx → EReal) (X' : (⟨2, ![B', K]⟩ : Shape).Idx → EReal)
    (W1 : (⟨2, ![K, H]⟩ : Shape).Idx → EReal) (b1 : (⟨2, ![1, H]⟩ : Shape).Idx → EReal) (W2 : (⟨2, ![H, H]⟩ : Shape).Idx → EReal)
    (b2 : (⟨2, ![1, H]⟩ : Shape).Idx → EReal) (r : Fin B) (r' : Fin B') (h : ∀ l : Fin K, X (ix2 r l) = X' (ix2 r' l)) :
    mlpRowSum z X W1 b1 W2 b2 r = mlpRowSum z X' W1 b1 W2 b2 r' := by
  unfold mlpRowSum
  simp only [h]

/-- The same, the biases also allowed to differ away from the one row that is read. -/
theorem mlpRowSum_congr_all {B B' K H : ℕ} (z : EReal) (X : (⟨2, ![B, K]⟩ : Shape).Idx → EReal) (X' : (⟨2, ![B', K]⟩ : Shape).Idx → EReal)
    (W1 W1' : (⟨2, ![K, H]⟩ : Shape).Idx → EReal) (b1 b1' : (⟨2, ![1, H]⟩ : Shape).Idx → EReal)
    (W2 W2' : (⟨2, ![H, H]⟩ : Shape).Idx → EReal) (b2 b2' : (⟨2, ![1, H]⟩ : Shape).Idx → EReal) (r : Fin B) (r' : Fin B')
    (hX : ∀ l : Fin K, X (ix2 r l) = X' (ix2 r' l)) (hW1 : W1 = W1')
    (hb1 : ∀ k : Fin H, b1 (ix2 (0 : Fin 1) k) = b1' (ix2 (0 : Fin 1) k)) (hW2 : W2 = W2')
    (hb2 : ∀ j : Fin H, b2 (ix2 (0 : Fin 1) j) = b2' (ix2 (0 : Fin 1) j)) :
    mlpRowSum z X W1 b1 W2 b2 r = mlpRowSum z X' W1' b1' W2' b2' r' := by
  subst hW1 hW2
  unfold mlpRowSum
  simp only [hX, hb1, hb2]

/-! ## Dropping a trailing unit axis -/

/-- An `[a, 1]` column cast to a vector of length `a` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibDenseRelu

end
-- ==== Proof.Bridge.lean ====
/-
  The kernel program's two results are the reference's, as functions of the launch arrays.

  The recurrent-update region leaves, row by row, the gated update computed from the four transposed column blocks of
  the input weights; the reference computes it from the 336 joined features against the whole weight rows. The two
  pre-activations are equal because a sum over the joined features splits into the four block sums, and every other
  array the region reads is, entry by entry, an entry of a launch array that the reference reads too: the gathered rows
  are the same gathers, the time embedding is the same sine, a transposed block's entry is the matrix's entry, a bias
  row's entry is the vector's entry. The memory table is then the same two scatters of the same two arrays. The
  predictor region leaves, row by row, the prediction computed from the rows gathered out of that table, and the
  reference computes the same prediction from the same rows.
-/
import proofs.«138008_j16372415332401_2_alg».proof.Proof.KernelValue
import proofs.«138008_j16372415332401_2_alg».proof.Proof.KernelHostRead
import proofs.«138008_j16372415332401_2_alg».proof.Proof.RefTime
import proofs.«138008_j16372415332401_2_alg».proof.Proof.RefGru
import proofs.«138008_j16372415332401_2_alg».proof.Proof.RefPred
import proofs.«138008_j16372415332401_2_alg».proof.Proof.Glue
import proofs.«138008_j16372415332401_2_alg».proof.Proof.LibDenseRelu

set_option maxRecDepth 16384

noncomputable section

/-! ## The two programs' host arrays, entry by entry -/

namespace Cert.Bridge

open Cert.Spec Idealize.ShloMosaic Idealize.ShloMosaic.ValueIdx
open Cert.ReferenceIdeal Cert.ReferenceIdeal.ReadP Cert.ReferenceIdeal.RefValue Cert.Glue

section
variable (x0 : (⟨S1000000x128, .f32⟩ : BufTy).Contents (Elt Ideal)) (x1 x2 : (⟨S100000, .i32⟩ : BufTy).Contents (Elt Ideal))
  (x3 : (⟨S100000, .f32⟩ : BufTy).Contents (Elt Ideal)) (x4 : (⟨S100000x64, .f32⟩ : BufTy).Contents (Elt Ideal))
  (x5 : (⟨S16x1, .f32⟩ : BufTy).Contents (Elt Ideal)) (x6 : (⟨S16, .f32⟩ : BufTy).Contents (Elt Ideal))
  (x7 : (⟨S384x336, .f32⟩ : BufTy).Contents (Elt Ideal)) (x8 : (⟨S384x128, .f32⟩ : BufTy).Contents (Elt Ideal))
  (x9 x10 : (⟨S384, .f32⟩ : BufTy).Contents (Elt Ideal))

/-- The kernel program's and the reference's time embeddings have the same rows. -/
theorem timeRow_eq (e : Fin 100000) :
    row (Cert.KernelIdeal.Host.hk_main_call0_v23 x3 x5 x6) e = row (val_main_v20 (F := Ideal) x3 x5 x6) e :=
  funext fun q => (Cert.KernelIdeal.Host.hk_te_apply x3 x5 x6 e q).trans (ref_time x3 x5 x6 e q).symm

/-- The input pre-activation from the four transposed column blocks of the input weights and the bias row is the
    one over the 336 joined features against the whole weight rows. -/
theorem giFun_eq (s d : Fin 128 → EReal) (ef : Fin 64 → EReal) (te : Fin 16 → EReal) :
    giBlocks s d ef te (colsOf (Cert.KernelIdeal.Host.hk_main_call0_v26 x7)) (colsOf (Cert.KernelIdeal.Host.hk_main_call0_v29 x7)) (colsOf (Cert.KernelIdeal.Host.hk_main_call0_v32 x7)) (colsOf (Cert.KernelIdeal.Host.hk_main_call0_v35 x7))
        (fun cc => Cert.KernelIdeal.Host.hk_main_call0_v38 x9 (ix2 (0 : Fin 1) cc))
      = giFull (cat4 s d ef te) (fun c k => x7 (ix2 c k)) (fun c => x9 (ix1 c)) := by
  funext c
  rw [giFull_cat4]
  unfold giSplit
  have w0 : colsOf (Cert.KernelIdeal.Host.hk_main_call0_v26 x7) = fun c (k : Fin 128) => x7 (ix2 c ⟨k.val, by omega⟩) :=
    funext fun c => funext fun k => Cert.KernelIdeal.Host.hk_v26_apply x7 k c
  have w1 : colsOf (Cert.KernelIdeal.Host.hk_main_call0_v29 x7) = fun c (k : Fin 128) => x7 (ix2 c ⟨128 + k.val, by omega⟩) :=
    funext fun c => funext fun k => Cert.KernelIdeal.Host.hk_v29_apply x7 k c
  have w2 : colsOf (Cert.KernelIdeal.Host.hk_main_call0_v32 x7) = fun c (k : Fin 64) => x7 (ix2 c ⟨256 + k.val, by omega⟩) :=
    funext fun c => funext fun k => Cert.KernelIdeal.Host.hk_v32_apply x7 k c
  have w3 : colsOf (Cert.KernelIdeal.Host.hk_main_call0_v35 x7) = fun c (k : Fin 16) => x7 (ix2 c ⟨320 + k.val, by omega⟩) :=
    funext fun c => funext fun k => Cert.KernelIdeal.Host.hk_v35_apply x7 k c
  have b : (fun cc => Cert.KernelIdeal.Host.hk_main_call0_v38 x9 (ix2 (0 : Fin 1) cc)) = fun c => x9 (ix1 c) :=
    funext fun cc => Cert.KernelIdeal.Host.hk_v38_apply x9 cc
  rw [w0, w1, w2, w3, b]

/-- The transposed hidden weights read column by column are the rows of the hidden weight matrix. -/
theorem hidW_eq : colsOf (Cert.KernelIdeal.Host.hk_main_call0_v37 x8) = fun c k => x8 (ix2 c k) :=
  funext fun c => funext fun k => Cert.KernelIdeal.Host.hk_v37_apply x8 k c

/-- The hidden bias row is the hidden bias vector. -/
theorem hidB_eq : (fun cc => Cert.KernelIdeal.Host.hk_main_call0_v39 x10 (ix2 (0 : Fin 1) cc)) = fun c => x10 (ix1 c) :=
  funext fun cc => Cert.KernelIdeal.Host.hk_v39_apply x10 cc

/-- Coordinate `j` of the updated source state of event `e`: the kernel program's host arrays against the reference. -/
theorem gruS_eq (e : Fin 100000) (j : Fin 128) :
    gruNew (Ideal.ofBits .f32 0x3F800000#32)
        (giBlocks (row (Cert.KernelIdeal.Host.hk_main_call0_v6 x0 x1) e) (row (Cert.KernelIdeal.Host.hk_main_call0_v13 x0 x2) e) (row x4 e) (row (Cert.KernelIdeal.Host.hk_main_call0_v23 x3 x5 x6) e)
          (colsOf (Cert.KernelIdeal.Host.hk_main_call0_v26 x7)) (colsOf (Cert.KernelIdeal.Host.hk_main_call0_v29 x7)) (colsOf (Cert.KernelIdeal.Host.hk_main_call0_v32 x7)) (colsOf (Cert.KernelIdeal.Host.hk_main_call0_v35 x7))
          (fun cc => Cert.KernelIdeal.Host.hk_main_call0_v38 x9 (ix2 (0 : Fin 1) cc)))
        (row (Cert.KernelIdeal.Host.hk_main_call0_v6 x0 x1) e) (colsOf (Cert.KernelIdeal.Host.hk_main_call0_v37 x8)) (fun cc => Cert.KernelIdeal.Host.hk_main_call0_v39 x10 (ix2 (0 : Fin 1) cc)) j
      = val_main_v59 (F := Ideal) x0 x1 x2 x3 x4 x5 x6 x7 x8 x9 x10 (ix2 e j) := by
  rw [ref_news, giFun_eq, hidW_eq, hidB_eq, gather_src, gather_dst, timeRow_eq]

/-- Coordinate `j` of the updated destination state of event `e`, likewise. -/
theorem gruD_eq (e : Fin 100000) (j : Fin 128) :
    gruNew (Ideal.ofBits .f32 0x3F800000#32)
        (giBlocks (row (Cert.KernelIdeal.Host.hk_main_call0_v6 x0 x1) e) (row (Cert.KernelIdeal.Host.hk_main_call0_v13 x0 x2) e) (row x4 e) (row (Cert.KernelIdeal.Host.hk_main_call0_v23 x3 x5 x6) e)
          (colsOf (Cert.KernelIdeal.Host.hk_main_call0_v26 x7)) (colsOf (Cert.KernelIdeal.Host.hk_main_call0_v29 x7)) (colsOf (Cert.KernelIdeal.Host.hk_main_call0_v32 x7)) (colsOf (Cert.KernelIdeal.Host.hk_main_call0_v35 x7))
          (fun cc => Cert.KernelIdeal.Host.hk_main_call0_v38 x9 (ix2 (0 : Fin 1) cc)))
        (row (Cert.KernelIdeal.Host.hk_main_call0_v13 x0 x2) e) (colsOf (Cert.KernelIdeal.Host.hk_main_call0_v37 x8)) (fun cc => Cert.KernelIdeal.Host.hk_main_call0_v39 x10 (ix2 (0 : Fin 1) cc)) j
      = val_main_v97 (F := Ideal) x0 x1 x2 x3 x4 x5 x6 x7 x8 x9 x10 (ix2 e j) := by
  rw [ref_newd, giFun_eq, hidW_eq, hidB_eq, gather_src, gather_dst, timeRow_eq]

end

end Cert.Bridge

/-! ## The prediction from the host arrays -/

namespace Cert.Bridge

open Cert.Spec Idealize.ShloMosaic Idealize.ShloMosaic.ValueIdx
open Cert.ReferenceIdeal Cert.ReferenceIdeal.ReadP Cert.ReferenceIdeal.RefValue Cert.Glue

section
variable (x0 : (⟨S1000000x128, .f32⟩ : BufTy).Contents (Elt Ideal)) (x1 x2 : (⟨S100000, .i32⟩ : BufTy).Contents (Elt Ideal))
  (x3 : (⟨S100000, .f32⟩ : BufTy).Contents (Elt Ideal)) (x4 : (⟨S100000x64, .f32⟩ : BufTy).Contents (Elt Ideal))
  (x5 : (⟨S16x1, .f32⟩ : BufTy).Contents (Elt Ideal)) (x6 : (⟨S16, .f32⟩ : BufTy).Contents (Elt Ideal))
  (x7 : (⟨S384x336, .f32⟩ : BufTy).Contents (Elt Ideal)) (x8 : (⟨S384x128, .f32⟩ : BufTy).Contents (Elt Ideal))
  (x9 x10 : (⟨S384, .f32⟩ : BufTy).Contents (Elt Ideal))
  (x11 : (⟨S128x256, .f32⟩ : BufTy).Contents (Elt Ideal)) (x12 : (⟨S128, .f32⟩ : BufTy).Contents (Elt Ideal))
  (x13 : (⟨S1x128, .f32⟩ : BufTy).Contents (Elt Ideal)) (x14 : (⟨S1, .f32⟩ : BufTy).Contents (Elt Ideal))

/-- The transposed first-layer weights read column by column are the rows of the first-layer weight matrix. -/
theorem predW_eq : colsOf (Cert.KernelIdeal.Host.hk_main_call0_v70 x11) = fun j k => x11 (ix2 j k) :=
  funext fun j => funext fun k => Cert.KernelIdeal.Host.hk_v70_apply x11 k j

/-- The first-layer bias row is the first-layer bias vector. -/
theorem predB_eq : (fun j => Cert.KernelIdeal.Host.hk_main_call0_v71 x12 (ix2 (0 : Fin 1) j)) = fun j => x12 (ix1 j) :=
  funext fun j => Cert.KernelIdeal.Host.hk_v71_apply x12 j

/-- The prediction of event `e`: the kernel program's host arrays, built from the reference's two arrays of updated
    rows, against the reference. -/
theorem predRow_eq (e : Fin 100000) :
    predRow (Ideal.ofBits .f32 0x00000000#32)
        (cat2 (row (Cert.KernelIdeal.Host.hk_main_call0_v61 x0 x1 x2 (val_main_v59 (F := Ideal) x0 x1 x2 x3 x4 x5 x6 x7 x8 x9 x10) (val_main_v97 (F := Ideal) x0 x1 x2 x3 x4 x5 x6 x7 x8 x9 x10)) e)
          (row (Cert.KernelIdeal.Host.hk_main_call0_v68 x0 x1 x2 (val_main_v59 (F := Ideal) x0 x1 x2 x3 x4 x5 x6 x7 x8 x9 x10) (val_main_v97 (F := Ideal) x0 x1 x2 x3 x4 x5 x6 x7 x8 x9 x10)) e))
        (colsOf (Cert.KernelIdeal.Host.hk_main_call0_v70 x11)) (fun j => Cert.KernelIdeal.Host.hk_main_call0_v71 x12 (ix2 (0 : Fin 1) j))
        (fun j => x13 (ix2 (0 : Fin 1) j)) (Cert.KernelIdeal.Host.hk_main_call0_v72 x14 (ix2 (0 : Fin 1) (0 : Fin 1)))
      = val_main_v138 (F := Ideal) x0 x1 x2 x3 x4 x5 x6 x7 x8 x9 x10 x11 x12 x13 x14 (ix1 e) := by
  rw [ref_pred, predW_eq, predB_eq, Cert.KernelIdeal.Host.hk_v72_apply, ← regather_src_ref, ← regather_dst_ref]

end

end Cert.Bridge

/-! ## The kernel program's results -/

namespace Cert.Bridge

open Cert.Spec Idealize.ShloMosaic Idealize.ShloMosaic.ValueIdx Idealize.ShloMosaic.TcCoe Idealize.SL.Sem
open Cert.KernelIdeal Cert.KernelIdeal.Gen Cert.KernelIdeal.Host

section
variable (m : (ℓ : Loc nD τ sig) → Buf (Elt Ideal) ℓ) (ρ : Dev nD → PrngReg) (c : Dev nD)

/-- The updated source states the recurrent-update region leaves are the reference's, as functions of the launch arrays. -/
theorem newS_eq :
    Cert.KernelIdeal.Blocks.newS (V1 m ρ) c
      = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨e, j, rfl⟩ : ∃ (e : Fin 100000) (j : Fin 128), i = ix2 e j := ⟨i 0, i 1, eq_ix2 i⟩
  refine Eq.trans ?_ (gruS_eq _ _ _ _ _ _ _ _ _ _ _ e j)
  unfold Cert.KernelIdeal.Blocks.newS
  rw [V1_main_call0_v6, V1_main_call0_v13, V1_main_arg4, V1_main_call0_v23, V1_main_call0_v26, V1_main_call0_v29,
    V1_main_call0_v32, V1_main_call0_v35, V1_main_call0_v37, V1_main_call0_v38, V1_main_call0_v39]

/-- The updated destination states, likewise. -/
theorem newD_eq :
    Cert.KernelIdeal.Blocks.newD (V1 m ρ) c
      = Cert.ReferenceIdeal.ReadP.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨e, j, rfl⟩ : ∃ (e : Fin 100000) (j : Fin 128), i = ix2 e j := ⟨i 0, i 1, eq_ix2 i⟩
  refine Eq.trans ?_ (gruD_eq _ _ _ _ _ _ _ _ _ _ _ e j)
  unfold Cert.KernelIdeal.Blocks.newD
  rw [V1_main_call0_v6, V1_main_call0_v13, V1_main_arg4, V1_main_call0_v23, V1_main_call0_v26, V1_main_call0_v29,
    V1_main_call0_v32, V1_main_call0_v35, V1_main_call0_v37, V1_main_call0_v38, V1_main_call0_v39]

/-- The memory table the kernel program returns is the reference's. -/
theorem mem_eq :
    Cert.KernelIdeal.KValue.mem m ρ c
      = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Cert.KernelIdeal.KValue.mem
  rw [newS_eq, newD_eq]
  exact (Cert.Glue.table_ref _ _ _ _ _ _ _ _ _ _ _).symm

/-- The prediction vector the kernel program returns is the reference's. -/
theorem pred_eq :
    Cert.KernelIdeal.KValue.pred m ρ c
      = Cert.ReferenceIdeal.ReadP.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨e, rfl⟩ : ∃ e : Fin 100000, i = ix1 e := ⟨i 0, eq_ix1 i⟩
  refine Eq.trans ?_ (predRow_eq _ _ _ _ _ _ _ _ _ _ _ _ _ _ _ e)
  unfold Cert.KernelIdeal.KValue.pred
  rw [Cert.LibDenseRelu.shapeCast_a1_a_apply]
  unfold Cert.KernelIdeal.Blocks1.predCol
  rw [V3_main_call0_v61, V3_main_call0_v68, V3_main_call0_v70, V3_main_call0_v71, V3_main_arg13, V3_main_call0_v72,
    W2_main_arg0, W2_main_arg1, W2_main_arg2, W2_main_arg11, W2_main_arg12, W2_main_arg14, W2_news, W2_newd,
    Cert.KernelIdeal.Blocks.final11, Cert.KernelIdeal.Blocks.final12, newS_eq, newD_eq]

end

end Cert.Bridge

end
-- ==== Proof.lean ====
/-
  The certificate's five claims.

  The kernel program and the reference compute the same two results at the ideal instance, where every float is an
  extended real, every operation the exact one and a change of format the identity:
  * the updated memory table is the launch table with the updated source states scattered at the source rows and then
    the updated destination states at the destination rows; both programs apply these same two scatters, and the updated
    states agree entry by entry — each is the gated recurrent update of one event's rows, the kernel summing the input
    projection block by block over the four groups of features where the reference sums once over their concatenation
    (addition of extended reals is commutative and associative, so the two sums agree with no finiteness assumption);
  * the prediction of an event is a dense layer over the two re-gathered rows, floored at zero, against one weight row
    plus a bias: the kernel's row sum and the reference's product with a one-column matrix are the same sum.
  The three frame claims are the generated frames of the two kernel programs and the reference's run with its results
  dropped; the idealization rewrote nothing, so the fourth claim is trivial.
-/
import proofs.«138008_j16372415332401_2_alg».proof.Defs
import proofs.«138008_j16372415332401_2_alg».proof.Proof.Gen.Kernel
import proofs.«138008_j16372415332401_2_alg».proof.Proof.Gen.Kernel.Frame
import proofs.«138008_j16372415332401_2_alg».proof.Proof.Gen.KernelIdeal
import proofs.«138008_j16372415332401_2_alg».proof.Proof.Gen.KernelIdeal.Frame
import proofs.«138008_j16372415332401_2_alg».proof.Proof.Gen.ReferenceIdeal
import proofs.«138008_j16372415332401_2_alg».proof.Proof.Gen.Pre_finite_inputs
import proofs.«138008_j16372415332401_2_alg».proof.Proof.KernelValue
import proofs.«138008_j16372415332401_2_alg».proof.Proof.RefRun
import proofs.«138008_j16372415332401_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.RunH.run (F := Ideal) m ρ)

theorem preserves : Cert.preserves_Kernel_KernelIdeal := trivial

/-- Both programs run; the kernel program's two results, as functions of its launch arrays, are the reference's last stages
    at the same arrays. -/
theorem algebraic : Cert.algebraic_KernelIdeal_ReferenceIdeal := by
  intro m ρ m' ρ' _ hagree
  refine ⟨fun c => Cert.KernelIdeal.KValue.pred m ρ c, fun c => Cert.KernelIdeal.KValue.mem m ρ c, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.RunH.run (F := Ideal) m' ρ')
  · obtain ⟨a0, a1, a2, a3, a4, a5, a6, a7, a8, a9, a10, a11, a12, a13, a14⟩ := hagree c
    rw [a0, a1, a2, a3, a4, a5, a6, a7, a8, a9, a10, a11, a12, a13, a14]
    exact (Cert.Bridge.pred_eq m ρ c).symm
  · obtain ⟨a0, a1, a2, a3, a4, a5, a6, a7, a8, a9, a10, a11, a12, a13, a14⟩ := hagree c
    rw [a0, a1, a2, a3, a4, a5, a6, a7, a8, a9, a10]
    exact (Cert.Bridge.mem_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
